-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S8192x512_S8192_d1 : S8192x512.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := mulf main_arg0 main_arg0
  let main_cst_0 : FVec F S_ .f32 := constant S_ .f32 0x00000000#32
  let main_v5 : FVec F S8192 .f32 := (fun x v => Host.reduceAdd x v reducesTo_S8192x512_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 19
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x1, .i32⟩
  | .hbm, ⟨11, _⟩ => ⟨S1x8192, .i32⟩
  | .hbm, ⟨12, _⟩ => ⟨S8192x1, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_25 : BitVec 32 := 0#32
  let v61 : BitVec 1 := Scalar.cmpi .ne v60 c0_i32_25
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  natLt_1_32 : 1 < 32
  iota_S1024x1_d0_w32 : S1024x1.Iotas .tc 32 [0]
  iota_S1x512_d1_w32 : S1x512.Iotas .tc 32 [1]
  reduces_S1024x512_S1024 : S1024x512.Reduces [1] S1024
  shapeCasts_S1024_S1024x1 : S1024.ShapeCasts S1024x1
  shapeCasts_S8192x1_S8192 : S8192x1.ShapeCasts S8192
  reducesTo_S8192_S_d0 : S8192.ReducesTo [0] S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S8192x1, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S512x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  bcast_S_S8192x1 : S_.BroadcastsInDim S8192x1 (![] : Fin 0 → Fin S8192x1.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KbBase.lean ====
/-
  What every module about the word-level kernel's run shares.

  When the grid is entered the core's buffers hold what the host operations before it left: the feature rows
  divided by their lengths, and the labels laid out once as a column and once as a row.  `V` names those
  contents, `iblk` the block of them a window shows the body at a grid point.  The normalised features are
  handed to the body through TWO windows (row blocks and column blocks of the same array), so each of the two
  holds the array at one half of the full share (`qs`); nothing ever writes an input array, so two readers
  suffice.
-/
import proofs.«121029_j88064009437247_1_alg».proof.Proof.Gen.Kernel.Launch
import proofs.«121029_j88064009437247_1_alg».proof.Proof.Gen.Kernel.Skeleton
import proofs.«121029_j88064009437247_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s buffer contents when the grid is entered: the launch contents after the ten host operations that
    normalise the rows and lay the labels out. -/
abbrev V0 (c : Dev nD) : Valuation τ sig (Elt F) := StableHlo.after (List.flatten [hostOps0, hostOps0_1]) (fun b => m (c, b))

/-- The same read at a TensorCore reference. -/
abbrev V (c : Dev nD) (b : Ref sig .tc) : Buf (Elt F) ((c : Thread nD τ).loc b) := V0 m c (Proc.devRef .tc b)

/-- The share each window holds its array at: the two windows onto the normalised features one half each, the
    label column, the label row and the result outright. -/
def qs : Fin 5 → PosShare TreeShare := ![fullShare.left, fullShare.right, fullShare, fullShare, fullShare]

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Frm

end
-- ==== Proof.KbRuns.lean ====
/-
  What the three control cases of the word-level kernel's body share.

  The grid has 8 row blocks times 16 column blocks, the column block moving fastest, so a point t is the pair
  (t / 16, t % 16).  The body zeroes its three running sums when the column block is the first (t % 16 = 0) and
  finishes the row block's result when it is the last (t % 16 = 15); at every point it adds the column block's
  lane sums to the three running sums.  Hence three cases: FIRST (t % 16 = 0), MIDDLE (0 < t % 16 < 15) and
  LAST (t % 16 = 15).  The result window is stored only in the LAST case, and only there is it written back; in
  the other two the body leaves the window's buffer as it found it.

  The two conditions are stated as the body computes them and decided in closed form over the 128 points.  The
  four input windows are never idle, and each input's current buffer holds the input's block at the point
  whether or not the block was fetched there (an unfetched block's index has not moved).
-/
import proofs.«121029_j88064009437247_1_alg».proof.Proof.KbBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two conditions -/

/-- "The column block is the first": the body's test before it zeroes the running sums, as it computes it from
    the grid coordinates. -/
abbrev isFirst (i : grid0.Coords) : Prop :=
  (Scalar.cmpi .ne (Scalar.extui (Scalar.cmpi .eq (BitVec.ofNat 32 (i 1).val) 0#32)) 0#32) = 1#1

/-- It holds exactly at the points with t % 16 = 0. -/
theorem isFirst_iff : ∀ t : Fin cfg0.N, isFirst (grid0.coords t) ↔ t.val % 16 = 0 :=
  (by decide +kernel : ∀ t : Fin grid0.N, isFirst (grid0.coords t) ↔ t.val % 16 = 0)

/-- "The column block is the last": the body's test before it finishes the row block. -/
abbrev isLast (i : grid0.Coords) : Prop := k0_cond2 i = 1#1

/-- It holds exactly at the points with t % 16 = 15. -/
theorem isLast_iff : ∀ t : Fin cfg0.N, isLast (grid0.coords t) ↔ t.val % 16 = 15 :=
  (by decide +kernel : ∀ t : Fin grid0.N, isLast (grid0.coords t) ↔ t.val % 16 = 15)

/-! ## Which windows are idle where -/

/-- The four inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- Where the column block is not the last, the result window is idle … -/
theorem res_idle : ∀ t : Fin cfg0.N, ¬isLast (grid0.coords t) → cfg0.idle 4 (grid0.coords t) = true := by decide +kernel
/-- … and is not written back. -/
theorem res_noFlush : ∀ t : Fin cfg0.N, ¬isLast (grid0.coords t) → (cfg0.win 4).flush t = false := by decide +kernel
/-- Where it is the last, the result window is live. -/
theorem res_live : ∀ t : Fin cfg0.N, isLast (grid0.coords t) → cfg0.idle 4 (grid0.coords t) = false := by decide +kernel

/-! ## The memrefs the body is called with -/

/-- Each window's current buffer at point t, spelled as the body is called with it, and its wholeness. -/
abbrev stg0 (t : Fin cfg0.N) : Memref sig .tc .vmem S1024x512 .bf16 := win0_0.stage (cfg0.slots t 0)
abbrev stgW0 (t : Fin cfg0.N) : (stg0 t).IsWhole := hstage0_0 ((cfg0.slots t 0).cast nbuf0_0)
abbrev stg1 (t : Fin cfg0.N) : Memref sig .tc .vmem S512x512 .bf16 := win0_1.stage (cfg0.slots t 1)
abbrev stgW1 (t : Fin cfg0.N) : (stg1 t).IsWhole := hstage0_1 ((cfg0.slots t 1).cast nbuf0_1)
abbrev stg2 (t : Fin cfg0.N) : Memref sig .tc .vmem S1024x1 .i32 := win0_2.stage (cfg0.slots t 2)
abbrev stgW2 (t : Fin cfg0.N) : (stg2 t).IsWhole := hstage0_2 ((cfg0.slots t 2).cast nbuf0_2)
abbrev stg3 (t : Fin cfg0.N) : Memref sig .tc .vmem S1x512 .i32 := win0_3.stage (cfg0.slots t 3)
abbrev stgW3 (t : Fin cfg0.N) : (stg3 t).IsWhole := hstage0_3 ((cfg0.slots t 3).cast nbuf0_3)
abbrev stg4 (t : Fin cfg0.N) : Memref sig .tc .vmem S1024x1 .f32 := win0_4.stage (cfg0.slots t 4)
abbrev stgW4 (t : Fin cfg0.N) : (stg4 t).IsWhole := hstage0_4 ((cfg0.slots t 4).cast nbuf0_4)

/-- The three running sums: whole buffers of the kernel's own, not staged by the pipeline.  The first is the sum
    of mask times shifted similarity, the second the count of positives, the third the sum of exponentials. -/
abbrev acc0 : Memref sig .tc .vmem S1024x1 .f32 := Memref.whole cc0_scratch0
abbrev acc1 : Memref sig .tc .vmem S1024x1 .f32 := Memref.whole cc0_scratch1
abbrev acc2 : Memref sig .tc .vmem S1024x1 .f32 := Memref.whole cc0_scratch2

/-- One view of a [1024,1] buffer through which contents left by stores are read back; all three running sums
    and the result block have this shape, and a covering list of stores reads back the same through any whole
    view. -/
abbrev colV : View sig .tc .vmem S1024x1 .f32 := acc0.view

/-- The invariant the pipeline hands the body before the first point and takes back after the last: the three
    running sums owned whole at some contents each, and the generator register at some state. -/
theorem PhiA_open (c : Dev nD) :
    (Pipeline.ΦA spec0 c : sProp 𝕄)
      = iprop(iprop((∃ d, owns (c : Thread nD τ) acc0 fullShare d) ∗ (∃ d, owns (c : Thread nD τ) acc1 fullShare d)
          ∗ (∃ d, owns (c : Thread nD τ) acc2 fullShare d)) ∗ (∃ r, prngReg c r)) := by
  unfold Pipeline.ΦA; rw [scopedRest0_eq]; simp only [acc0, acc1, acc2, owns_whole]; try rfl

/-! ## Each input's buffer holds its block -/

/-- For any proof data whose arrays are the grid-entry contents and whose body leaves input w's block in place,
    input w's current buffer holds its block at every point. -/
theorem in0_found {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem in1_found {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem in2_found {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem in3_found {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.Kernel.Frm

end
-- ==== Proof.KbRunA.lean ====
/-
  The body's run at a point of the FIRST case (the column block is the first of its row block, and not the last).

  The body zeroes the three running sums, loads the four input blocks whole, and adds to each running sum the
  column block's lane sum: so each running sum ends holding 0 plus this block's contribution, whatever it held
  before.  Nothing is stored into the result block, which is handed back as it was found.

  The run is stated on any whole memrefs and any input contents, so that it applies at every such point; what
  the stores leave in each running sum is a list of stores that the run itself determines.
-/
import proofs.«121029_j88064009437247_1_alg».proof.Proof.KbRuns

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The FIRST case.  Given the four inputs at contents x0 … x3, the result buffer at any contents xr and the three
    running sums at anything, the body runs to a continuation that holds the inputs and the result buffer as they
    were and each running sum with a list of stores written into it; the three lists are the first three
    components. -/
noncomputable def runFirst (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) :
    Σ' (L0 : List (View.Piece (Elt F) S1024x1 .f32)) (L1 : List (View.Piece (Elt F) S1024x1 .f32)), { L2 : List (View.Piece (Elt F) S1024x1 .f32) //
      ∀ (𝒱₀ : Variants) (xr : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
            ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
                ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2)) -∗ K ⟨⟩))
          ⊢ wp frame (wpE (defs₀ (F := F)) 𝒱₀ c none) E (cc0__supcon_kernel i a2 h2 a3 h3 a4 h4 a5 h5 a6 h6 a7 h7 a8 h8 a9 h9) K } := by
  refine ⟨?_, ?_, ?_, fun 𝒱₀ xr E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %g7, -, S0⟩, ⟨%d8, %g8, -, S1⟩, ⟨%d9, %g9, -, S2⟩, Hk⟩
    obtain rfl := h2.eq_unread hf0; obtain rfl := h3.eq_unread hf1; obtain rfl := h4.eq_unread hf2; obtain rfl := h5.eq_unread hf3; obtain rfl := h6.eq_unread hf4
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [S0]; · iexists _; iexact S0
    isplitl [S1]; · iexists _; iexact S1
    iexists _; iexact S2

end Cert.Kernel.Frm

end
-- ==== Proof.KbRunB.lean ====
/-
  The body's run at a point of the MIDDLE case (the column block is neither the first nor the last).

  The body loads the four input blocks whole and adds to each running sum the column block's lane sum, so each
  running sum ends holding what the point before left in it plus this block's contribution.  Nothing is stored
  into the result block, which is handed back as it was found.
-/
import proofs.«121029_j88064009437247_1_alg».proof.Proof.KbRunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The MIDDLE case.  Given the four inputs at contents x0 … x3, the result buffer at any contents xr and the
    three running sums at contents s0 s1 s2, the body runs to a continuation that holds the inputs and the result
    buffer as they were and each running sum with a list of stores written into it. -/
noncomputable def runMiddle (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) :
    Σ' (L0 : List (View.Piece (Elt F) S1024x1 .f32)) (L1 : List (View.Piece (Elt F) S1024x1 .f32)), { L2 : List (View.Piece (Elt F) S1024x1 .f32) //
      ∀ (𝒱₀ : Variants) (xr : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
            ∗ owns (c : Thread nD τ) a7 fullShare s0 ∗ owns (c : Thread nD τ) a8 fullShare s1 ∗ owns (c : Thread nD τ) a9 fullShare s2
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
                ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2)) -∗ K ⟨⟩))
          ⊢ wp frame (wpE (defs₀ (F := F)) 𝒱₀ c none) E (cc0__supcon_kernel i a2 h2 a3 h3 a4 h4 a5 h5 a6 h6 a7 h7 a8 h8 a9 h9) K } := by
  refine ⟨?_, ?_, ?_, fun 𝒱₀ xr E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%g7, %hg7, S0⟩, ⟨%g8, %hg8, S1⟩, ⟨%g9, %hg9, S2⟩, Hk⟩
    obtain rfl := h2.eq_unread hf0; obtain rfl := h3.eq_unread hf1; obtain rfl := h4.eq_unread hf2; obtain rfl := h5.eq_unread hf3; obtain rfl := h6.eq_unread hf4
    obtain rfl := h7.eq_unread hg7; obtain rfl := h8.eq_unread hg8; obtain rfl := h9.eq_unread hg9
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [S0]; · iexists _; iexact S0
    isplitl [S1]; · iexists _; iexact S1
    iexists _; iexact S2

end Cert.Kernel.Frm

end
-- ==== Proof.KbRunC.lean ====
/-
  The body's run at a point of the LAST case (the column block is the last of its row block, and not the first).

  The body loads the four input blocks whole and adds to each running sum the column block's lane sum, as in
  the middle case; it then reads the three finished sums back and stores into the whole result block, row by
  row, the first sum divided by the second less the logarithm of the third plus the guard.
-/
import proofs.«121029_j88064009437247_1_alg».proof.Proof.KbRunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The LAST case.  Given the four inputs at contents x0 … x3, the result buffer at anything and the three running
    sums at contents s0 s1 s2, the body runs to a continuation that holds the inputs as they were and the result
    buffer and each running sum with a list of stores written into it; the result buffer's list comes first. -/
noncomputable def runLast (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) :
    Σ' (LR : List (View.Piece (Elt F) S1024x1 .f32)) (L0 : List (View.Piece (Elt F) S1024x1 .f32)) (L1 : List (View.Piece (Elt F) S1024x1 .f32)), { L2 : List (View.Piece (Elt F) S1024x1 .f32) //
      ∀ (𝒱₀ : Variants) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d)
            ∗ owns (c : Thread nD τ) a7 fullShare s0 ∗ owns (c : Thread nD τ) a8 fullShare s1 ∗ owns (c : Thread nD τ) a9 fullShare s2
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LR)
                ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2)) -∗ K ⟨⟩))
          ⊢ wp frame (wpE (defs₀ (F := F)) 𝒱₀ c none) E (cc0__supcon_kernel i a2 h2 a3 h3 a4 h4 a5 h5 a6 h6 a7 h7 a8 h8 a9 h9) K } := by
  refine ⟨?_, ?_, ?_, ?_, fun 𝒱₀ E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%d4, %f4, -, H4⟩, ⟨%g7, %hg7, S0⟩, ⟨%g8, %hg8, S1⟩, ⟨%g9, %hg9, S2⟩, Hk⟩
    obtain rfl := h2.eq_unread hf0; obtain rfl := h3.eq_unread hf1; obtain rfl := h4.eq_unread hf2; obtain rfl := h5.eq_unread hf3
    obtain rfl := h7.eq_unread hg7; obtain rfl := h8.eq_unread hg8; obtain rfl := h9.eq_unread hg9
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [S0]; · iexists _; iexact S0
    isplitl [S1]; · iexists _; iexact S1
    iexists _; iexact S2

end Cert.Kernel.Frm

end
-- ==== Proof.KbBody.lean ====
/-
  The word-level kernel's proof data and body obligation.

  Along a row block the kernel keeps three running sums over the column blocks seen so far: for every row p of
  the block, the sum over columns q of mask(p,q) times the shifted similarity, the count of columns with
  mask(p,q) = 1, and the sum of exp(shifted similarity) over the columns q other than p.  The first column block
  starts them at zero, every column block adds its own lane sums, and the last one stores, for every row, the first
  sum divided by the second, less the logarithm of the third plus the guard.

  This module names what each of the three control cases leaves in each running sum and in the result block,
  says what they hold after every grid point by recursion on the point, and proves that the body, called at any
  point on buffers holding that, leaves them holding the next point's: which is what the pipeline asks of a body.
  The variable m is the memory at launch, from which the blocks the windows show are read.
-/
import proofs.«121029_j88064009437247_1_alg».proof.Proof.KbRunC

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each case leaves -/

/-- The stores the FIRST case makes into running sum 0 (the sum of mask times shifted similarity) cover it. -/
theorem coverFirst0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) (y : S1024x1.Idx) :
    ∃ pc ∈ (runFirst c i a2 h2 a3 h3 a4 h4 a5 h5 a6 h6 a7 h7 a8 h8 a9 h9 hF hL x0 x1 x2 x3).1, y ∈ pc.1.set :=
  View.cover_of_tiledL (runFirst c i a2 h2 a3 h3 a4 h4 a5 h5 a6 h6 a7 h7 a8 h8 a9 h9 hF hL x0 x1 x2 x3).1 S1024x1.size (by sl_kernel_rfl) y

/-- What the FIRST case leaves in running sum 0: its stores read back. -/
def leftFirst0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) : Vec F S1024x1 .f32 :=
  colV.read (Elt F) (colV.writes (Elt F) colV.junk (runFirst c i a2 h2 a3 h3 a4 h4 a5 h5 a6 h6 a7 h7 a8 h8 a9 h9 hF hL x0 x1 x2 x3).1)

/-- The stores the FIRST case makes into running sum 1 (the count of positives) cover it. -/
theorem coverFirst1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) (y : S1024x1.Idx) :
    ∃ pc ∈ (runFirst c i a2 h2 a3 h3 a4 h4 a5 h5 a6 h6 a7 h7 a8 h8 a9 h9 hF hL x0 x1 x2 x3).2.1, y ∈ pc.1.set :=
  View.cover_of_tiledL (runFirst c i a2 h2 a3 h3 a4 h4 a5 h5 a6 h6 a7 h7 a8 h8 a9 h9 hF hL x0 x1 x2 x3).2.1 S1024x1.size (by sl_kernel_rfl) y

/-- What the FIRST case leaves in running sum 1: its stores read back. -/
def leftFirst1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) : Vec F S1024x1 .f32 :=
  colV.read (Elt F) (colV.writes (Elt F) colV.junk (runFirst c i a2 h2 a3 h3 a4 h4 a5 h5 a6 h6 a7 h7 a8 h8 a9 h9 hF hL x0 x1 x2 x3).2.1)

/-- The stores the FIRST case makes into running sum 2 (the sum of exponentials) cover it. -/
theorem coverFirst2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) (y : S1024x1.Idx) :
    ∃ pc ∈ (runFirst c i a2 h2 a3 h3 a4 h4 a5 h5 a6 h6 a7 h7 a8 h8 a9 h9 hF hL x0 x1 x2 x3).2.2.1, y ∈ pc.1.set :=
  View.cover_of_tiledL (runFirst c i a2 h2 a3 h3 a4 h4 a5 h5 a6 h6 a7 h7 a8 h8 a9 h9 hF hL x0 x1 x2 x3).2.2.1 S1024x1.size (by sl_kernel_rfl) y

/-- What the FIRST case leaves in running sum 2: its stores read back. -/
def leftFirst2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) : Vec F S1024x1 .f32 :=
  colV.read (Elt F) (colV.writes (Elt F) colV.junk (runFirst c i a2 h2 a3 h3 a4 h4 a5 h5 a6 h6 a7 h7 a8 h8 a9 h9 hF hL x0 x1 x2 x3).2.2.1)

/-- The stores the MIDDLE case makes into running sum 0 (the sum of mask times shifted similarity) cover it. -/
theorem coverMiddle0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runMiddle c i a2 h2 a3 h3 a4 h4 a5 h5 a6 h6 a7 h7 a8 h8 a9 h9 hF hL x0 x1 x2 x3 s0 s1 s2).1, y ∈ pc.1.set :=
  View.cover_of_tiledL (runMiddle c i a2 h2 a3 h3 a4 h4 a5 h5 a6 h6 a7 h7 a8 h8 a9 h9 hF hL x0 x1 x2 x3 s0 s1 s2).1 S1024x1.size (by sl_kernel_rfl) y

/-- What the MIDDLE case leaves in running sum 0: its stores read back. -/
def leftMiddle0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runMiddle c i a2 h2 a3 h3 a4 h4 a5 h5 a6 h6 a7 h7 a8 h8 a9 h9 hF hL x0 x1 x2 x3 s0 s1 s2).1)

/-- The stores the MIDDLE case makes into running sum 1 (the count of positives) cover it. -/
theorem coverMiddle1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runMiddle c i a2 h2 a3 h3 a4 h4 a5 h5 a6 h6 a7 h7 a8 h8 a9 h9 hF hL x0 x1 x2 x3 s0 s1 s2).2.1, y ∈ pc.1.set :=
  View.cover_of_tiledL (runMiddle c i a2 h2 a3 h3 a4 h4 a5 h5 a6 h6 a7 h7 a8 h8 a9 h9 hF hL x0 x1 x2 x3 s0 s1 s2).2.1 S1024x1.size (by sl_kernel_rfl) y

/-- What the MIDDLE case leaves in running sum 1: its stores read back. -/
def leftMiddle1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runMiddle c i a2 h2 a3 h3 a4 h4 a5 h5 a6 h6 a7 h7 a8 h8 a9 h9 hF hL x0 x1 x2 x3 s0 s1 s2).2.1)

/-- The stores the MIDDLE case makes into running sum 2 (the sum of exponentials) cover it. -/
theorem coverMiddle2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runMiddle c i a2 h2 a3 h3 a4 h4 a5 h5 a6 h6 a7 h7 a8 h8 a9 h9 hF hL x0 x1 x2 x3 s0 s1 s2).2.2.1, y ∈ pc.1.set :=
  View.cover_of_tiledL (runMiddle c i a2 h2 a3 h3 a4 h4 a5 h5 a6 h6 a7 h7 a8 h8 a9 h9 hF hL x0 x1 x2 x3 s0 s1 s2).2.2.1 S1024x1.size (by sl_kernel_rfl) y

/-- What the MIDDLE case leaves in running sum 2: its stores read back. -/
def leftMiddle2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runMiddle c i a2 h2 a3 h3 a4 h4 a5 h5 a6 h6 a7 h7 a8 h8 a9 h9 hF hL x0 x1 x2 x3 s0 s1 s2).2.2.1)

/-- The stores the LAST case makes into running sum 0 (the sum of mask times shifted similarity) cover it. -/
theorem coverLast0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).2.1, y ∈ pc.1.set :=
  View.cover_of_tiledL (runLast c i a2 h2 a3 h3 a4 h4 a5 h5 a6 h6 a7 h7 a8 h8 a9 h9 hF hL x0 x1 x2 x3 s0 s1 s2).2.1 S1024x1.size (by sl_kernel_rfl) y

/-- What the LAST case leaves in running sum 0: its stores read back. -/
def leftLast0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).2.1)

/-- The stores the LAST case makes into running sum 1 (the count of positives) cover it. -/
theorem coverLast1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).2.2.1, y ∈ pc.1.set :=
  View.cover_of_tiledL (runLast c i a2 h2 a3 h3 a4 h4 a5 h5 a6 h6 a7 h7 a8 h8 a9 h9 hF hL x0 x1 x2 x3 s0 s1 s2).2.2.1 S1024x1.size (by sl_kernel_rfl) y

/-- What the LAST case leaves in running sum 1: its stores read back. -/
def leftLast1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).2.2.1)

/-- The stores the LAST case makes into running sum 2 (the sum of exponentials) cover it. -/
theorem coverLast2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).2.2.2.1, y ∈ pc.1.set :=
  View.cover_of_tiledL (runLast c i a2 h2 a3 h3 a4 h4 a5 h5 a6 h6 a7 h7 a8 h8 a9 h9 hF hL x0 x1 x2 x3 s0 s1 s2).2.2.2.1 S1024x1.size (by sl_kernel_rfl) y

/-- What the LAST case leaves in running sum 2: its stores read back. -/
def leftLast2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).2.2.2.1)

/-- The store the LAST case makes into the result block covers it. -/
theorem coverRes (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).1, y ∈ pc.1.set :=
  View.cover_of_tiledL (runLast c i a2 h2 a3 h3 a4 h4 a5 h5 a6 h6 a7 h7 a8 h8 a9 h9 hF hL x0 x1 x2 x3 s0 s1 s2).1 S1024x1.size (by sl_kernel_rfl) y

/-- What the LAST case leaves in the result block: its store read back. -/
def leftRes (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).1)

/-! ## The cases at a grid point -/

theorem prevLt (t : Fin cfg0.N) : t.val - 1 < cfg0.N := Nat.lt_of_le_of_lt (Nat.sub_le _ _) t.isLt
theorem notLast_of_first (t : Fin cfg0.N) (h0 : t.val % 16 = 0) : ¬isLast (grid0.coords t) :=
  fun h => by have h' := (isLast_iff t).mp h; omega
theorem notFirst_of_last (t : Fin cfg0.N) (h1 : t.val % 16 = 15) : ¬isFirst (grid0.coords t) :=
  fun h => by have h' := (isFirst_iff t).mp h; omega
theorem notFirst_of (t : Fin cfg0.N) (h0 : ¬t.val % 16 = 0) : ¬isFirst (grid0.coords t) := fun h => h0 ((isFirst_iff t).mp h)
theorem notLast_of (t : Fin cfg0.N) (h1 : ¬t.val % 16 = 15) : ¬isLast (grid0.coords t) := fun h => h1 ((isLast_iff t).mp h)

/-- The three running sums after a point of the FIRST case: each is zero plus the point's contribution. -/
def firstAt (c : Dev nD) (t : Fin cfg0.N) (hF : isFirst (grid0.coords t)) (hL : ¬isLast (grid0.coords t)) : Vec F S1024x1 .f32 × Vec F S1024x1 .f32 × Vec F S1024x1 .f32 :=
  (leftFirst0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t),
   leftFirst1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t),
   leftFirst2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t))

/-- After a point of the MIDDLE case, from what the point before left (s). -/
def middleAt (c : Dev nD) (t : Fin cfg0.N) (hF : ¬isFirst (grid0.coords t)) (hL : ¬isLast (grid0.coords t)) (s : Vec F S1024x1 .f32 × Vec F S1024x1 .f32 × Vec F S1024x1 .f32) : Vec F S1024x1 .f32 × Vec F S1024x1 .f32 × Vec F S1024x1 .f32 :=
  (leftMiddle0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftMiddle1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftMiddle2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)

/-- After a point of the LAST case, from what the point before left (s). -/
def lastAt (c : Dev nD) (t : Fin cfg0.N) (hF : ¬isFirst (grid0.coords t)) (hL : isLast (grid0.coords t)) (s : Vec F S1024x1 .f32 × Vec F S1024x1 .f32 × Vec F S1024x1 .f32) : Vec F S1024x1 .f32 × Vec F S1024x1 .f32 × Vec F S1024x1 .f32 :=
  (leftLast0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftLast1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftLast2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)

/-- The result block a point of the LAST case stores, from what the point before left (s). -/
def resAt (c : Dev nD) (t : Fin cfg0.N) (hF : ¬isFirst (grid0.coords t)) (hL : isLast (grid0.coords t)) (s : Vec F S1024x1 .f32 × Vec F S1024x1 .f32 × Vec F S1024x1 .f32) : Vec F S1024x1 .f32 :=
  leftRes c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2

/-! ## What the running sums and the result block hold after each point -/

/-- THE ACCUMULATION: the three running sums after point n, by recursion on n.  A point of the first case starts
    afresh; any other continues from what the point before left. -/
def accAt (c : Dev nD) : (n : ℕ) → n < cfg0.N → Vec F S1024x1 .f32 × Vec F S1024x1 .f32 × Vec F S1024x1 .f32
  | 0, hn => firstAt m c ⟨0, hn⟩ ((isFirst_iff ⟨0, hn⟩).mpr (Nat.zero_mod _)) (notLast_of_first ⟨0, hn⟩ (Nat.zero_mod _))
  | n + 1, hn =>
    if h0 : (n + 1) % 16 = 0 then
      firstAt m c ⟨n + 1, hn⟩ ((isFirst_iff ⟨n + 1, hn⟩).mpr h0) (notLast_of_first ⟨n + 1, hn⟩ h0)
    else if h1 : (n + 1) % 16 = 15 then
      lastAt m c ⟨n + 1, hn⟩ (notFirst_of ⟨n + 1, hn⟩ h0) ((isLast_iff ⟨n + 1, hn⟩).mpr h1) (accAt c n (Nat.lt_of_succ_lt hn))
    else
      middleAt m c ⟨n + 1, hn⟩ (notFirst_of ⟨n + 1, hn⟩ h0) (notLast_of ⟨n + 1, hn⟩ h1) (accAt c n (Nat.lt_of_succ_lt hn))

/-- At a point of the first case: that case's sums. -/
theorem accAt_first (c : Dev nD) (t : Fin cfg0.N) (h0 : t.val % 16 = 0) :
    accAt m c t.val t.isLt = firstAt m c t ((isFirst_iff t).mpr h0) (notLast_of_first t h0) := by
  obtain ⟨n, hn⟩ := t
  cases n with
  | zero => exact rfl
  | succ n => exact (dif_pos h0).trans rfl

/-- At a point of the middle case: that case's sums over what the point before left. -/
theorem accAt_middle (c : Dev nD) (t : Fin cfg0.N) (h0 : ¬t.val % 16 = 0) (h1 : ¬t.val % 16 = 15) :
    accAt m c t.val t.isLt = middleAt m c t (notFirst_of t h0) (notLast_of t h1) (accAt m c (t.val - 1) (prevLt t)) := by
  obtain ⟨n, hn⟩ := t
  cases n with
  | zero => exact absurd (Nat.zero_mod _) h0
  | succ n => exact (dif_neg h0).trans ((dif_neg h1).trans rfl)

/-- At a point of the last case: that case's sums over what the point before left. -/
theorem accAt_last (c : Dev nD) (t : Fin cfg0.N) (h0 : ¬t.val % 16 = 0) (h1 : t.val % 16 = 15) :
    accAt m c t.val t.isLt = lastAt m c t (notFirst_of t h0) ((isLast_iff t).mpr h1) (accAt m c (t.val - 1) (prevLt t)) := by
  obtain ⟨n, hn⟩ := t
  cases n with
  | zero => exact absurd (Nat.zero_mod _) h0
  | succ n => exact (dif_neg h0).trans ((dif_pos h1).trans rfl)

/-- The result window's buffer after point t: at a point of the last case the block stored there; elsewhere the
    body stores nothing into it and nothing reads this value (unspecified contents). -/
def outAt (c : Dev nD) (t : Fin cfg0.N) : Vec F S1024x1 .f32 :=
  if h1 : t.val % 16 = 15 then
    resAt m c t (notFirst_of_last t h1) ((isLast_iff t).mpr h1) (accAt m c (t.val - 1) (prevLt t))
  else colV.read (Elt F) colV.junk

theorem outAt_last (c : Dev nD) (t : Fin cfg0.N) (h1 : t.val % 16 = 15) :
    outAt m c t = resAt m c t (notFirst_of_last t h1) ((isLast_iff t).mpr h1) (accAt m c (t.val - 1) (prevLt t)) := dif_pos h1

/-! ## The invariant between points -/

/-- Before point n: at n = 0 what the pipeline hands over (the running sums at anything); afterwards the three
    running sums owned whole at what point n - 1 left, and the generator register at some state. -/
def PhiAt (c : Dev nD) : (n : ℕ) → n ≤ cfg0.N → sProp 𝕄
  | 0, _ => Pipeline.ΦA spec0 c
  | n + 1, hn => iprop(iprop(owns (c : Thread nD τ) acc0 fullShare (accAt m c n hn).1 ∗ owns (c : Thread nD τ) acc1 fullShare (accAt m c n hn).2.1
      ∗ owns (c : Thread nD τ) acc2 fullShare (accAt m c n hn).2.2) ∗ (∃ r, prngReg c r))

theorem PhiAt_zero (c : Dev nD) (n : ℕ) (h : n ≤ cfg0.N) (hz : n = 0) : PhiAt m c n h = Pipeline.ΦA spec0 c := by
  subst hz; rfl

theorem PhiAt_succ (c : Dev nD) (n : ℕ) (hn : n < cfg0.N) :
    PhiAt m c (n + 1) hn = iprop(iprop(owns (c : Thread nD τ) acc0 fullShare (accAt m c n hn).1 ∗ owns (c : Thread nD τ) acc1 fullShare (accAt m c n hn).2.1
      ∗ owns (c : Thread nD τ) acc2 fullShare (accAt m c n hn).2.2) ∗ (∃ r, prngReg c r)) := rfl

theorem PhiAt_pos (c : Dev nD) (n : ℕ) (h : n ≤ cfg0.N) (hz : n ≠ 0) :
    PhiAt m c n h = iprop(iprop(owns (c : Thread nD τ) acc0 fullShare (accAt m c (n - 1) (by omega)).1 ∗ owns (c : Thread nD τ) acc1 fullShare (accAt m c (n - 1) (by omega)).2.1
      ∗ owns (c : Thread nD τ) acc2 fullShare (accAt m c (n - 1) (by omega)).2.2) ∗ (∃ r, prngReg c r)) := by
  cases n with
  | zero => exact absurd rfl hz
  | succ n => rfl

/-! ## The proof data -/

/-- The pipeline's proof data on core c: the arrays as the grid finds them; after the body at point t each input's
    buffer at its block and the result window's at outAt; between points the invariant above; the two windows onto
    the normalised features at one half share each; nothing owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val (Nat.le_of_lt_succ t.isLt)
  q := qs
  owed _ := 0

/-- The proof data's arrays are the grid-entry contents. -/
theorem hA (c : Dev nD) (w : Fin cfg0.W) : (dats m c).A w = V m c (Pipeline.arrRef spec0 w) := by
  dsimp only [dats]

theorem Phi_castSucc (c : Dev nD) (t : Fin cfg0.N) :
    (dats m c).Φ t.castSucc = PhiAt m c t.val (Nat.le_of_lt t.isLt) := by
  dsimp only [dats]; simp only [Fin.coe_castSucc]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = outAt m c t := by dsimp only [dats]

/-- Each input's current buffer holds its block at every point. -/
theorem before_0 (c : Dev nD) (t : Fin cfg0.N) (d) : (dats m c).before 0 t d = iblk m c 0 t := in0_found m (dats m c) (hA m c 0) (after_0 m c) t d
theorem before_1 (c : Dev nD) (t : Fin cfg0.N) (d) : (dats m c).before 1 t d = iblk m c 1 t := in1_found m (dats m c) (hA m c 1) (after_1 m c) t d
theorem before_2 (c : Dev nD) (t : Fin cfg0.N) (d) : (dats m c).before 2 t d = iblk m c 2 t := in2_found m (dats m c) (hA m c 2) (after_2 m c) t d
theorem before_3 (c : Dev nD) (t : Fin cfg0.N) (d) : (dats m c).before 3 t d = iblk m c 3 t := in3_found m (dats m c) (hA m c 3) (after_3 m c) t d

/-! ## The body obligation at a point -/

theorem leaves_0 (c : Dev nD) (t : Fin cfg0.N) :
    (dats m c).leavesExact 0 t = owns (c : Thread nD τ) (stg0 t) fullShare (iblk m c 0 t) := by
  rw [show (dats m c).leavesExact 0 t = owns (c : Thread nD τ) (stg0 t) fullShare ((dats m c).after 0 t) from by
    unfold Dat.leavesExact; rw [live0 t], after_0]
theorem leaves_1 (c : Dev nD) (t : Fin cfg0.N) :
    (dats m c).leavesExact 1 t = owns (c : Thread nD τ) (stg1 t) fullShare (iblk m c 1 t) := by
  rw [show (dats m c).leavesExact 1 t = owns (c : Thread nD τ) (stg1 t) fullShare ((dats m c).after 1 t) from by
    unfold Dat.leavesExact; rw [live1 t], after_1]
theorem leaves_2 (c : Dev nD) (t : Fin cfg0.N) :
    (dats m c).leavesExact 2 t = owns (c : Thread nD τ) (stg2 t) fullShare (iblk m c 2 t) := by
  rw [show (dats m c).leavesExact 2 t = owns (c : Thread nD τ) (stg2 t) fullShare ((dats m c).after 2 t) from by
    unfold Dat.leavesExact; rw [live2 t], after_2]
theorem leaves_3 (c : Dev nD) (t : Fin cfg0.N) :
    (dats m c).leavesExact 3 t = owns (c : Thread nD τ) (stg3 t) fullShare (iblk m c 3 t) := by
  rw [show (dats m c).leavesExact 3 t = owns (c : Thread nD τ) (stg3 t) fullShare ((dats m c).after 3 t) from by
    unfold Dat.leavesExact; rw [live3 t], after_3]

/-- What the body is called with at point t, the windows one by one, -/
def bodyPre (c : Dev nD) (t : Fin cfg0.N) : sProp 𝕄 :=
  iprop((dats m c).Φ t.castSucc ∗ (dats m c).owesAt () t.castSucc
    ∗ (∃ d, owns (c : Thread nD τ) (stg0 t) fullShare ((dats m c).before 0 t d))
    ∗ (∃ d, owns (c : Thread nD τ) (stg1 t) fullShare ((dats m c).before 1 t d))
    ∗ (∃ d, owns (c : Thread nD τ) (stg2 t) fullShare ((dats m c).before 2 t d))
    ∗ (∃ d, owns (c : Thread nD τ) (stg3 t) fullShare ((dats m c).before 3 t d))
    ∗ (∃ d, owns (c : Thread nD τ) (stg4 t) fullShare ((dats m c).before 4 t d)))

/-- and what it returns. -/
def bodyPost (c : Dev nD) (t : Fin cfg0.N) : sProp 𝕄 :=
  iprop((dats m c).Φ t.succ ∗ (dats m c).owesAt () t.succ
    ∗ (dats m c).leavesExact 0 t ∗ (dats m c).leavesExact 1 t ∗ (dats m c).leavesExact 2 t ∗ (dats m c).leavesExact 3 t ∗ (dats m c).leavesExact 4 t)

set_option maxHeartbeats 4800000 in
/-- The body at any point.  Each input's buffer holds its block; the closed forms say which case the point is in;
    that case's run applies, taking the running sums at what the point before left (at anything, in the first
    case) and giving them back at this point's sums, which its stores cover; in the first and middle cases the
    result window's buffer comes back untouched, in the last case at the block stored, which its store covers. -/
theorem sound_point (𝒱₀ : Variants) (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m c).owesAt () t.succ = (dats m c).owesAt () t.castSucc from rfl]
  rw [show (dats m c).Φ t.succ = PhiAt m c (t.val + 1) t.isLt from rfl, PhiAt_succ]
  rw [leaves_0, leaves_1, leaves_2, leaves_3]
  have hN : t.val < 128 := lt_of_lt_of_eq t.isLt (show cfg0.N = 128 from N_0)
  by_cases h0 : t.val % 16 = 0
  · have h1 : ¬t.val % 16 = 15 := by omega
    rw [Dat.leavesExact_idle (dats m c) 4 t (res_idle t (notLast_of_first t h0)) (res_noFlush t (notLast_of_first t h0))]
    rw [accAt_first m c t h0]
    unfold firstAt leftFirst0 leftFirst1 leftFirst2; (try dsimp only)
    by_cases hz : t.val = 0
    · rw [Phi_castSucc m c t, PhiAt_zero m c _ _ hz, PhiA_open]
      iintro ⟨⟨⟨S0, S1, S2⟩, Hg⟩, Ho, ⟨%d0, H0⟩, ⟨%d1, H1⟩, ⟨%d2, H2⟩, ⟨%d3, H3⟩, ⟨%d4, H4⟩⟩
      iapply ((runFirst c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t)).2.2.2 𝒱₀ _ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverFirst0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          isplitl [S1]
          · unfold owns; iexists _; isplitr
            swap; · iexact S1
            ipureintro; exact View.read_writes_of_cover _ _ _ _ _ (coverFirst1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          unfold owns; iexists _; isplitr
          swap; · iexact S2
          ipureintro; exact View.read_writes_of_cover _ _ _ _ _ (coverFirst2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
        iexact Hg
      isplitl [Ho]; · iexact Ho
      isplitl [H0]; · iexact H0
      isplitl [H1]; · iexact H1
      isplitl [H2]; · iexact H2
      isplitl [H3]; · iexact H3
      iexists _; iexact H4
    · rw [Phi_castSucc m c t, PhiAt_pos m c _ _ hz]
      iintro ⟨⟨⟨S0, S1, S2⟩, Hg⟩, Ho, ⟨%d0, H0⟩, ⟨%d1, H1⟩, ⟨%d2, H2⟩, ⟨%d3, H3⟩, ⟨%d4, H4⟩⟩
      iapply ((runFirst c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t)).2.2.2 𝒱₀ _ Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverFirst0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          isplitl [S1]
          · unfold owns; iexists _; isplitr
            swap; · iexact S1
            ipureintro; exact View.read_writes_of_cover _ _ _ _ _ (coverFirst1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          unfold owns; iexists _; isplitr
          swap; · iexact S2
          ipureintro; exact View.read_writes_of_cover _ _ _ _ _ (coverFirst2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dats m c).leavesExact 4 t = owns (c : Thread nD τ) (stg4 t) fullShare ((dats m c).after 4 t) from by
        unfold Dat.leavesExact; rw [res_live t ((isLast_iff t).mpr h1)], after_4, outAt_last m c t h1]
      rw [accAt_last m c t h0 h1]
      unfold lastAt resAt leftLast0 leftLast1 leftLast2 leftRes; (try dsimp only)
      rw [Phi_castSucc m c t, PhiAt_pos m c _ _ hz]
      iintro ⟨⟨⟨S0, S1, S2⟩, Hg⟩, Ho, ⟨%d0, H0⟩, ⟨%d1, H1⟩, ⟨%d2, H2⟩, ⟨%d3, H3⟩, ⟨%d4, H4⟩⟩
      iapply ((runLast c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2).2.2.2.2 𝒱₀ Set.univ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, ⟨%e4, H4⟩, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverLast0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          isplitl [S1]
          · unfold owns; iexists _; isplitr
            swap; · iexact S1
            ipureintro; exact View.read_writes_of_cover _ _ _ _ _ (coverLast1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          unfold owns; iexists _; isplitr
          swap; · iexact S2
          ipureintro; exact View.read_writes_of_cover _ _ _ _ _ (coverLast2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverRes c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
    · rw [Dat.leavesExact_idle (dats m c) 4 t (res_idle t (notLast_of t h1)) (res_noFlush t (notLast_of t h1))]
      rw [accAt_middle m c t h0 h1]
      unfold middleAt leftMiddle0 leftMiddle1 leftMiddle2; (try dsimp only)
      rw [Phi_castSucc m c t, PhiAt_pos m c _ _ hz]
      iintro ⟨⟨⟨S0, S1, S2⟩, Hg⟩, Ho, ⟨%d0, H0⟩, ⟨%d1, H1⟩, ⟨%d2, H2⟩, ⟨%d3, H3⟩, ⟨%d4, H4⟩⟩
      iapply ((runMiddle c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2).2.2.2 𝒱₀ _ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverMiddle0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          isplitl [S1]
          · unfold owns; iexists _; isplitr
            swap; · iexact S1
            ipureintro; exact View.read_writes_of_cover _ _ _ _ _ (coverMiddle1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          unfold owns; iexists _; isplitr
          swap; · iexact S2
          ipureintro; exact View.read_writes_of_cover _ _ _ _ _ (coverMiddle2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (𝒱₀ : Variants) (c : Dev nD) : BodyObligation (dats (F := F) m c) (defs₀ (F := F)) 𝒱₀ () Set.univ := fun t => by
  rw [bigSep_W0, bigSep_W0]
  exact sound_point m 𝒱₀ c t

/-- The same in the form the launch takes. -/
theorem sound_body (𝒱₀ : Variants) (c : Dev nD) : Pipeline.BodyObligationLoose (dats (F := F) m c) (defs₀ (F := F)) 𝒱₀ () Set.univ :=
  (body_obligation m 𝒱₀ c).loose

/-- What the pipeline hands over is the invariant before the first point. -/
theorem hin (c : Dev nD) : Pipeline.ΦA spec0 c ⊢ (dats m c).Φ 0 := by
  rw [show (dats m c).Φ 0 = PhiAt m c 0 (Nat.zero_le _) from rfl, PhiAt_zero m c 0 _ rfl]
  try exact Idealize.SL.BI.Entails.refl _

/-- After any point the invariant gives back what the pipeline handed over: the sums' named contents forgotten. -/
theorem Phi_out (c : Dev nD) (t : Fin (cfg0.N + 1)) (ht : t.val ≠ 0) : (dats m c).Φ t ⊢ Pipeline.ΦA spec0 c := by
  rw [show (dats m c).Φ t = PhiAt m c t.val (Nat.le_of_lt_succ t.isLt) from rfl, PhiAt_pos m c _ _ ht, PhiA_open]
  iintro ⟨⟨S0, S1, S2⟩, Hg⟩
  isplitl [S0 S1 S2]
  · isplitl [S0]; · iexists _; iexact S0
    isplitl [S1]; · iexists _; iexact S1
    iexists _; iexact S2
  iexact Hg

/-- In particular after the last point. -/
theorem hout (c : Dev nD) : (dats m c).Φ (Fin.last cfg0.N) ⊢ Pipeline.ΦA spec0 c :=
  Phi_out m c _ (by rw [Fin.val_last]; have : cfg0.N = 128 := N_0; omega)

end Cert.Kernel.Frm

end
-- ==== Proof.KbArrays.lean ====
/-
  The four buffers behind the five windows.

  The grid's five windows stand on four buffers: the row-block window and the column-block window both on the
  normalised features, the other three on a buffer each.  Holding the four buffers whole is the same as holding
  the five windows' arrays at their shares: the feature buffer splits into its two halves, one per window, and
  two halves at the same contents join again.
-/
import proofs.«121029_j88064009437247_1_alg».proof.Proof.KbBase

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD}

/-- The distinct buffers behind the windows, one by one. -/
theorem arrBufs_list (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v3) ↦{fullShare} W main_v3) ∗ (((c.tc : Thread nD τ).loc main_v4) ↦{fullShare} W main_v4)
          ∗ (((c.tc : Thread nD τ).loc main_v5) ↦{fullShare} W main_v5) ∗ (((c.tc : Thread nD τ).loc main_v6) ↦{fullShare} W main_v6)) := by
  unfold Pipeline.arrBufs
  exact bigSep_eq_bigSepL_of_eq [main_v3, main_v4, main_v5, main_v6] (by decide) (by decide) _

variable (dat : Dat τ (Elt F) Unit ℕ (UR sig nD τ) ℕ cfg0 c)

/-- The five windows' arrays at their shares, one by one: the feature buffer twice, at a half each. -/
theorem arrays_list (hq : dat.q = qs) (G : (w : Fin cfg0.W) → Buf (Elt F) ((cfg0.win w).arr.view.loc (c.tc : Thread nD τ))) :
    (dat.arrays G : sProp 𝕄)
      = iprop((((c.tc : Thread nD τ).loc main_v3) ↦{fullShare.left} G 0) ∗ (((c.tc : Thread nD τ).loc main_v3) ↦{fullShare.right} G 1)
          ∗ (((c.tc : Thread nD τ).loc main_v4) ↦{fullShare} G 2) ∗ (((c.tc : Thread nD τ).loc main_v5) ↦{fullShare} G 3)
          ∗ (((c.tc : Thread nD τ).loc main_v6) ↦{fullShare} G 4)) := by
  unfold Dat.arrays
  rw [bigSep_W0, (arr_whole0 0).set_eq_univ, (arr_whole0 2).set_eq_univ, (arr_whole0 3).set_eq_univ,
    (arr_whole0 4).set_eq_univ]
  unfold Dat.share
  rw [hq]
  rfl

/-- The four buffers held whole yield the five windows' arrays at their shares, at the same contents: the feature
    buffer splits into its halves. -/
theorem arrays_of_arrBufs (hq : dat.q = qs) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (Pipeline.arrBufs (Ix := Unit) (Name := ℕ) (U := UR sig nD τ) (Lvl := ℕ) spec0 c W : sProp 𝕄) ⊢ dat.arrays G := by
  rw [arrBufs_list, arrays_list dat hq, hG 0, hG 1, hG 2, hG 3, hG 4]
  exact (sep_mono (pointsTo_share (PosShare.mem_left_op_right fullShare)).1 .rfl).trans sep_assoc.1

/-- Conversely the five windows' arrays, all at the contents of the four buffers, give the four buffers back whole:
    the two halves of the feature buffer join. -/
theorem arrBufs_of_arrays (hq : dat.q = qs) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (dat.arrays G : sProp 𝕄) ⊢ Pipeline.arrBufs (Ix := Unit) (Name := ℕ) (U := UR sig nD τ) (Lvl := ℕ) spec0 c W := by
  rw [arrBufs_list, arrays_list dat hq, hG 0, hG 1, hG 2, hG 3, hG 4]
  exact sep_assoc.2.trans (sep_mono (pointsTo_share (PosShare.mem_left_op_right fullShare)).2 .rfl)

end Cert.Kernel.Frm

end
-- ==== Proof.KbLaunch.lean ====
/-
  The word-level kernel's run, around its grid.

  @main is ten host operations (the rows normalised, the labels laid out), the grid, and six more (the result
  column reshaped, summed, divided by the number of rows, negated).  Given proof data for the grid — what each
  window's staging buffer holds after every point, an invariant over the three running sums, and the body's
  obligation at every point — every weakly fair execution terminates, the five windows' arrays end at what
  the proof data compute, and every other buffer ends at what the six later operations make of the buffers as
  the grid left them.

  Two windows stage the one normalised-feature array, so at the grid's entry the four distinct buffers are
  split into the five windows' arrays (the feature buffer into halves) and at its exit joined again, the
  inputs being unchanged.
-/
import proofs.«121029_j88064009437247_1_alg».proof.Proof.KbArrays

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the grid -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the grid continued by the six later operations, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The buffers when the grid is left, and after the six later operations -/

variable (dats : (c : Dev nD) → Dat τ (Elt F) Unit ℕ (UR sig nD τ) ℕ cfg0 c)

open Classical in
/-- The buffers as the grid leaves them: the result column at what the grid wrote back, every other buffer as the
    grid found it (no input array is ever written). -/
def Wx (c : Dev nD) : Valuation τ sig (Elt F) :=
  Function.update (V0 m c) (Proc.devRef .tc main_v6) ((dats c).arrAt 4 cfg0.N)

/-- The buffers after the six later operations, read at a TensorCore reference. -/
def tailV (c : Dev nD) (b : Ref sig .tc) : Buf (Elt F) ((c.tc : Thread nD τ).loc b) :=
  StableHlo.after (List.flatten [hostOps1]) (Wx m dats c) (Proc.devRef .tc b)

/-- At the result column the exit contents are what the grid wrote back. -/
theorem Wx_out (c : Dev nD) : Wx m dats c (Proc.devRef .tc main_v6) = (dats c).arrAt 4 cfg0.N := by
  unfold Wx; exact Function.update_self ..

/-- At any other buffer they are the entry contents. -/
theorem Wx_of_ne (c : Dev nD) (b : Ref sig .tc) (hb : b ≠ main_v6) : Wx m dats c (Proc.devRef .tc b) = V m c b := by
  unfold Wx; exact Function.update_of_ne (StableHlo.devRef_ne_of_ne hb) ..

/-- Each window's array ends at the exit contents of the buffer behind it: an input array is never written, the
    result array is the result column. -/
theorem arrAt_exit (c : Dev nD) (hA : ∀ w, (dats c).A w = V m c (Pipeline.arrRef spec0 w)) (w : Fin cfg0.W) :
    (dats c).arrAt w cfg0.N = Wx m dats c (Proc.devRef .tc (Pipeline.arrRef spec0 w)) := by
  fin_cases w
  · exact ((dats c).arrAt_in 0 rfl _).trans ((hA 0).trans (Wx_of_ne m dats c main_v3 (by decide)).symm)
  · exact ((dats c).arrAt_in 1 rfl _).trans ((hA 1).trans (Wx_of_ne m dats c main_v3 (by decide)).symm)
  · exact ((dats c).arrAt_in 2 rfl _).trans ((hA 2).trans (Wx_of_ne m dats c main_v4 (by decide)).symm)
  · exact ((dats c).arrAt_in 3 rfl _).trans ((hA 3).trans (Wx_of_ne m dats c main_v5 (by decide)).symm)
  · exact (Wx_out m dats c).symm

/-! ## The six later operations -/

/-- They touch unscoped TensorCore buffers only, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- and write no window's array: each writes only its own result buffer. -/
theorem tail_keeps : ∀ op ∈ (List.flatten [hostOps1] : List (HloOp τ sig (Elt F))), ∀ w, Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- So a window's array holds after them what it held before. -/
theorem after_tail_arr (W : Valuation τ sig (Elt F)) (w : Fin cfg0.W) :
    StableHlo.after (List.flatten [hostOps1]) W (Proc.devRef .tc (Pipeline.arrRef spec0 w)) = W (Proc.devRef .tc (Pipeline.arrRef spec0 w)) :=
  StableHlo.after_of_forall_not_mem _ _ fun op hop => tail_keeps op hop w

/-- From the grid's exit — the five arrays at their final contents, every other unscoped buffer as the grid found it —
    the six later operations run, and hand back the arrays unchanged and the other buffers at `tailV`.  The arrays
    and the rest are first joined into all the unscoped buffers held whole at the exit contents (the two halves of
    the feature buffer joining), the operations run within that set, and the set is split again. -/
theorem tail_run (𝒱₀ : Variants) (c : Dev nD) (hq : (dats c).q = qs) (hA : ∀ w, (dats c).A w = V m c (Pipeline.arrRef spec0 w))
    (Q' : PUnit → sProp 𝕄) :
    iprop((iprop((dats c).arrays ((dats c).arrAt · cfg0.N)
              ∗ Pipeline.unscopedRest (Ix := Unit) (Name := ℕ) (U := UR sig nD τ) (Lvl := ℕ) spec0 c (tailV m dats c)) -∗ Q' ⟨⟩)
        ∗ boundary (c.tc : Thread nD τ) ∗ (dats c).arrays ((dats c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  classical
  have hpre : iprop((dats c).arrays ((dats c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Wx m dats c) : sProp 𝕄) := by
    rw [← Pipeline.unscopedBufs_held (Ix := Unit) (Name := ℕ) (U := UR sig nD τ) (Lvl := ℕ) c (Wx m dats c),
      Pipeline.unscopedBufs_split₀ cfgs 0 winFacts₀0.arr_unscoped c]
    refine sep_mono (arrBufs_of_arrays (dats c) hq _ _ (arrAt_exit m dats c hA)) (Entails.of_eq ?_)
    unfold Pipeline.unscopedRest
    refine bigSep_congr fun b hb => ?_
    exact congrArg _ (Wx_of_ne m dats c b fun e => (Finset.mem_sdiff.mp hb).2 (Finset.mem_image.mpr ⟨4, Finset.mem_univ _, e.symm⟩)).symm
  have hpost : (StableHlo.held (c.tc : Thread nD τ) (Pipeline.ucRefs τ sig) (StableHlo.after (List.flatten [hostOps1]) (Wx m dats c)) : sProp 𝕄)
      ⊢ iprop((dats c).arrays ((dats c).arrAt · cfg0.N)
        ∗ Pipeline.unscopedRest (Ix := Unit) (Name := ℕ) (U := UR sig nD τ) (Lvl := ℕ) spec0 c (tailV m dats c)) := by
    rw [← Pipeline.unscopedBufs_held (Ix := Unit) (Name := ℕ) (U := UR sig nD τ) (Lvl := ℕ) c (StableHlo.after (List.flatten [hostOps1]) (Wx m dats c)),
      Pipeline.unscopedBufs_split₀ cfgs 0 winFacts₀0.arr_unscoped c]
    refine sep_mono (arrays_of_arrBufs (dats c) hq _ _ fun w => ?_) .rfl
    exact (arrAt_exit m dats c hA w).trans (after_tail_arr _ w).symm
  show _ ⊢ wp frame _ Set.univ (Pipeline.chain (([hostOps1] : List (List (HloOp τ sig (Elt F)))).map StableHlo.seq ++ [])) Q'
  iintro ⟨Hk, Hb, Ha, Hr⟩
  ihave Hh := hpre $$ [Ha Hr]
  · isplitl [Ha] <;> iassumption
  iapply (Pipeline.wp_seqs_then (fun q => (cfgs q).toPCfg (Val := Elt F)) defs₀ 𝒱₀ c (Pipeline.ucRefs τ sig) [] [hostOps1] tail_sub tail_fresh (Wx m dats c)) $$ [Hb Hh]
  · isplitl [Hb] <;> iassumption
  iintro Hb
  rw [Pipeline.chain_nil, wp_pure]
  imodintro
  iapply Hk
  icases Hb with ⟨-, H⟩
  iapply hpost
  iexact H

/-! ## The run -/

/-- THE RUN around the grid.  For proof data whose arrays are the entry contents (`hA`), whose two feature windows
    hold a half each (`hq`), that owe nothing (`howed`), whose invariant is entered from and returned to the
    scratch-at-anything invariant (`hin`, `hout`) and whose body obligation holds at every point (`hbody`): from
    any memory with zero counters every weakly fair execution of @main terminates, each window's array ends at
    what the proof data compute, and every other unscoped buffer at what the six later operations leave. -/
theorem run_region (𝒱₀ : Variants)
    (hbody : ∀ c, Pipeline.BodyObligationLoose (dats c) defs₀ 𝒱₀ () Set.univ)
    (hq : ∀ c, (dats c).q = qs) (howed : ∀ c t, (dats c).owed t = 0)
    (hA : ∀ c w, (dats c).A w = V m c (Pipeline.arrRef spec0 w))
    (hin : ∀ c, (Pipeline.ΦA spec0 c : sProp 𝕄) ⊢ (dats c).Φ 0)
    (hout : ∀ c, (dats c).Φ (Fin.last cfg0.N) ⊢ (Pipeline.ΦA spec0 c : sProp 𝕄)) :
    θ_run (defs (F := F)) (onTc (τ := τ) (main (F := F))) (s₀ m ρ) (fun r => ∀ c : Dev nD,
      (∀ w, r.2.mem ((spec0 w).arr.view.loc (c.tc : Thread nD τ)) = (dats c).arrAt w cfg0.N)
      ∧ ∀ b ∈ Pipeline.restRefs sig spec0, r.2.mem ((c.tc : Thread nD τ).loc b) = tailV m dats c b) := by
  classical
  exact Pipeline.θ_run_region_pf_tail (fun q => (cfgs q).toPCfg (Val := Elt F)) (fun q => (cfgs q).toPCfg_adm) (fun _ c => dats c) () cellOf_inj 0
    winFacts₀0 (Pipeline.OwnSemFacts.none spec0) (Pipeline.PreFacts.none spec0) emb₁ defs₀ 𝒱₀ m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m 𝒱₀)
    (hsplit := fun c => arrays_of_arrBufs (dats c) (hq c) (V m c) _ fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (tailV m dats c))
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats 𝒱₀ c (hq c) (hA c) Q')
    (QY := fun c s => ∀ b ∈ Pipeline.restRefs sig spec0, s.mem ((c.tc : Thread nD τ).loc b) = tailV m dats c b)
    (hY := fun c s' => by
      iintro ⟨-, HU, HSI⟩
      unfold Pipeline.unscopedRest
      imodintro
      iapply (pointsTo_read_all (Pipeline.restRefs sig spec0) (fun b => (c.tc : Thread nD τ).loc b) (tailV m dats c) s')
      isplitl [HU] <;> iassumption)
    (hQ := fun s h c => ⟨(h c).1, (h c).2.2⟩)

end Cert.Kernel.Frm

end
-- ==== Proof.KbFrame.lean ====
/-
  The word-level kernel runs, and leaves its arguments as it found them.

  The run around the grid, at the proof data of the body's three control cases: every weakly fair execution
  terminates; the result column ends at what the last column block of each row block stored; every other buffer
  ends at what the six later operations leave.  No operation of @main and no write-back of the grid touches the
  two argument arrays, so they end at their launch contents: the frame claim.
-/
import proofs.«121029_j88064009437247_1_alg».proof.Proof.KbBody
import proofs.«121029_j88064009437247_1_alg».proof.Proof.KbLaunch

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations write -/

/-- The buffers the ten operations before the grid write: one each. -/
abbrev preW : List (Ref sig .tc) :=
  [main_call0_v0, main_call0_cst, main_call0_v1, main_call0_v2, main_v0, main_v1, main_v2, main_v3, main_v4, main_v5]

theorem pre_writes : (List.flatten [hostOps0, hostOps0_1] : List (HloOp τ sig (Elt F))).Forall
    fun op => op.writes ⊆ (preW.map (Proc.devRef (τ := τ) .tc)).toFinset := by
  simp only [List.flatten_cons, List.flatten_nil, List.append_nil, hostOps0, hostOps0_1, List.cons_append, List.nil_append, List.Forall]
  repeat' constructor
  all_goals (simp only [StableHlo.TRef.nullary, StableHlo.TRef.unary, StableHlo.TRef.binary, StableHlo.nullary_writes, StableHlo.unary_writes, StableHlo.binary_writes, StableHlo.reshape_writes, Finset.singleton_subset_iff, List.mem_toFinset]; exact List.mem_map_of_mem (by decide))

/-- A buffer none of them writes holds at the grid's entry what it held at launch. -/
theorem V_of_not_written (c : Dev nD) (r : Ref sig .tc) (h : r ∉ preW) : V m c r = m ((c.tc : Thread nD τ).loc r) :=
  StableHlo.after_of_writes_sub _ _ pre_writes h

/-- The buffers the six operations after the grid write. -/
abbrev tailW : List (Ref sig .tc) := [main_v7, main_cst, main_v8, main_cst_0, main_v9, main_v10]

theorem tail_writes : (List.flatten [hostOps1] : List (HloOp τ sig (Elt F))).Forall
    fun op => op.writes ⊆ (tailW.map (Proc.devRef (τ := τ) .tc)).toFinset := by
  simp only [List.flatten_cons, List.flatten_nil, List.append_nil, hostOps1, List.Forall]
  repeat' constructor
  all_goals (simp only [StableHlo.nullary_writes, StableHlo.unary_writes, StableHlo.binary_writes, StableHlo.reshape_writes, Finset.singleton_subset_iff, List.mem_toFinset]; exact List.mem_map_of_mem (by decide))

/-- A buffer that neither they nor the grid write ends at its entry contents. -/
theorem tailV_of_not_written (dats : (c : Dev nD) → Dat τ (Elt F) Unit ℕ (UR sig nD τ) ℕ cfg0 c) (c : Dev nD) (r : Ref sig .tc)
    (h : r ∉ tailW) (h6 : r ≠ main_v6) : tailV m dats c r = V m c r :=
  (StableHlo.after_of_writes_sub _ _ tail_writes h).trans (Wx_of_ne m dats c r h6)

/-! ## The run and the frame -/

/-- The run around the grid at the three cases' proof data. -/
theorem run_main : θ_run (defs (F := F)) (onTc (τ := τ) (main (F := F))) (s₀ m ρ) (fun r => ∀ c : Dev nD,
      (∀ w, r.2.mem ((spec0 w).arr.view.loc (c.tc : Thread nD τ)) = (dats m c).arrAt w cfg0.N)
      ∧ ∀ b ∈ Pipeline.restRefs sig spec0, r.2.mem ((c.tc : Thread nD τ).loc b) = tailV m (dats m) c b) :=
  run_region m ρ (dats m) Variants.none (fun c => sound_body m Variants.none c) (fun _ => rfl) (fun _ _ => rfl) (hA m) (hin m) (hout m)

/-- THE FRAME: the program runs to its end, and both argument arrays end as they were at launch. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 (Pipeline.mem_restRefs_of main_arg0 rfl (by decide))).trans
        ((tailV_of_not_written m (dats m) c main_arg0 (by decide) (by decide)).trans (V_of_not_written m c main_arg0 (by decide))),
     ((h c).2 main_arg1 (Pipeline.mem_restRefs_of main_arg1 rfl (by decide))).trans
        ((tailV_of_not_written m (dats m) c main_arg1 (by decide) (by decide)).trans (V_of_not_written m c main_arg1 (by decide)))⟩)
    (run_main m ρ)

end Cert.Kernel.Frm

end
-- ==== Proof.KiBase.lean ====
/-
  What every module about the idealized kernel's run shares.

  When the grid is entered the core's buffers hold what the host operations before it left: the feature rows
  divided by their lengths, and the labels laid out once as a column and once as a row.  `V` names those
  contents, `iblk` the block of them a window shows the body at a grid point.  The normalised features are
  handed to the body through TWO windows (row blocks and column blocks of the same array), so each of the two
  holds the array at one half of the full share (`qs`); nothing ever writes an input array, so two readers
  suffice.
-/
import proofs.«121029_j88064009437247_1_alg».proof.Proof.Gen.KernelIdeal.Launch
import proofs.«121029_j88064009437247_1_alg».proof.Proof.Gen.KernelIdeal.Skeleton
import proofs.«121029_j88064009437247_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-- Core `c`'s buffer contents when the grid is entered: the launch contents after the ten host operations that
    normalise the rows and lay the labels out. -/
abbrev V0 (c : Dev nD) : Valuation τ sig (Elt F) := StableHlo.after (List.flatten [hostOps0, hostOps0_1]) (fun b => m (c, b))

/-- The same read at a TensorCore reference. -/
abbrev V (c : Dev nD) (b : Ref sig .tc) : Buf (Elt F) ((c : Thread nD τ).loc b) := V0 m c (Proc.devRef .tc b)

/-- The share each window holds its array at: the two windows onto the normalised features one half each, the
    label column, the label row and the result outright. -/
def qs : Fin 5 → PosShare TreeShare := ![fullShare.left, fullShare.right, fullShare, fullShare, fullShare]

/-- Window `w`'s block at grid point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Frm

end
-- ==== Proof.KiRuns.lean ====
/-
  What the three control cases of the idealized kernel's body share.

  The grid has 8 row blocks times 16 column blocks, the column block moving fastest, so a point t is the pair
  (t / 16, t % 16).  The body zeroes its three running sums when the column block is the first (t % 16 = 0) and
  finishes the row block's result when it is the last (t % 16 = 15); at every point it adds the column block's
  lane sums to the three running sums.  Hence three cases: FIRST (t % 16 = 0), MIDDLE (0 < t % 16 < 15) and
  LAST (t % 16 = 15).  The result window is stored only in the LAST case, and only there is it written back; in
  the other two the body leaves the window's buffer as it found it.

  The two conditions are stated as the body computes them and decided in closed form over the 128 points.  The
  four input windows are never idle, and each input's current buffer holds the input's block at the point
  whether or not the block was fetched there (an unfetched block's index has not moved).
-/
import proofs.«121029_j88064009437247_1_alg».proof.Proof.KiBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The two conditions -/

/-- "The column block is the first": the body's test before it zeroes the running sums, as it computes it from
    the grid coordinates. -/
abbrev isFirst (i : grid0.Coords) : Prop :=
  (Scalar.cmpi .ne (Scalar.extui (Scalar.cmpi .eq (BitVec.ofNat 32 (i 1).val) 0#32)) 0#32) = 1#1

/-- It holds exactly at the points with t % 16 = 0. -/
theorem isFirst_iff : ∀ t : Fin cfg0.N, isFirst (grid0.coords t) ↔ t.val % 16 = 0 :=
  (by decide +kernel : ∀ t : Fin grid0.N, isFirst (grid0.coords t) ↔ t.val % 16 = 0)

/-- "The column block is the last": the body's test before it finishes the row block. -/
abbrev isLast (i : grid0.Coords) : Prop := k0_cond2 i = 1#1

/-- It holds exactly at the points with t % 16 = 15. -/
theorem isLast_iff : ∀ t : Fin cfg0.N, isLast (grid0.coords t) ↔ t.val % 16 = 15 :=
  (by decide +kernel : ∀ t : Fin grid0.N, isLast (grid0.coords t) ↔ t.val % 16 = 15)

/-! ## Which windows are idle where -/

/-- The four inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel

/-- Where the column block is not the last, the result window is idle … -/
theorem res_idle : ∀ t : Fin cfg0.N, ¬isLast (grid0.coords t) → cfg0.idle 4 (grid0.coords t) = true := by decide +kernel
/-- … and is not written back. -/
theorem res_noFlush : ∀ t : Fin cfg0.N, ¬isLast (grid0.coords t) → (cfg0.win 4).flush t = false := by decide +kernel
/-- Where it is the last, the result window is live. -/
theorem res_live : ∀ t : Fin cfg0.N, isLast (grid0.coords t) → cfg0.idle 4 (grid0.coords t) = false := by decide +kernel

/-! ## The memrefs the body is called with -/

/-- Each window's current buffer at point t, spelled as the body is called with it, and its wholeness. -/
abbrev stg0 (t : Fin cfg0.N) : Memref sig .tc .vmem S1024x512 .bf16 := win0_0.stage (cfg0.slots t 0)
abbrev stgW0 (t : Fin cfg0.N) : (stg0 t).IsWhole := hstage0_0 ((cfg0.slots t 0).cast nbuf0_0)
abbrev stg1 (t : Fin cfg0.N) : Memref sig .tc .vmem S512x512 .bf16 := win0_1.stage (cfg0.slots t 1)
abbrev stgW1 (t : Fin cfg0.N) : (stg1 t).IsWhole := hstage0_1 ((cfg0.slots t 1).cast nbuf0_1)
abbrev stg2 (t : Fin cfg0.N) : Memref sig .tc .vmem S1024x1 .i32 := win0_2.stage (cfg0.slots t 2)
abbrev stgW2 (t : Fin cfg0.N) : (stg2 t).IsWhole := hstage0_2 ((cfg0.slots t 2).cast nbuf0_2)
abbrev stg3 (t : Fin cfg0.N) : Memref sig .tc .vmem S1x512 .i32 := win0_3.stage (cfg0.slots t 3)
abbrev stgW3 (t : Fin cfg0.N) : (stg3 t).IsWhole := hstage0_3 ((cfg0.slots t 3).cast nbuf0_3)
abbrev stg4 (t : Fin cfg0.N) : Memref sig .tc .vmem S1024x1 .f32 := win0_4.stage (cfg0.slots t 4)
abbrev stgW4 (t : Fin cfg0.N) : (stg4 t).IsWhole := hstage0_4 ((cfg0.slots t 4).cast nbuf0_4)

/-- The three running sums: whole buffers of the kernel's own, not staged by the pipeline.  The first is the sum
    of mask times shifted similarity, the second the count of positives, the third the sum of exponentials. -/
abbrev acc0 : Memref sig .tc .vmem S1024x1 .f32 := Memref.whole cc0_scratch0
abbrev acc1 : Memref sig .tc .vmem S1024x1 .f32 := Memref.whole cc0_scratch1
abbrev acc2 : Memref sig .tc .vmem S1024x1 .f32 := Memref.whole cc0_scratch2

/-- One view of a [1024,1] buffer through which contents left by stores are read back; all three running sums
    and the result block have this shape, and a covering list of stores reads back the same through any whole
    view. -/
abbrev colV : View sig .tc .vmem S1024x1 .f32 := acc0.view

/-- The invariant the pipeline hands the body before the first point and takes back after the last: the three
    running sums owned whole at some contents each, and the generator register at some state. -/
theorem PhiA_open (c : Dev nD) :
    (Pipeline.ΦA spec0 c : sProp 𝕄)
      = iprop(iprop((∃ d, owns (c : Thread nD τ) acc0 fullShare d) ∗ (∃ d, owns (c : Thread nD τ) acc1 fullShare d)
          ∗ (∃ d, owns (c : Thread nD τ) acc2 fullShare d)) ∗ (∃ r, prngReg c r)) := by
  unfold Pipeline.ΦA; rw [scopedRest0_eq]; simp only [acc0, acc1, acc2, owns_whole]; try rfl

/-! ## Each input's buffer holds its block -/

/-- For any proof data whose arrays are the grid-entry contents and whose body leaves input w's block in place,
    input w's current buffer holds its block at every point. -/
theorem in0_found {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem in1_found {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem in2_found {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem in3_found {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Frm

end
-- ==== Proof.KiRunA.lean ====
/-
  The body's run at a point of the FIRST case (the column block is the first of its row block, and not the last).

  The body zeroes the three running sums, loads the four input blocks whole, and adds to each running sum the
  column block's lane sum: so each running sum ends holding 0 plus this block's contribution, whatever it held
  before.  Nothing is stored into the result block, which is handed back as it was found.

  The run is stated on any whole memrefs and any input contents, so that it applies at every such point; what
  the stores leave in each running sum is a list of stores that the run itself determines.
-/
import proofs.«121029_j88064009437247_1_alg».proof.Proof.KiRuns

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The FIRST case.  Given the four inputs at contents x0 … x3, the result buffer at any contents xr and the three
    running sums at anything, the body runs to a continuation that holds the inputs and the result buffer as they
    were and each running sum with a list of stores written into it; the three lists are the first three
    components. -/
noncomputable def runFirst (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) :
    Σ' (L0 : List (View.Piece (Elt F) S1024x1 .f32)) (L1 : List (View.Piece (Elt F) S1024x1 .f32)), { L2 : List (View.Piece (Elt F) S1024x1 .f32) //
      ∀ (𝒱₀ : Variants) (xr : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
            ∗ (∃ d, owns (c : Thread nD τ) a7 fullShare d) ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
                ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2)) -∗ K ⟨⟩))
          ⊢ wp frame (wpE (defs₀ (F := F)) 𝒱₀ c none) E (cc0__supcon_kernel i a2 h2 a3 h3 a4 h4 a5 h5 a6 h6 a7 h7 a8 h8 a9 h9) K } := by
  refine ⟨?_, ?_, ?_, fun 𝒱₀ xr E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%d7, %g7, -, S0⟩, ⟨%d8, %g8, -, S1⟩, ⟨%d9, %g9, -, S2⟩, Hk⟩
    obtain rfl := h2.eq_unread hf0; obtain rfl := h3.eq_unread hf1; obtain rfl := h4.eq_unread hf2; obtain rfl := h5.eq_unread hf3; obtain rfl := h6.eq_unread hf4
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [S0]; · iexists _; iexact S0
    isplitl [S1]; · iexists _; iexact S1
    iexists _; iexact S2

end Cert.KernelIdeal.Frm

end
-- ==== Proof.KiRunB.lean ====
/-
  The body's run at a point of the MIDDLE case (the column block is neither the first nor the last).

  The body loads the four input blocks whole and adds to each running sum the column block's lane sum, so each
  running sum ends holding what the point before left in it plus this block's contribution.  Nothing is stored
  into the result block, which is handed back as it was found.
-/
import proofs.«121029_j88064009437247_1_alg».proof.Proof.KiRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The MIDDLE case.  Given the four inputs at contents x0 … x3, the result buffer at any contents xr and the
    three running sums at contents s0 s1 s2, the body runs to a continuation that holds the inputs and the result
    buffer as they were and each running sum with a list of stores written into it. -/
noncomputable def runMiddle (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) :
    Σ' (L0 : List (View.Piece (Elt F) S1024x1 .f32)) (L1 : List (View.Piece (Elt F) S1024x1 .f32)), { L2 : List (View.Piece (Elt F) S1024x1 .f32) //
      ∀ (𝒱₀ : Variants) (xr : Vec F S1024x1 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
            ∗ owns (c : Thread nD τ) a7 fullShare s0 ∗ owns (c : Thread nD τ) a8 fullShare s1 ∗ owns (c : Thread nD τ) a9 fullShare s2
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare xr
                ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2)) -∗ K ⟨⟩))
          ⊢ wp frame (wpE (defs₀ (F := F)) 𝒱₀ c none) E (cc0__supcon_kernel i a2 h2 a3 h3 a4 h4 a5 h5 a6 h6 a7 h7 a8 h8 a9 h9) K } := by
  refine ⟨?_, ?_, ?_, fun 𝒱₀ xr E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%f4, %hf4, H4⟩, ⟨%g7, %hg7, S0⟩, ⟨%g8, %hg8, S1⟩, ⟨%g9, %hg9, S2⟩, Hk⟩
    obtain rfl := h2.eq_unread hf0; obtain rfl := h3.eq_unread hf1; obtain rfl := h4.eq_unread hf2; obtain rfl := h5.eq_unread hf3; obtain rfl := h6.eq_unread hf4
    obtain rfl := h7.eq_unread hg7; obtain rfl := h8.eq_unread hg8; obtain rfl := h9.eq_unread hg9
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [S0]; · iexists _; iexact S0
    isplitl [S1]; · iexists _; iexact S1
    iexists _; iexact S2

end Cert.KernelIdeal.Frm

end
-- ==== Proof.KiRunC.lean ====
/-
  The body's run at a point of the LAST case (the column block is the last of its row block, and not the first).

  The body loads the four input blocks whole and adds to each running sum the column block's lane sum, as in
  the middle case; it then reads the three finished sums back and stores into the whole result block, row by
  row, the first sum divided by the second less the logarithm of the third plus the guard.
-/
import proofs.«121029_j88064009437247_1_alg».proof.Proof.KiRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The LAST case.  Given the four inputs at contents x0 … x3, the result buffer at anything and the three running
    sums at contents s0 s1 s2, the body runs to a continuation that holds the inputs as they were and the result
    buffer and each running sum with a list of stores written into it; the result buffer's list comes first. -/
noncomputable def runLast (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) :
    Σ' (LR : List (View.Piece (Elt F) S1024x1 .f32)) (L0 : List (View.Piece (Elt F) S1024x1 .f32)) (L1 : List (View.Piece (Elt F) S1024x1 .f32)), { L2 : List (View.Piece (Elt F) S1024x1 .f32) //
      ∀ (𝒱₀ : Variants) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d)
            ∗ owns (c : Thread nD τ) a7 fullShare s0 ∗ owns (c : Thread nD τ) a8 fullShare s1 ∗ owns (c : Thread nD τ) a9 fullShare s2
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LR)
                ∗ (∃ f, a7.view.loc (c : Thread nD τ) ↦[a7.view.set]{fullShare} a7.view.writes (Elt F) f L0) ∗ (∃ f, a8.view.loc (c : Thread nD τ) ↦[a8.view.set]{fullShare} a8.view.writes (Elt F) f L1) ∗ (∃ f, a9.view.loc (c : Thread nD τ) ↦[a9.view.set]{fullShare} a9.view.writes (Elt F) f L2)) -∗ K ⟨⟩))
          ⊢ wp frame (wpE (defs₀ (F := F)) 𝒱₀ c none) E (cc0__supcon_kernel i a2 h2 a3 h3 a4 h4 a5 h5 a6 h6 a7 h7 a8 h8 a9 h9) K } := by
  refine ⟨?_, ?_, ?_, ?_, fun 𝒱₀ E K => ?run⟩
  case run =>
    simp only [cc0__supcon_kernel_eq_skeleton]; unfold cc0__supcon_kernel_skel
    unfold owns
    iintro ⟨⟨%f0, %hf0, H0⟩, ⟨%f1, %hf1, H1⟩, ⟨%f2, %hf2, H2⟩, ⟨%f3, %hf3, H3⟩, ⟨%d4, %f4, -, H4⟩, ⟨%g7, %hg7, S0⟩, ⟨%g8, %hg8, S1⟩, ⟨%g9, %hg9, S2⟩, Hk⟩
    obtain rfl := h2.eq_unread hf0; obtain rfl := h3.eq_unread hf1; obtain rfl := h4.eq_unread hf2; obtain rfl := h5.eq_unread hf3
    obtain rfl := h7.eq_unread hg7; obtain rfl := h8.eq_unread hg8; obtain rfl := h9.eq_unread hg9
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [S0]; · iexists _; iexact S0
    isplitl [S1]; · iexists _; iexact S1
    iexists _; iexact S2

end Cert.KernelIdeal.Frm

end
-- ==== Proof.KiBody.lean ====
/-
  The idealized kernel's proof data and body obligation.

  Along a row block the kernel keeps three running sums over the column blocks seen so far: for every row p of
  the block, the sum over columns q of mask(p,q) times the shifted similarity, the count of columns with
  mask(p,q) = 1, and the sum of exp(shifted similarity) over the columns q other than p.  The first column block
  starts them at zero, every column block adds its own lane sums, and the last one stores, for every row, the first
  sum divided by the second, less the logarithm of the third plus the guard.

  This module names what each of the three control cases leaves in each running sum and in the result block,
  says what they hold after every grid point by recursion on the point, and proves that the body, called at any
  point on buffers holding that, leaves them holding the next point's: which is what the pipeline asks of a body.
  The variable m is the memory at launch, from which the blocks the windows show are read.
-/
import proofs.«121029_j88064009437247_1_alg».proof.Proof.KiRunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What each case leaves -/

/-- The stores the FIRST case makes into running sum 0 (the sum of mask times shifted similarity) cover it. -/
theorem coverFirst0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) (y : S1024x1.Idx) :
    ∃ pc ∈ (runFirst c i a2 h2 a3 h3 a4 h4 a5 h5 a6 h6 a7 h7 a8 h8 a9 h9 hF hL x0 x1 x2 x3).1, y ∈ pc.1.set :=
  View.cover_of_tiledL (runFirst c i a2 h2 a3 h3 a4 h4 a5 h5 a6 h6 a7 h7 a8 h8 a9 h9 hF hL x0 x1 x2 x3).1 S1024x1.size (by sl_kernel_rfl) y

/-- What the FIRST case leaves in running sum 0: its stores read back. -/
def leftFirst0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) : Vec F S1024x1 .f32 :=
  colV.read (Elt F) (colV.writes (Elt F) colV.junk (runFirst c i a2 h2 a3 h3 a4 h4 a5 h5 a6 h6 a7 h7 a8 h8 a9 h9 hF hL x0 x1 x2 x3).1)

/-- The stores the FIRST case makes into running sum 1 (the count of positives) cover it. -/
theorem coverFirst1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) (y : S1024x1.Idx) :
    ∃ pc ∈ (runFirst c i a2 h2 a3 h3 a4 h4 a5 h5 a6 h6 a7 h7 a8 h8 a9 h9 hF hL x0 x1 x2 x3).2.1, y ∈ pc.1.set :=
  View.cover_of_tiledL (runFirst c i a2 h2 a3 h3 a4 h4 a5 h5 a6 h6 a7 h7 a8 h8 a9 h9 hF hL x0 x1 x2 x3).2.1 S1024x1.size (by sl_kernel_rfl) y

/-- What the FIRST case leaves in running sum 1: its stores read back. -/
def leftFirst1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) : Vec F S1024x1 .f32 :=
  colV.read (Elt F) (colV.writes (Elt F) colV.junk (runFirst c i a2 h2 a3 h3 a4 h4 a5 h5 a6 h6 a7 h7 a8 h8 a9 h9 hF hL x0 x1 x2 x3).2.1)

/-- The stores the FIRST case makes into running sum 2 (the sum of exponentials) cover it. -/
theorem coverFirst2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) (y : S1024x1.Idx) :
    ∃ pc ∈ (runFirst c i a2 h2 a3 h3 a4 h4 a5 h5 a6 h6 a7 h7 a8 h8 a9 h9 hF hL x0 x1 x2 x3).2.2.1, y ∈ pc.1.set :=
  View.cover_of_tiledL (runFirst c i a2 h2 a3 h3 a4 h4 a5 h5 a6 h6 a7 h7 a8 h8 a9 h9 hF hL x0 x1 x2 x3).2.2.1 S1024x1.size (by sl_kernel_rfl) y

/-- What the FIRST case leaves in running sum 2: its stores read back. -/
def leftFirst2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) : Vec F S1024x1 .f32 :=
  colV.read (Elt F) (colV.writes (Elt F) colV.junk (runFirst c i a2 h2 a3 h3 a4 h4 a5 h5 a6 h6 a7 h7 a8 h8 a9 h9 hF hL x0 x1 x2 x3).2.2.1)

/-- The stores the MIDDLE case makes into running sum 0 (the sum of mask times shifted similarity) cover it. -/
theorem coverMiddle0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runMiddle c i a2 h2 a3 h3 a4 h4 a5 h5 a6 h6 a7 h7 a8 h8 a9 h9 hF hL x0 x1 x2 x3 s0 s1 s2).1, y ∈ pc.1.set :=
  View.cover_of_tiledL (runMiddle c i a2 h2 a3 h3 a4 h4 a5 h5 a6 h6 a7 h7 a8 h8 a9 h9 hF hL x0 x1 x2 x3 s0 s1 s2).1 S1024x1.size (by sl_kernel_rfl) y

/-- What the MIDDLE case leaves in running sum 0: its stores read back. -/
def leftMiddle0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runMiddle c i a2 h2 a3 h3 a4 h4 a5 h5 a6 h6 a7 h7 a8 h8 a9 h9 hF hL x0 x1 x2 x3 s0 s1 s2).1)

/-- The stores the MIDDLE case makes into running sum 1 (the count of positives) cover it. -/
theorem coverMiddle1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runMiddle c i a2 h2 a3 h3 a4 h4 a5 h5 a6 h6 a7 h7 a8 h8 a9 h9 hF hL x0 x1 x2 x3 s0 s1 s2).2.1, y ∈ pc.1.set :=
  View.cover_of_tiledL (runMiddle c i a2 h2 a3 h3 a4 h4 a5 h5 a6 h6 a7 h7 a8 h8 a9 h9 hF hL x0 x1 x2 x3 s0 s1 s2).2.1 S1024x1.size (by sl_kernel_rfl) y

/-- What the MIDDLE case leaves in running sum 1: its stores read back. -/
def leftMiddle1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runMiddle c i a2 h2 a3 h3 a4 h4 a5 h5 a6 h6 a7 h7 a8 h8 a9 h9 hF hL x0 x1 x2 x3 s0 s1 s2).2.1)

/-- The stores the MIDDLE case makes into running sum 2 (the sum of exponentials) cover it. -/
theorem coverMiddle2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runMiddle c i a2 h2 a3 h3 a4 h4 a5 h5 a6 h6 a7 h7 a8 h8 a9 h9 hF hL x0 x1 x2 x3 s0 s1 s2).2.2.1, y ∈ pc.1.set :=
  View.cover_of_tiledL (runMiddle c i a2 h2 a3 h3 a4 h4 a5 h5 a6 h6 a7 h7 a8 h8 a9 h9 hF hL x0 x1 x2 x3 s0 s1 s2).2.2.1 S1024x1.size (by sl_kernel_rfl) y

/-- What the MIDDLE case leaves in running sum 2: its stores read back. -/
def leftMiddle2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runMiddle c i a2 h2 a3 h3 a4 h4 a5 h5 a6 h6 a7 h7 a8 h8 a9 h9 hF hL x0 x1 x2 x3 s0 s1 s2).2.2.1)

/-- The stores the LAST case makes into running sum 0 (the sum of mask times shifted similarity) cover it. -/
theorem coverLast0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).2.1, y ∈ pc.1.set :=
  View.cover_of_tiledL (runLast c i a2 h2 a3 h3 a4 h4 a5 h5 a6 h6 a7 h7 a8 h8 a9 h9 hF hL x0 x1 x2 x3 s0 s1 s2).2.1 S1024x1.size (by sl_kernel_rfl) y

/-- What the LAST case leaves in running sum 0: its stores read back. -/
def leftLast0 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).2.1)

/-- The stores the LAST case makes into running sum 1 (the count of positives) cover it. -/
theorem coverLast1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).2.2.1, y ∈ pc.1.set :=
  View.cover_of_tiledL (runLast c i a2 h2 a3 h3 a4 h4 a5 h5 a6 h6 a7 h7 a8 h8 a9 h9 hF hL x0 x1 x2 x3 s0 s1 s2).2.2.1 S1024x1.size (by sl_kernel_rfl) y

/-- What the LAST case leaves in running sum 1: its stores read back. -/
def leftLast1 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).2.2.1)

/-- The stores the LAST case makes into running sum 2 (the sum of exponentials) cover it. -/
theorem coverLast2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).2.2.2.1, y ∈ pc.1.set :=
  View.cover_of_tiledL (runLast c i a2 h2 a3 h3 a4 h4 a5 h5 a6 h6 a7 h7 a8 h8 a9 h9 hF hL x0 x1 x2 x3 s0 s1 s2).2.2.2.1 S1024x1.size (by sl_kernel_rfl) y

/-- What the LAST case leaves in running sum 2: its stores read back. -/
def leftLast2 (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).2.2.2.1)

/-- The store the LAST case makes into the result block covers it. -/
theorem coverRes (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) (y : S1024x1.Idx) :
    ∃ pc ∈ (runLast c i a2 h2 a3 h3 a4 h4 a5 h5 a6 h6 a7 h7 a8 h8 a9 h9 hF hL x0 x1 x2 x3 s0 s1 s2).1, y ∈ pc.1.set :=
  View.cover_of_tiledL (runLast c i a2 h2 a3 h3 a4 h4 a5 h5 a6 h6 a7 h7 a8 h8 a9 h9 hF hL x0 x1 x2 x3 s0 s1 s2).1 S1024x1.size (by sl_kernel_rfl) y

/-- What the LAST case leaves in the result block: its store read back. -/
def leftRes (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) : Vec F S1024x1 .f32 :=
  colV.read (Elt F) (colV.writes (Elt F) colV.junk (runLast c i a2 h2 a3 h3 a4 h4 a5 h5 a6 h6 a7 h7 a8 h8 a9 h9 hF hL x0 x1 x2 x3 s0 s1 s2).1)

/-! ## The cases at a grid point -/

theorem prevLt (t : Fin cfg0.N) : t.val - 1 < cfg0.N := Nat.lt_of_le_of_lt (Nat.sub_le _ _) t.isLt
theorem notLast_of_first (t : Fin cfg0.N) (h0 : t.val % 16 = 0) : ¬isLast (grid0.coords t) :=
  fun h => by have h' := (isLast_iff t).mp h; omega
theorem notFirst_of_last (t : Fin cfg0.N) (h1 : t.val % 16 = 15) : ¬isFirst (grid0.coords t) :=
  fun h => by have h' := (isFirst_iff t).mp h; omega
theorem notFirst_of (t : Fin cfg0.N) (h0 : ¬t.val % 16 = 0) : ¬isFirst (grid0.coords t) := fun h => h0 ((isFirst_iff t).mp h)
theorem notLast_of (t : Fin cfg0.N) (h1 : ¬t.val % 16 = 15) : ¬isLast (grid0.coords t) := fun h => h1 ((isLast_iff t).mp h)

/-- The three running sums after a point of the FIRST case: each is zero plus the point's contribution. -/
def firstAt (c : Dev nD) (t : Fin cfg0.N) (hF : isFirst (grid0.coords t)) (hL : ¬isLast (grid0.coords t)) : Vec F S1024x1 .f32 × Vec F S1024x1 .f32 × Vec F S1024x1 .f32 :=
  (leftFirst0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t),
   leftFirst1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t),
   leftFirst2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t))

/-- After a point of the MIDDLE case, from what the point before left (s). -/
def middleAt (c : Dev nD) (t : Fin cfg0.N) (hF : ¬isFirst (grid0.coords t)) (hL : ¬isLast (grid0.coords t)) (s : Vec F S1024x1 .f32 × Vec F S1024x1 .f32 × Vec F S1024x1 .f32) : Vec F S1024x1 .f32 × Vec F S1024x1 .f32 × Vec F S1024x1 .f32 :=
  (leftMiddle0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftMiddle1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftMiddle2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)

/-- After a point of the LAST case, from what the point before left (s). -/
def lastAt (c : Dev nD) (t : Fin cfg0.N) (hF : ¬isFirst (grid0.coords t)) (hL : isLast (grid0.coords t)) (s : Vec F S1024x1 .f32 × Vec F S1024x1 .f32 × Vec F S1024x1 .f32) : Vec F S1024x1 .f32 × Vec F S1024x1 .f32 × Vec F S1024x1 .f32 :=
  (leftLast0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftLast1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2,
   leftLast2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)

/-- The result block a point of the LAST case stores, from what the point before left (s). -/
def resAt (c : Dev nD) (t : Fin cfg0.N) (hF : ¬isFirst (grid0.coords t)) (hL : isLast (grid0.coords t)) (s : Vec F S1024x1 .f32 × Vec F S1024x1 .f32 × Vec F S1024x1 .f32) : Vec F S1024x1 .f32 :=
  leftRes c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2

/-! ## What the running sums and the result block hold after each point -/

/-- THE ACCUMULATION: the three running sums after point n, by recursion on n.  A point of the first case starts
    afresh; any other continues from what the point before left. -/
def accAt (c : Dev nD) : (n : ℕ) → n < cfg0.N → Vec F S1024x1 .f32 × Vec F S1024x1 .f32 × Vec F S1024x1 .f32
  | 0, hn => firstAt m c ⟨0, hn⟩ ((isFirst_iff ⟨0, hn⟩).mpr (Nat.zero_mod _)) (notLast_of_first ⟨0, hn⟩ (Nat.zero_mod _))
  | n + 1, hn =>
    if h0 : (n + 1) % 16 = 0 then
      firstAt m c ⟨n + 1, hn⟩ ((isFirst_iff ⟨n + 1, hn⟩).mpr h0) (notLast_of_first ⟨n + 1, hn⟩ h0)
    else if h1 : (n + 1) % 16 = 15 then
      lastAt m c ⟨n + 1, hn⟩ (notFirst_of ⟨n + 1, hn⟩ h0) ((isLast_iff ⟨n + 1, hn⟩).mpr h1) (accAt c n (Nat.lt_of_succ_lt hn))
    else
      middleAt m c ⟨n + 1, hn⟩ (notFirst_of ⟨n + 1, hn⟩ h0) (notLast_of ⟨n + 1, hn⟩ h1) (accAt c n (Nat.lt_of_succ_lt hn))

/-- At a point of the first case: that case's sums. -/
theorem accAt_first (c : Dev nD) (t : Fin cfg0.N) (h0 : t.val % 16 = 0) :
    accAt m c t.val t.isLt = firstAt m c t ((isFirst_iff t).mpr h0) (notLast_of_first t h0) := by
  obtain ⟨n, hn⟩ := t
  cases n with
  | zero => exact rfl
  | succ n => exact (dif_pos h0).trans rfl

/-- At a point of the middle case: that case's sums over what the point before left. -/
theorem accAt_middle (c : Dev nD) (t : Fin cfg0.N) (h0 : ¬t.val % 16 = 0) (h1 : ¬t.val % 16 = 15) :
    accAt m c t.val t.isLt = middleAt m c t (notFirst_of t h0) (notLast_of t h1) (accAt m c (t.val - 1) (prevLt t)) := by
  obtain ⟨n, hn⟩ := t
  cases n with
  | zero => exact absurd (Nat.zero_mod _) h0
  | succ n => exact (dif_neg h0).trans ((dif_neg h1).trans rfl)

/-- At a point of the last case: that case's sums over what the point before left. -/
theorem accAt_last (c : Dev nD) (t : Fin cfg0.N) (h0 : ¬t.val % 16 = 0) (h1 : t.val % 16 = 15) :
    accAt m c t.val t.isLt = lastAt m c t (notFirst_of t h0) ((isLast_iff t).mpr h1) (accAt m c (t.val - 1) (prevLt t)) := by
  obtain ⟨n, hn⟩ := t
  cases n with
  | zero => exact absurd (Nat.zero_mod _) h0
  | succ n => exact (dif_neg h0).trans ((dif_pos h1).trans rfl)

/-- The result window's buffer after point t: at a point of the last case the block stored there; elsewhere the
    body stores nothing into it and nothing reads this value (unspecified contents). -/
def outAt (c : Dev nD) (t : Fin cfg0.N) : Vec F S1024x1 .f32 :=
  if h1 : t.val % 16 = 15 then
    resAt m c t (notFirst_of_last t h1) ((isLast_iff t).mpr h1) (accAt m c (t.val - 1) (prevLt t))
  else colV.read (Elt F) colV.junk

theorem outAt_last (c : Dev nD) (t : Fin cfg0.N) (h1 : t.val % 16 = 15) :
    outAt m c t = resAt m c t (notFirst_of_last t h1) ((isLast_iff t).mpr h1) (accAt m c (t.val - 1) (prevLt t)) := dif_pos h1

/-! ## The invariant between points -/

/-- Before point n: at n = 0 what the pipeline hands over (the running sums at anything); afterwards the three
    running sums owned whole at what point n - 1 left, and the generator register at some state. -/
def PhiAt (c : Dev nD) : (n : ℕ) → n ≤ cfg0.N → sProp 𝕄
  | 0, _ => Pipeline.ΦA spec0 c
  | n + 1, hn => iprop(iprop(owns (c : Thread nD τ) acc0 fullShare (accAt m c n hn).1 ∗ owns (c : Thread nD τ) acc1 fullShare (accAt m c n hn).2.1
      ∗ owns (c : Thread nD τ) acc2 fullShare (accAt m c n hn).2.2) ∗ (∃ r, prngReg c r))

theorem PhiAt_zero (c : Dev nD) (n : ℕ) (h : n ≤ cfg0.N) (hz : n = 0) : PhiAt m c n h = Pipeline.ΦA spec0 c := by
  subst hz; rfl

theorem PhiAt_succ (c : Dev nD) (n : ℕ) (hn : n < cfg0.N) :
    PhiAt m c (n + 1) hn = iprop(iprop(owns (c : Thread nD τ) acc0 fullShare (accAt m c n hn).1 ∗ owns (c : Thread nD τ) acc1 fullShare (accAt m c n hn).2.1
      ∗ owns (c : Thread nD τ) acc2 fullShare (accAt m c n hn).2.2) ∗ (∃ r, prngReg c r)) := rfl

theorem PhiAt_pos (c : Dev nD) (n : ℕ) (h : n ≤ cfg0.N) (hz : n ≠ 0) :
    PhiAt m c n h = iprop(iprop(owns (c : Thread nD τ) acc0 fullShare (accAt m c (n - 1) (by omega)).1 ∗ owns (c : Thread nD τ) acc1 fullShare (accAt m c (n - 1) (by omega)).2.1
      ∗ owns (c : Thread nD τ) acc2 fullShare (accAt m c (n - 1) (by omega)).2.2) ∗ (∃ r, prngReg c r)) := by
  cases n with
  | zero => exact absurd rfl hz
  | succ n => rfl

/-! ## The proof data -/

/-- The pipeline's proof data on core c: the arrays as the grid finds them; after the body at point t each input's
    buffer at its block and the result window's at outAt; between points the invariant above; the two windows onto
    the normalised features at one half share each; nothing owed. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiAt m c t.val (Nat.le_of_lt_succ t.isLt)
  q := qs
  owed _ := 0

/-- The proof data's arrays are the grid-entry contents. -/
theorem hA (c : Dev nD) (w : Fin cfg0.W) : (dats m c).A w = V m c (Pipeline.arrRef spec0 w) := by
  dsimp only [dats]

theorem Phi_castSucc (c : Dev nD) (t : Fin cfg0.N) :
    (dats m c).Φ t.castSucc = PhiAt m c t.val (Nat.le_of_lt t.isLt) := by
  dsimp only [dats]; simp only [Fin.coe_castSucc]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = outAt m c t := by dsimp only [dats]

/-- Each input's current buffer holds its block at every point. -/
theorem before_0 (c : Dev nD) (t : Fin cfg0.N) (d) : (dats m c).before 0 t d = iblk m c 0 t := in0_found m (dats m c) (hA m c 0) (after_0 m c) t d
theorem before_1 (c : Dev nD) (t : Fin cfg0.N) (d) : (dats m c).before 1 t d = iblk m c 1 t := in1_found m (dats m c) (hA m c 1) (after_1 m c) t d
theorem before_2 (c : Dev nD) (t : Fin cfg0.N) (d) : (dats m c).before 2 t d = iblk m c 2 t := in2_found m (dats m c) (hA m c 2) (after_2 m c) t d
theorem before_3 (c : Dev nD) (t : Fin cfg0.N) (d) : (dats m c).before 3 t d = iblk m c 3 t := in3_found m (dats m c) (hA m c 3) (after_3 m c) t d

/-! ## The body obligation at a point -/

theorem leaves_0 (c : Dev nD) (t : Fin cfg0.N) :
    (dats m c).leavesExact 0 t = owns (c : Thread nD τ) (stg0 t) fullShare (iblk m c 0 t) := by
  rw [show (dats m c).leavesExact 0 t = owns (c : Thread nD τ) (stg0 t) fullShare ((dats m c).after 0 t) from by
    unfold Dat.leavesExact; rw [live0 t], after_0]
theorem leaves_1 (c : Dev nD) (t : Fin cfg0.N) :
    (dats m c).leavesExact 1 t = owns (c : Thread nD τ) (stg1 t) fullShare (iblk m c 1 t) := by
  rw [show (dats m c).leavesExact 1 t = owns (c : Thread nD τ) (stg1 t) fullShare ((dats m c).after 1 t) from by
    unfold Dat.leavesExact; rw [live1 t], after_1]
theorem leaves_2 (c : Dev nD) (t : Fin cfg0.N) :
    (dats m c).leavesExact 2 t = owns (c : Thread nD τ) (stg2 t) fullShare (iblk m c 2 t) := by
  rw [show (dats m c).leavesExact 2 t = owns (c : Thread nD τ) (stg2 t) fullShare ((dats m c).after 2 t) from by
    unfold Dat.leavesExact; rw [live2 t], after_2]
theorem leaves_3 (c : Dev nD) (t : Fin cfg0.N) :
    (dats m c).leavesExact 3 t = owns (c : Thread nD τ) (stg3 t) fullShare (iblk m c 3 t) := by
  rw [show (dats m c).leavesExact 3 t = owns (c : Thread nD τ) (stg3 t) fullShare ((dats m c).after 3 t) from by
    unfold Dat.leavesExact; rw [live3 t], after_3]

/-- What the body is called with at point t, the windows one by one, -/
def bodyPre (c : Dev nD) (t : Fin cfg0.N) : sProp 𝕄 :=
  iprop((dats m c).Φ t.castSucc ∗ (dats m c).owesAt () t.castSucc
    ∗ (∃ d, owns (c : Thread nD τ) (stg0 t) fullShare ((dats m c).before 0 t d))
    ∗ (∃ d, owns (c : Thread nD τ) (stg1 t) fullShare ((dats m c).before 1 t d))
    ∗ (∃ d, owns (c : Thread nD τ) (stg2 t) fullShare ((dats m c).before 2 t d))
    ∗ (∃ d, owns (c : Thread nD τ) (stg3 t) fullShare ((dats m c).before 3 t d))
    ∗ (∃ d, owns (c : Thread nD τ) (stg4 t) fullShare ((dats m c).before 4 t d)))

/-- and what it returns. -/
def bodyPost (c : Dev nD) (t : Fin cfg0.N) : sProp 𝕄 :=
  iprop((dats m c).Φ t.succ ∗ (dats m c).owesAt () t.succ
    ∗ (dats m c).leavesExact 0 t ∗ (dats m c).leavesExact 1 t ∗ (dats m c).leavesExact 2 t ∗ (dats m c).leavesExact 3 t ∗ (dats m c).leavesExact 4 t)

set_option maxHeartbeats 4800000 in
/-- The body at any point.  Each input's buffer holds its block; the closed forms say which case the point is in;
    that case's run applies, taking the running sums at what the point before left (at anything, in the first
    case) and giving them back at this point's sums, which its stores cover; in the first and middle cases the
    result window's buffer comes back untouched, in the last case at the block stored, which its store covers. -/
theorem sound_point (𝒱₀ : Variants) (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m c).owesAt () t.succ = (dats m c).owesAt () t.castSucc from rfl]
  rw [show (dats m c).Φ t.succ = PhiAt m c (t.val + 1) t.isLt from rfl, PhiAt_succ]
  rw [leaves_0, leaves_1, leaves_2, leaves_3]
  have hN : t.val < 128 := lt_of_lt_of_eq t.isLt (show cfg0.N = 128 from N_0)
  by_cases h0 : t.val % 16 = 0
  · have h1 : ¬t.val % 16 = 15 := by omega
    rw [Dat.leavesExact_idle (dats m c) 4 t (res_idle t (notLast_of_first t h0)) (res_noFlush t (notLast_of_first t h0))]
    rw [accAt_first m c t h0]
    unfold firstAt leftFirst0 leftFirst1 leftFirst2; (try dsimp only)
    by_cases hz : t.val = 0
    · rw [Phi_castSucc m c t, PhiAt_zero m c _ _ hz, PhiA_open]
      iintro ⟨⟨⟨S0, S1, S2⟩, Hg⟩, Ho, ⟨%d0, H0⟩, ⟨%d1, H1⟩, ⟨%d2, H2⟩, ⟨%d3, H3⟩, ⟨%d4, H4⟩⟩
      iapply ((runFirst c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t)).2.2.2 𝒱₀ _ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverFirst0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          isplitl [S1]
          · unfold owns; iexists _; isplitr
            swap; · iexact S1
            ipureintro; exact View.read_writes_of_cover _ _ _ _ _ (coverFirst1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          unfold owns; iexists _; isplitr
          swap; · iexact S2
          ipureintro; exact View.read_writes_of_cover _ _ _ _ _ (coverFirst2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
        iexact Hg
      isplitl [Ho]; · iexact Ho
      isplitl [H0]; · iexact H0
      isplitl [H1]; · iexact H1
      isplitl [H2]; · iexact H2
      isplitl [H3]; · iexact H3
      iexists _; iexact H4
    · rw [Phi_castSucc m c t, PhiAt_pos m c _ _ hz]
      iintro ⟨⟨⟨S0, S1, S2⟩, Hg⟩, Ho, ⟨%d0, H0⟩, ⟨%d1, H1⟩, ⟨%d2, H2⟩, ⟨%d3, H3⟩, ⟨%d4, H4⟩⟩
      iapply ((runFirst c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t)).2.2.2 𝒱₀ _ Set.univ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverFirst0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          isplitl [S1]
          · unfold owns; iexists _; isplitr
            swap; · iexact S1
            ipureintro; exact View.read_writes_of_cover _ _ _ _ _ (coverFirst1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
          unfold owns; iexists _; isplitr
          swap; · iexact S2
          ipureintro; exact View.read_writes_of_cover _ _ _ _ _ (coverFirst2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 16 = 15
    · rw [show (dats m c).leavesExact 4 t = owns (c : Thread nD τ) (stg4 t) fullShare ((dats m c).after 4 t) from by
        unfold Dat.leavesExact; rw [res_live t ((isLast_iff t).mpr h1)], after_4, outAt_last m c t h1]
      rw [accAt_last m c t h0 h1]
      unfold lastAt resAt leftLast0 leftLast1 leftLast2 leftRes; (try dsimp only)
      rw [Phi_castSucc m c t, PhiAt_pos m c _ _ hz]
      iintro ⟨⟨⟨S0, S1, S2⟩, Hg⟩, Ho, ⟨%d0, H0⟩, ⟨%d1, H1⟩, ⟨%d2, H2⟩, ⟨%d3, H3⟩, ⟨%d4, H4⟩⟩
      iapply ((runLast c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2).2.2.2.2 𝒱₀ Set.univ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, ⟨%e4, H4⟩, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverLast0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          isplitl [S1]
          · unfold owns; iexists _; isplitr
            swap; · iexact S1
            ipureintro; exact View.read_writes_of_cover _ _ _ _ _ (coverLast1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          unfold owns; iexists _; isplitr
          swap; · iexact S2
          ipureintro; exact View.read_writes_of_cover _ _ _ _ _ (coverLast2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverRes c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
    · rw [Dat.leavesExact_idle (dats m c) 4 t (res_idle t (notLast_of t h1)) (res_noFlush t (notLast_of t h1))]
      rw [accAt_middle m c t h0 h1]
      unfold middleAt leftMiddle0 leftMiddle1 leftMiddle2; (try dsimp only)
      rw [Phi_castSucc m c t, PhiAt_pos m c _ _ hz]
      iintro ⟨⟨⟨S0, S1, S2⟩, Hg⟩, Ho, ⟨%d0, H0⟩, ⟨%d1, H1⟩, ⟨%d2, H2⟩, ⟨%d3, H3⟩, ⟨%d4, H4⟩⟩
      iapply ((runMiddle c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2).2.2.2 𝒱₀ _ Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, ⟨%e0, S0⟩, ⟨%e1, S1⟩, ⟨%e2, S2⟩⟩
      isplitl [S0 S1 S2 Hg]
      · isplitl [S0 S1 S2]
        · isplitl [S0]
          · unfold owns; iexists _; isplitr
            swap; · iexact S0
            ipureintro; exact View.read_writes_of_cover _ _ _ _ _ (coverMiddle0 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          isplitl [S1]
          · unfold owns; iexists _; isplitr
            swap; · iexact S1
            ipureintro; exact View.read_writes_of_cover _ _ _ _ _ (coverMiddle1 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
          unfold owns; iexists _; isplitr
          swap; · iexact S2
          ipureintro; exact View.read_writes_of_cover _ _ _ _ _ (coverMiddle2 c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (𝒱₀ : Variants) (c : Dev nD) : BodyObligation (dats (F := F) m c) (defs₀ (F := F)) 𝒱₀ () Set.univ := fun t => by
  rw [bigSep_W0, bigSep_W0]
  exact sound_point m 𝒱₀ c t

/-- The same in the form the launch takes. -/
theorem sound_body (𝒱₀ : Variants) (c : Dev nD) : Pipeline.BodyObligationLoose (dats (F := F) m c) (defs₀ (F := F)) 𝒱₀ () Set.univ :=
  (body_obligation m 𝒱₀ c).loose

/-- What the pipeline hands over is the invariant before the first point. -/
theorem hin (c : Dev nD) : Pipeline.ΦA spec0 c ⊢ (dats m c).Φ 0 := by
  rw [show (dats m c).Φ 0 = PhiAt m c 0 (Nat.zero_le _) from rfl, PhiAt_zero m c 0 _ rfl]
  try exact Idealize.SL.BI.Entails.refl _

/-- After any point the invariant gives back what the pipeline handed over: the sums' named contents forgotten. -/
theorem Phi_out (c : Dev nD) (t : Fin (cfg0.N + 1)) (ht : t.val ≠ 0) : (dats m c).Φ t ⊢ Pipeline.ΦA spec0 c := by
  rw [show (dats m c).Φ t = PhiAt m c t.val (Nat.le_of_lt_succ t.isLt) from rfl, PhiAt_pos m c _ _ ht, PhiA_open]
  iintro ⟨⟨S0, S1, S2⟩, Hg⟩
  isplitl [S0 S1 S2]
  · isplitl [S0]; · iexists _; iexact S0
    isplitl [S1]; · iexists _; iexact S1
    iexists _; iexact S2
  iexact Hg

/-- In particular after the last point. -/
theorem hout (c : Dev nD) : (dats m c).Φ (Fin.last cfg0.N) ⊢ Pipeline.ΦA spec0 c :=
  Phi_out m c _ (by rw [Fin.val_last]; have : cfg0.N = 128 := N_0; omega)

end Cert.KernelIdeal.Frm

end
-- ==== Proof.KiVal.lean ====
/-
  What each control case leaves, over the kernel's named payloads.

  A running sum is a whole [1024,1] buffer, every load and store of it goes through the whole block, and so: one
  store leaves its value; a load after one store reads that value; a load of an untouched buffer reads its
  contents.  Unwinding the stores each case's run found with these three facts gives, for every row p of the row
  block and the column block at the point:

    sum 0  :=  previous sum 0  +  Σ_q mask(p,q) · shifted(p,q)
    sum 1  :=  previous sum 1  +  Σ_q mask(p,q)
    sum 2  :=  previous sum 2  +  Σ_q exp(shifted(p,q)) · [p ≠ q]

  with the previous sums zero in the first case, and in the last case the result  sum 0 / sum 1 − log(sum 2 + guard)
  of the three sums just finished.  The right-hand sides are written with the generated payload names, which are
  these expressions over the loaded blocks.
-/
import proofs.«121029_j88064009437247_1_alg».proof.Proof.KiBody
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-block rectangle, however they are spelt. -/
theorem hz00 : (![0, 0] : Fin 2 → Nat) = fun _ => 0 := funext fun a => by fin_cases a <;> rfl

/-- The MIDDLE case leaves in running sum 0 what the point before left plus the column block's lane sum. -/
theorem leftMiddle0_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) :
    leftMiddle0 c i a2 h2 a3 h3 a4 h4 a5 h5 a6 h6 a7 h7 a8 h8 a9 h9 hF hL x0 x1 x2 x3 s0 s1 s2 = k0_pay2 (k0_pay8 x0 x1) (k0_pay9 x2 x3) s0 := by
  unfold leftMiddle0
  rw [View.read_writes_eq_canon _ _ _ (coverMiddle0 c i a2 h2 a3 h3 a4 h4 a5 h5 a6 h6 a7 h7 a8 h8 a9 h9 hF hL x0 x1 x2 x3 s0 s1 s2)]
  unfold runMiddle
  dsimp only
  sl_unfold_words
  refine (View.canon_unit_zero (S := S1024x1) hz00 _ _).trans ?_
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The MIDDLE case leaves in running sum 1 what the point before left plus the column block's lane sum. -/
theorem leftMiddle1_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) :
    leftMiddle1 c i a2 h2 a3 h3 a4 h4 a5 h5 a6 h6 a7 h7 a8 h8 a9 h9 hF hL x0 x1 x2 x3 s0 s1 s2 = k0_pay3 (k0_pay9 x2 x3) s1 := by
  unfold leftMiddle1
  rw [View.read_writes_eq_canon _ _ _ (coverMiddle1 c i a2 h2 a3 h3 a4 h4 a5 h5 a6 h6 a7 h7 a8 h8 a9 h9 hF hL x0 x1 x2 x3 s0 s1 s2)]
  unfold runMiddle
  dsimp only
  sl_unfold_words
  refine (View.canon_unit_zero (S := S1024x1) hz00 _ _).trans ?_
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The MIDDLE case leaves in running sum 2 what the point before left plus the column block's lane sum. -/
theorem leftMiddle2_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : ¬isLast i)
    (x0 : Vec F S1024x512 .bf16) (x1 : Vec F S512x512 .bf16) (x2 : Vec F S1024x1 .i32) (x3 : Vec F S1x512 .i32) (s0 s1 s2 : Vec F S1024x1 .f32) :
    leftMiddle2 c i a2 h2 a3 h3 a4 h4 a5 h5 a6 h6 a7 h7 a8 h8 a9 h9 hF hL x0 x1 x2 x3 s0 s1 s2 = k0_pay1 s2 (k0_pay10 i x0 x1) := by
  unfold leftMiddle2
  rw [View.read_writes_eq_canon _ _ _ (coverMiddle2 c i a2 h2 a3 h3 a4 h4 a5 h5 a6 h6 a7 h7 a8 h8 a9 h9 hF hL x0 x1 x2 x3 s0 s1 s2)]
  unfold runMiddle
  dsimp only
  sl_unfold_words
  refine (View.canon_unit_zero (S := S1024x1) hz00 _ _).trans ?_
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The LAST case leaves in running sum 0 what the point before left plus the column block's lane sum. -/
theorem leftLast0_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) :
    leftLast0 c i a2 h2 a3 h3 a4 h4 a5 h5 a6 h6 a7 h7 a8 h8 a9 h9 hF hL x0 x1 x2 x3 s0 s1 s2 = k0_pay2 (k0_pay8 x0 x1) (k0_pay9 x2 x3) s0 := by
  unfold leftLast0
  rw [View.read_writes_eq_canon _ _ _ (coverLast0 c i a2 h2 a3 h3 a4 h4 a5 h5 a6 h6 a7 h7 a8 h8 a9 h9 hF hL x0 x1 x2 x3 s0 s1 s2)]
  unfold runLast
  dsimp only
  sl_unfold_words
  refine (View.canon_unit_zero (S := S1024x1) hz00 _ _).trans ?_
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The LAST case leaves in running sum 1 what the point before left plus the column block's lane sum. -/
theorem leftLast1_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) :
    leftLast1 c i a2 h2 a3 h3 a4 h4 a5 h5 a6 h6 a7 h7 a8 h8 a9 h9 hF hL x0 x1 x2 x3 s0 s1 s2 = k0_pay3 (k0_pay9 x2 x3) s1 := by
  unfold leftLast1
  rw [View.read_writes_eq_canon _ _ _ (coverLast1 c i a2 h2 a3 h3 a4 h4 a5 h5 a6 h6 a7 h7 a8 h8 a9 h9 hF hL x0 x1 x2 x3 s0 s1 s2)]
  unfold runLast
  dsimp only
  sl_unfold_words
  refine (View.canon_unit_zero (S := S1024x1) hz00 _ _).trans ?_
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The LAST case leaves in running sum 2 what the point before left plus the column block's lane sum. -/
theorem leftLast2_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) :
    leftLast2 c i a2 h2 a3 h3 a4 h4 a5 h5 a6 h6 a7 h7 a8 h8 a9 h9 hF hL x0 x1 x2 x3 s0 s1 s2 = k0_pay1 s2 (k0_pay10 i x0 x1) := by
  unfold leftLast2
  rw [View.read_writes_eq_canon _ _ _ (coverLast2 c i a2 h2 a3 h3 a4 h4 a5 h5 a6 h6 a7 h7 a8 h8 a9 h9 hF hL x0 x1 x2 x3 s0 s1 s2)]
  unfold runLast
  dsimp only
  sl_unfold_words
  refine (View.canon_unit_zero (S := S1024x1) hz00 _ _).trans ?_
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The FIRST case leaves in running sum 0 zero plus the column block's lane sum: the sum is zeroed, read back, and
    added to. -/
theorem leftFirst0_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) :
    leftFirst0 c i a2 h2 a3 h3 a4 h4 a5 h5 a6 h6 a7 h7 a8 h8 a9 h9 hF hL x0 x1 x2 x3 = k0_pay2 (k0_pay8 x0 x1) (k0_pay9 x2 x3) k0_pay5 := by
  unfold leftFirst0
  rw [View.read_writes_eq_canon _ _ _ (coverFirst0 c i a2 h2 a3 h3 a4 h4 a5 h5 a6 h6 a7 h7 a8 h8 a9 h9 hF hL x0 x1 x2 x3)]
  unfold runFirst
  dsimp only
  sl_unfold_words
  refine (View.canon_cons_unit_zero (S := S1024x1) hz00 _ _ _).trans ?_
  rw [View.readCov_unit_zero (S := S1024x1) a7.view hz00]
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The FIRST case leaves in running sum 1 zero plus the column block's lane sum: the sum is zeroed, read back, and
    added to. -/
theorem leftFirst1_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) :
    leftFirst1 c i a2 h2 a3 h3 a4 h4 a5 h5 a6 h6 a7 h7 a8 h8 a9 h9 hF hL x0 x1 x2 x3 = k0_pay3 (k0_pay9 x2 x3) k0_pay6 := by
  unfold leftFirst1
  rw [View.read_writes_eq_canon _ _ _ (coverFirst1 c i a2 h2 a3 h3 a4 h4 a5 h5 a6 h6 a7 h7 a8 h8 a9 h9 hF hL x0 x1 x2 x3)]
  unfold runFirst
  dsimp only
  sl_unfold_words
  refine (View.canon_cons_unit_zero (S := S1024x1) hz00 _ _ _).trans ?_
  rw [View.readCov_unit_zero (S := S1024x1) a8.view hz00]
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The FIRST case leaves in running sum 2 zero plus the column block's lane sum: the sum is zeroed, read back, and
    added to. -/
theorem leftFirst2_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : isFirst i) (hL : ¬isLast i)
    (x0 : Vec F S1024x512 .bf16) (x1 : Vec F S512x512 .bf16) (x2 : Vec F S1024x1 .i32) (x3 : Vec F S1x512 .i32) :
    leftFirst2 c i a2 h2 a3 h3 a4 h4 a5 h5 a6 h6 a7 h7 a8 h8 a9 h9 hF hL x0 x1 x2 x3 = k0_pay1 k0_pay7 (k0_pay10 i x0 x1) := by
  unfold leftFirst2
  rw [View.read_writes_eq_canon _ _ _ (coverFirst2 c i a2 h2 a3 h3 a4 h4 a5 h5 a6 h6 a7 h7 a8 h8 a9 h9 hF hL x0 x1 x2 x3)]
  unfold runFirst
  dsimp only
  sl_unfold_words
  refine (View.canon_cons_unit_zero (S := S1024x1) hz00 _ _ _).trans ?_
  rw [View.readCov_unit_zero (S := S1024x1) a9.view hz00]
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-- The LAST case stores into the result block, row by row, the finished first sum divided by the finished second,
    less the logarithm of the finished third plus the guard: the three sums are read back after their last stores. -/
theorem leftRes_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .i32) (h4 : a4.IsWhole) (a5 : Memref sig .tc .vmem S1x512 .i32) (h5 : a5.IsWhole) (a6 : Memref sig .tc .vmem S1024x1 .f32) (h6 : a6.IsWhole) (a7 : Memref sig .tc .vmem S1024x1 .f32) (h7 : a7.IsWhole) (a8 : Memref sig .tc .vmem S1024x1 .f32) (h8 : a8.IsWhole) (a9 : Memref sig .tc .vmem S1024x1 .f32) (h9 : a9.IsWhole) (hF : ¬isFirst i) (hL : isLast i)
    (x0 : Vec F S1024x512 .bf16) (x1 : Vec F S512x512 .bf16) (x2 : Vec F S1024x1 .i32) (x3 : Vec F S1x512 .i32) (s0 s1 s2 : Vec F S1024x1 .f32) :
    leftRes c i a2 h2 a3 h3 a4 h4 a5 h5 a6 h6 a7 h7 a8 h8 a9 h9 hF hL x0 x1 x2 x3 s0 s1 s2 = k0_pay4 (k0_pay1 s2 (k0_pay10 i x0 x1)) (k0_pay2 (k0_pay8 x0 x1) (k0_pay9 x2 x3) s0) (k0_pay3 (k0_pay9 x2 x3) s1) := by
  unfold leftRes
  rw [View.read_writes_eq_canon _ _ _ (coverRes c i a2 h2 a3 h3 a4 h4 a5 h5 a6 h6 a7 h7 a8 h8 a9 h9 hF hL x0 x1 x2 x3 s0 s1 s2)]
  unfold runLast
  dsimp only
  sl_unfold_words
  refine (View.canon_unit_zero (S := S1024x1) hz00 _ _).trans ?_
  rw [View.readCov_unit_zero (S := S1024x1) a9.view hz00, View.readCov_unit_zero (S := S1024x1) a7.view hz00, View.readCov_unit_zero (S := S1024x1) a8.view hz00]
  simp only [View.readAt_eq_ld, h2.read_unread, h3.read_unread, h4.read_unread, h5.read_unread, h7.read_unread, h8.read_unread, h9.read_unread,
    View.ld_unit_zero (S := S1024x512) hz00, View.ld_unit_zero (S := S512x512) hz00, View.ld_unit_zero (S := S1024x1) hz00, View.ld_unit_zero (S := S1x512) hz00]

/-! ## The accumulation over the payloads -/

variable (m : (ℓ : Loc nD τ sig) → Buf (Elt F) ℓ)

/-! ## The cases at a point over the payloads -/

/-- A point of the first case: each running sum is the zero block plus the point's lane sum. -/
theorem firstAt_eq (c : Dev nD) (t : Fin cfg0.N) (hF : isFirst (grid0.coords t)) (hL : ¬isLast (grid0.coords t)) :
    firstAt m c t hF hL = (k0_pay2 (k0_pay8 (iblk m c 0 t) (iblk m c 1 t)) (k0_pay9 (iblk m c 2 t) (iblk m c 3 t)) k0_pay5, k0_pay3 (k0_pay9 (iblk m c 2 t) (iblk m c 3 t)) k0_pay6, k0_pay1 k0_pay7 (k0_pay10 (grid0.coords t) (iblk m c 0 t) (iblk m c 1 t))) := by
  unfold firstAt
  exact congrArg₂ Prod.mk (leftFirst0_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t))
    (congrArg₂ Prod.mk (leftFirst1_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t))
      (leftFirst2_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t)))

/-- A point of the middle case, from the sums s the point before left: each plus the point's lane sum. -/
theorem middleAt_eq (c : Dev nD) (t : Fin cfg0.N) (hF : ¬isFirst (grid0.coords t)) (hL : ¬isLast (grid0.coords t)) (s : Vec F S1024x1 .f32 × Vec F S1024x1 .f32 × Vec F S1024x1 .f32) :
    middleAt m c t hF hL s = (k0_pay2 (k0_pay8 (iblk m c 0 t) (iblk m c 1 t)) (k0_pay9 (iblk m c 2 t) (iblk m c 3 t)) s.1, k0_pay3 (k0_pay9 (iblk m c 2 t) (iblk m c 3 t)) s.2.1, k0_pay1 s.2.2 (k0_pay10 (grid0.coords t) (iblk m c 0 t) (iblk m c 1 t))) := by
  unfold middleAt
  exact congrArg₂ Prod.mk (leftMiddle0_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)
    (congrArg₂ Prod.mk (leftMiddle1_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)
      (leftMiddle2_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2))

/-- A point of the last case likewise. -/
theorem lastAt_eq (c : Dev nD) (t : Fin cfg0.N) (hF : ¬isFirst (grid0.coords t)) (hL : isLast (grid0.coords t)) (s : Vec F S1024x1 .f32 × Vec F S1024x1 .f32 × Vec F S1024x1 .f32) :
    lastAt m c t hF hL s = (k0_pay2 (k0_pay8 (iblk m c 0 t) (iblk m c 1 t)) (k0_pay9 (iblk m c 2 t) (iblk m c 3 t)) s.1, k0_pay3 (k0_pay9 (iblk m c 2 t) (iblk m c 3 t)) s.2.1, k0_pay1 s.2.2 (k0_pay10 (grid0.coords t) (iblk m c 0 t) (iblk m c 1 t))) := by
  unfold lastAt
  exact congrArg₂ Prod.mk (leftLast0_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)
    (congrArg₂ Prod.mk (leftLast1_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2)
      (leftLast2_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2))

/-- The result block of a point of the last case, from the three sums that point has just finished: the first over
    the second, less the logarithm of the third plus the guard. -/
theorem resAt_eq (c : Dev nD) (t : Fin cfg0.N) (hF : ¬isFirst (grid0.coords t)) (hL : isLast (grid0.coords t)) (s : Vec F S1024x1 .f32 × Vec F S1024x1 .f32 × Vec F S1024x1 .f32) :
    resAt m c t hF hL s = k0_pay4 (lastAt m c t hF hL s).2.2 (lastAt m c t hF hL s).1 (lastAt m c t hF hL s).2.1 := by
  rw [lastAt_eq m c t hF hL s]
  unfold resAt
  exact leftRes_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) hF hL (iblk m c 0 t) (iblk m c 1 t) (iblk m c 2 t) (iblk m c 3 t) s.1 s.2.1 s.2.2

/-- After a point of the first case each running sum is the zero block plus the point's lane sum. -/
theorem accAt_first_pay (c : Dev nD) (t : Fin cfg0.N) (h0 : t.val % 16 = 0) :
    accAt m c t.val t.isLt = (k0_pay2 (k0_pay8 (iblk m c 0 t) (iblk m c 1 t)) (k0_pay9 (iblk m c 2 t) (iblk m c 3 t)) k0_pay5, k0_pay3 (k0_pay9 (iblk m c 2 t) (iblk m c 3 t)) k0_pay6, k0_pay1 k0_pay7 (k0_pay10 (grid0.coords t) (iblk m c 0 t) (iblk m c 1 t))) := by
  rw [accAt_first m c t h0]; unfold firstAt
  exact congrArg₂ Prod.mk (leftFirst0_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
    (congrArg₂ Prod.mk (leftFirst1_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t))
      (leftFirst2_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) ((isFirst_iff t).mpr h0) (notLast_of_first t h0) (iblk m c 0 t) (iblk m c 1 t) (iblk m c 2 t) (iblk m c 3 t)))

/-- After a point of the middle case each running sum is what the point before left plus the point's lane sum. -/
theorem accAt_middle_pay (c : Dev nD) (t : Fin cfg0.N) (h0 : ¬t.val % 16 = 0) (h1 : ¬t.val % 16 = 15) :
    accAt m c t.val t.isLt = (k0_pay2 (k0_pay8 (iblk m c 0 t) (iblk m c 1 t)) (k0_pay9 (iblk m c 2 t) (iblk m c 3 t)) (accAt m c (t.val - 1) (prevLt t)).1, k0_pay3 (k0_pay9 (iblk m c 2 t) (iblk m c 3 t)) (accAt m c (t.val - 1) (prevLt t)).2.1, k0_pay1 (accAt m c (t.val - 1) (prevLt t)).2.2 (k0_pay10 (grid0.coords t) (iblk m c 0 t) (iblk m c 1 t))) := by
  rw [accAt_middle m c t h0 h1]; unfold middleAt
  exact congrArg₂ Prod.mk (leftMiddle0_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
    (congrArg₂ Prod.mk (leftMiddle1_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2)
      (leftMiddle2_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) (notLast_of t h1) (iblk m c 0 t) (iblk m c 1 t) (iblk m c 2 t) (iblk m c 3 t) (accAt m c (t.val - 1) (prevLt t)).1 (accAt m c (t.val - 1) (prevLt t)).2.1 (accAt m c (t.val - 1) (prevLt t)).2.2))

/-- After a point of the last case likewise. -/
theorem accAt_last_pay (c : Dev nD) (t : Fin cfg0.N) (h0 : ¬t.val % 16 = 0) (h1 : t.val % 16 = 15) :
    accAt m c t.val t.isLt = (k0_pay2 (k0_pay8 (iblk m c 0 t) (iblk m c 1 t)) (k0_pay9 (iblk m c 2 t) (iblk m c 3 t)) (accAt m c (t.val - 1) (prevLt t)).1, k0_pay3 (k0_pay9 (iblk m c 2 t) (iblk m c 3 t)) (accAt m c (t.val - 1) (prevLt t)).2.1, k0_pay1 (accAt m c (t.val - 1) (prevLt t)).2.2 (k0_pay10 (grid0.coords t) (iblk m c 0 t) (iblk m c 1 t))) := by
  rw [accAt_last m c t h0 h1]; unfold lastAt
  exact congrArg₂ Prod.mk (leftLast0_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
    (congrArg₂ Prod.mk (leftLast1_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2)
      (leftLast2_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of t h0) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2))

/-- At a point of the last case the result block is the finished first sum over the finished second, less the
    logarithm of the finished third plus the guard. -/
theorem outAt_last_pay (c : Dev nD) (t : Fin cfg0.N) (h1 : t.val % 16 = 15) :
    outAt m c t = k0_pay4 (k0_pay1 (accAt m c (t.val - 1) (prevLt t)).2.2 (k0_pay10 (grid0.coords t) (iblk m c 0 t) (iblk m c 1 t))) (k0_pay2 (k0_pay8 (iblk m c 0 t) (iblk m c 1 t)) (k0_pay9 (iblk m c 2 t) (iblk m c 3 t)) (accAt m c (t.val - 1) (prevLt t)).1) (k0_pay3 (k0_pay9 (iblk m c 2 t) (iblk m c 3 t)) (accAt m c (t.val - 1) (prevLt t)).2.1) := by
  rw [outAt_last m c t h1]; unfold resAt
  exact leftRes_eq c (grid0.coords t) (stg0 t) (stgW0 t) (stg1 t) (stgW1 t) (stg2 t) (stgW2 t) (stg3 t) (stgW3 t) (stg4 t) (stgW4 t) acc0 (Memref.isWhole_whole _) acc1 (Memref.isWhole_whole _) acc2 (Memref.isWhole_whole _) (notFirst_of_last t h1) ((isLast_iff t).mpr h1) (iblk m c 0 t) (iblk m c 1 t) (iblk m c 2 t) (iblk m c 3 t) (accAt m c (t.val - 1) (prevLt t)).1 (accAt m c (t.val - 1) (prevLt t)).2.1 (accAt m c (t.val - 1) (prevLt t)).2.2

end Cert.KernelIdeal.Frm

end
-- ==== Proof.Spec.lean ====
/-
  The supervised-contrastive loss of L2-normalised rows, written twice over the reals.

  For a matrix `x` of 8192 rows and 512 columns and a label per row, let `feat` be the rows divided by their
  Euclidean lengths, `sim p q` the inner product of rows `p` and `q` of `feat`, `msk p q` the indicator that the
  two rows carry the same label and `nself p q` the indicator that `p ≠ q`.  With a temperature `D` and a guard `ε`:

  * the SHIFTED form subtracts the constant `1 / D` from every scaled similarity `sim p q * (1 / D)`, averages the
    shifted similarities of a row over its positives and subtracts the logarithm of the guarded sum of the
    exponentials of the row's other entries (`rowK`, `resK`);
  * the MAX form divides by `D`, subtracts the row's maximum, forms the log-probabilities entry by entry and
    averages them over the positives (`rowR`, `resR`).

  Both end with minus the mean over the rows.  They are the same number whenever every row is non-zero: a
  unit vector's similarity with itself is 1 and, by the Cauchy–Schwarz inequality, no other entry of its row is
  larger, so the row maximum is exactly `1 / D`.
-/
import Idealize.ShloMosaic.PureOps.Ideal

noncomputable section

namespace Cert.Spec

open Finset BigOperators

/-- The rows of the feature matrix. -/
abbrev Row := Fin 8192
/-- The columns of the feature matrix. -/
abbrev Col := Fin 512

variable (x : Row → Col → ℝ) (l : Row → BitVec 32) (D ε : ℝ)

/-- The squared Euclidean length of row `p`. -/
def nrm2 (p : Row) : ℝ := ∑ k, x p k * x p k

/-- Row `p` divided by its Euclidean length. -/
def feat (p : Row) (k : Col) : ℝ := x p k / Real.sqrt (nrm2 x p)

/-- The cosine similarity of rows `p` and `q`. -/
def sim (p q : Row) : ℝ := ∑ k, feat x p k * feat x q k

/-- 1 when rows `p` and `q` carry the same label, else 0. -/
def msk (p q : Row) : ℝ := if l p = l q then 1 else 0

/-- 0 on the diagonal, 1 off it. -/
def nself (p q : Row) : ℝ := if p = q then 0 else 1

/-! ### The shifted form: every scaled similarity less the constant `1 / D` -/

/-- The scaled similarity less `1 / D`. -/
def shK (p q : Row) : ℝ := sim x p q * (1 / D) - 1 / D

/-- Row `p`'s mean shifted similarity over its positives, less the log of its guarded off-diagonal exponential sum. -/
def rowK (p : Row) : ℝ :=
  (∑ q, msk l p q * shK x D p q) / (∑ q, msk l p q) - Real.log ((∑ q, Real.exp (shK x D p q) * nself p q) + ε)

/-- Minus the mean of `rowK` over the rows. -/
def resK : ℝ := -((∑ p, rowK x l D ε p) / 8192)

/-! ### The max form: every scaled similarity less its row's maximum -/

/-- The similarity divided by the temperature. -/
def lg (p q : Row) : ℝ := sim x p q / D

/-- The largest entry of row `p` of `lg`. -/
def mx (p : Row) : ℝ := Finset.univ.sup' ⟨p, Finset.mem_univ p⟩ (lg x D p)

/-- `lg` less its row's maximum. -/
def shR (p q : Row) : ℝ := lg x D p q - mx x D p

/-- The log-probability of entry `(p, q)`: the shifted entry less the log of the row's guarded off-diagonal exponential sum. -/
def lpR (p q : Row) : ℝ :=
  shR x D p q - Real.log ((∑ q', Real.exp (shR x D p q') * (1 - (if p = q' then (1 : ℝ) else 0))) + ε)

/-- Row `p`'s mean log-probability over its positives. -/
def rowR (p : Row) : ℝ := (∑ q, msk l p q * lpR x D ε p q) / (∑ q, msk l p q)

/-- Minus the mean of `rowR` over the rows. -/
def resR : ℝ := -((∑ p, rowR x l D ε p) / 8192)

end Cert.Spec

end
-- ==== Proof.RefConsts.lean ====
/-
  The float constants the max form of the loss spells, as the extended reals their patterns denote: the
  temperature, the guard added inside the logarithm, one, the number of rows, minus infinity and zero.
  Each pattern is unfolded once, here.
-/
import Idealize.ShloMosaic.PureOps.Ideal

noncomputable section

namespace Cert.RefValue

open Idealize.ShloMosaic

/-- The temperature: the real the pattern `0x3D8F5C29` denotes, `(2^23 + 1006633) / 2^27`. -/
def tempR : ℝ := 9395241 / 134217728

/-- The guard inside the logarithm: the real the pattern `0x2B8CBCCC` denotes, `(2^23 + 834764) / 2^63`. -/
def epsR : ℝ := 2305843 / 2 ^ 61

theorem tempR_pos : 0 < tempR := by unfold tempR; norm_num

theorem epsR_pos : 0 < epsR := by unfold epsR; positivity

theorem tempR_ne : tempR ≠ 0 := tempR_pos.ne'

/-- The pattern of the temperature denotes `tempR`. -/
theorem ofBits_temp : Ideal.ofBits .f32 0x3D8F5C29#32 = ((tempR : ℝ) : EReal) := by
  unfold tempR
  simp [Ideal.ofBits, Ideal.ieee, -EReal.coe_mul]; norm_num

/-- The pattern of the guard denotes `epsR`. -/
theorem ofBits_eps : Ideal.ofBits .f32 0x2B8CBCCC#32 = ((epsR : ℝ) : EReal) := by
  unfold epsR
  simp [Ideal.ofBits, Ideal.ieee, -EReal.coe_mul]; norm_num

/-- `1.0` denotes the real one. -/
theorem ofBits_one : Ideal.ofBits .f32 0x3F800000#32 = ((1 : ℝ) : EReal) := by
  simp [Ideal.ofBits, Ideal.ieee, -EReal.coe_mul]; norm_num

/-- `8192.0` denotes the real `8192`. -/
theorem ofBits_rows : Ideal.ofBits .f32 0x46000000#32 = ((8192 : ℝ) : EReal) := by
  simp [Ideal.ofBits, Ideal.ieee, -EReal.coe_mul]; norm_num

/-- The pattern of minus infinity denotes the least extended real. -/
theorem ofBits_neg_inf : Ideal.ofBits .f32 0xFF800000#32 = (⊥ : EReal) := by
  simp [Ideal.ofBits, Ideal.ieee]

/-- `+0.0` denotes zero. -/
theorem ofBits_zero : Ideal.ofBits .f32 0x00000000#32 = (0 : EReal) := by
  simp [Ideal.ofBits, Ideal.ieee]

end Cert.RefValue

end
-- ==== Proof.LibERealSum.lean ====
/-
  General lemmas on real numbers seen as extended reals: the coercion commutes with finite sums, with the maximum,
  with division by a nonzero real and with the reciprocal square root of a positive real. Each says that an
  operation of the extended reals, applied to finite arguments away from its corners, is the operation of the
  reals.
-/
import Idealize.ShloMosaic.PureOps.Ideal

noncomputable section

open scoped BigOperators

namespace Cert.LibERealSum

open Idealize.ShloMosaic

/-- The coercion of a finite sum of reals is the sum of the coercions (sum over a finite set). -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of a finite sum of reals is the sum of the coercions (sum over a finite type). -/
theorem coe_sum {ι : Type*} [Fintype ι] (f : ι → ℝ) :
    ((∑ i, f i : ℝ) : EReal) = ∑ i, ((f i : ℝ) : EReal) :=
  coe_finset_sum Finset.univ f

/-- A sum of extended reals each of which is the coercion of a real is the coercion of the real sum. -/
theorem sum_eq_coe {ι : Type*} (s : Finset ι) (g : ι → EReal) (f : ι → ℝ)
    (h : ∀ i ∈ s, g i = ((f i : ℝ) : EReal)) :
    ∑ i ∈ s, g i = ((∑ i ∈ s, f i : ℝ) : EReal) := by
  rw [coe_finset_sum]
  exact Finset.sum_congr rfl h

/-- Zero plus a sum of coerced reals is the coercion of the real sum (sum over a finite set). -/
theorem zero_add_finset_sum_coe {ι : Type*} (s : Finset ι) (f : ι → ℝ) :
    (0 : EReal) + ∑ i ∈ s, ((f i : ℝ) : EReal) = ((∑ i ∈ s, f i : ℝ) : EReal) := by
  rw [zero_add, coe_finset_sum]

/-- Zero plus a sum of coerced reals is the coercion of the real sum (sum over a finite type). -/
theorem zero_add_sum_coe {ι : Type*} [Fintype ι] (f : ι → ℝ) :
    (0 : EReal) + ∑ i, ((f i : ℝ) : EReal) = ((∑ i, f i : ℝ) : EReal) :=
  zero_add_finset_sum_coe Finset.univ f

/-- The maximum of two coerced reals is the coercion of their maximum. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two coerced reals is the coercion of their minimum. -/
theorem min_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- Dividing a coerced real by a coerced nonzero real gives the coerced quotient. -/
theorem div_coe_coe (a : ℝ) {b : ℝ} (hb : b ≠ 0) :
    Ideal.div (a : EReal) (b : EReal) = ((a / b : ℝ) : EReal) := by
  rw [Ideal.div_coe hb, ← EReal.coe_mul, one_div, div_eq_mul_inv]

/-- The reciprocal square root of a coerced positive real is the coerced reciprocal of its square root. -/
theorem rsqrt_coe_pos {r : ℝ} (hr : 0 < r) :
    Ideal.rsqrt ((r : ℝ) : EReal) = (((Real.sqrt r)⁻¹ : ℝ) : EReal) := by
  rw [Ideal.rsqrt_coe, if_neg (not_lt.2 hr.le), if_neg hr.ne']

/-- The square root of a coerced non-negative real is the coerced square root. -/
theorem sqrt_coe_nonneg {r : ℝ} (hr : 0 ≤ r) :
    Ideal.sqrt ((r : ℝ) : EReal) = ((Real.sqrt r : ℝ) : EReal) := by
  rw [Ideal.sqrt_coe, if_neg (not_lt.2 hr)]

end Cert.LibERealSum

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.KiPayload.lean ====
/-
  The kernel body's arithmetic read at an index, first part: the named reciprocal of the temperature, the
  shifted scaled similarities of a block of 1024 rows against a block of 512 columns, and the label mask.

  Entry (r, q) of the shifted block is the inner product of row r of the first operand with row q of the second
  (the second is transposed before the product, and the product starts from zero), times the reciprocal of the
  temperature, less that reciprocal.  Entry (r, q) of the mask compares two 32-bit labels for equality; the
  comparison's bit, widened to a word and read as a signed integer, is one or zero.
-/
import proofs.«121029_j88064009437247_1_alg».proof.Proof.Gen.KernelIdeal.Skeleton
import proofs.«121029_j88064009437247_1_alg».proof.Proof.Spec
import proofs.«121029_j88064009437247_1_alg».proof.Proof.RefConsts
import proofs.«121029_j88064009437247_1_alg».proof.Proof.LibERealSum
import proofs.«121029_j88064009437247_1_alg».proof.Proof.LibMatmulPlain
import proofs.«121029_j88064009437247_1_alg».proof.Proof.LibRowStat
import Idealize.ShloMosaic.PureOps.IdealRules
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.RefValue
  Cert.LibERealSum
open Finset BigOperators

/-! ### Operations of the vector unit at an index (each by definition) -/

section AtIndex
variable {s : Shape} {φ : FTy}

theorem vexp_apply (x : FVec Ideal s φ) (i : s.Idx) : exp x i = Ideal.exp (x i) := rfl
theorem vlog_apply (x : FVec Ideal s φ) (i : s.Idx) : log x i = Ideal.log (x i) := rfl
theorem vcmpi_apply {w : Nat} (p : CmpIPredicate) (x y : IVec s w) (i : s.Idx) :
    cmpi p x y i = IntOp.cmpi p (x i) (y i) := rfl
theorem vaddi_apply {w : Nat} (x y : IVec s w) (i : s.Idx) : addi x y i = IntOp.addi (x i) (y i) := rfl
theorem sitofp_val {w : Nat} (b : BitVec w) : FloatOps.sitofp (F := Ideal) φ b = ((b.toInt : ℝ) : EReal) := rfl
theorem scalar_ofBits_val (b : BitVec φ.bits) : Scalar.ofBits (F := Ideal) φ b = Ideal.ofBits φ b := rfl

end AtIndex

/-- A vector of `a` entries cast to a column of `a` rows reads, at row `p`, the entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    rw [Nat.mul_one, Nat.add_zero])

/-! ### The named constant -/

/-- The kernel's named constant denotes the rational `134217728 / 9395241`. -/
theorem inv_temp :
    Named.named (F := Ideal) Cert.KernelIdeal.κ "inv_temp" (φ := .f32) 0x41649249#32
      = ((134217728 / 9395241 : ℝ) : EReal) :=
  IdealRules.named_const.ideal_named_scalar _ _ _ _ rfl

/-- That rational is the reciprocal of the temperature. -/
theorem inv_temp_eq : (134217728 / 9395241 : ℝ) = 1 / tempR := by norm_num [tempR]

/-! ### The shifted scaled similarities -/

/-- The product of a block of 1024 rows with a 512 by 512 block, started from zero, at `(r, q)`. -/
theorem mm_val (A : FVec Ideal S1024x512 .bf16) (B : FVec Ideal S512x512 .bf16) (r : Fin 1024) (q : Fin 512) :
    matmul dot_S1024x512_S512x512_S1024x512_1_0_0_1_n_n none A B
        (constant (F := Ideal) S1024x512 .f32 0x00000000#32) (ix2 r q)
      = ∑ c : Fin 512, A (ix2 r c) * B (ix2 c q) :=
  Cert.LibMatmulPlain.matmul_plain_zero_apply none A B r q

/-- The 512 by 512 block transposed reads, at `(c, q)`, the block at `(q, c)`. -/
theorem tr_val (B : FVec Ideal S512x512 .bf16) (c q : Fin 512) :
    transpose S512x512 [1, 0] B transposes_S512x512_p1_0_S512x512 (ix2 c q) = B (ix2 q c) :=
  transpose_ix2_apply B transposes_S512x512_p1_0_S512x512 c q

/-- The real the shifted block holds at `(r, q)`, for row blocks `fr` and `fc`. -/
def sh (fr : Fin 1024 → Fin 512 → ℝ) (fc : Fin 512 → Fin 512 → ℝ) (r : Fin 1024) (q : Fin 512) : ℝ :=
  (∑ k, fr r k * fc q k) * (1 / tempR) - 1 / tempR

section Pay8

variable (a3 : Vec Ideal S1024x512 .bf16) (a5 : Vec Ideal S512x512 .bf16)
  (fr : Fin 1024 → Fin 512 → ℝ) (fc : Fin 512 → Fin 512 → ℝ)
  (h3 : ∀ r k, a3 (ix2 r k) = ((fr r k : ℝ) : EReal)) (h5 : ∀ q k, a5 (ix2 q k) = ((fc q k : ℝ) : EReal))

include h3 h5

/-- Entry `(r, q)` of the shifted block. -/
theorem pay8_val (r : Fin 1024) (q : Fin 512) :
    k0_pay8 (F := Ideal) a3 a5 (ix2 r q)
      = (((∑ k, fr r k * fc q k) * (1 / tempR) - 1 / tempR : ℝ) : EReal) := by
  unfold k0_pay8
  simp only [subf_apply, mulf_apply, broadcast_apply, shapeCast_self, mm_val, inv_temp]
  have e : ∑ c : Fin 512, a3 (ix2 r c) * transpose S512x512 [1, 0] a5 transposes_S512x512_p1_0_S512x512 (ix2 c q)
      = ((∑ k, fr r k * fc q k : ℝ) : EReal) := by
    rw [coe_sum]
    refine Finset.sum_congr rfl fun c _ => ?_
    rw [tr_val, h3, h5, EReal.coe_mul]
  rw [e, inv_temp_eq, ← EReal.coe_mul, ← EReal.coe_sub]

theorem pay8_sh (r : Fin 1024) (q : Fin 512) :
    k0_pay8 (F := Ideal) a3 a5 (ix2 r q) = ((sh fr fc r q : ℝ) : EReal) :=
  pay8_val a3 a5 fr fc h3 h5 r q

end Pay8

/-! ### The label mask -/

/-- The bit of an equality comparison, widened to 32 bits and read as a signed integer: one or zero. -/
theorem sitofp_extui_eq (a b : BitVec 32) :
    FloatOps.sitofp (F := Ideal) .f32 ((IntOp.cmpi .eq a b).setWidth 32) = (((if a = b then (1 : ℝ) else 0 : ℝ)) : EReal) := by
  rw [sitofp_val]
  by_cases h : a = b
  · have hc : IntOp.cmpi .eq a b = 1#1 := by simp [IntOp.cmpi, h]
    rw [hc, if_pos h]
    have : ((1#1 : BitVec 1).setWidth 32).toInt = 1 := by decide
    rw [this]; norm_num
  · have hb : (a == b) = false := by rw [beq_eq_false_iff_ne]; exact h
    have hc : IntOp.cmpi .eq a b = 0#1 := by simp [IntOp.cmpi, hb]
    rw [hc, if_neg h]
    have : ((0#1 : BitVec 1).setWidth 32).toInt = 0 := by decide
    rw [this]; norm_num

/-- Entry `(r, q)` of the mask: one when the row's label is the column's label. -/
theorem pay9_val (l13 : Vec Ideal S1024x1 .i32) (l15 : Vec Ideal S1x512 .i32) (r : Fin 1024) (q : Fin 512) :
    k0_pay9 (F := Ideal) l13 l15 (ix2 r q)
      = (((if l13 (ix2 r (0 : Fin 1)) = l15 (ix2 (0 : Fin 1) q) then (1 : ℝ) else 0 : ℝ)) : EReal) := by
  unfold k0_pay9
  simp only [sitofp_apply, extui_apply, vcmpi_apply, shapeCast_self, Cert.LibRowStat.broadcastTo_a1_ab_apply,
    broadcastTo_1b_ab_apply]
  exact sitofp_extui_eq _ _

end Cert.KernelIdeal.Pay

end
-- ==== Proof.KiPayloadSum.lean ====
/-
  The kernel body's arithmetic read at an index, second part: a row's sum of off-diagonal exponentials over a
  block of 512 columns, the three running accumulators, the zero splats, and the value of a finished row.

  The off-diagonal test compares a global row number `1024 * a + r` with a global column number `512 * b + q`
  as 32-bit words, for a block row `a` below 8 and a block column `b` below 16; both numbers are below `2^32`,
  so the words differ exactly when the numbers do.  The accumulators add a row's sum over the 512 lanes to what
  they held.  The value of a finished row is the quotient of two accumulators less the logarithm of the third
  plus a positive guard.
-/
import proofs.«121029_j88064009437247_1_alg».proof.Proof.KiPayload

noncomputable section

namespace Cert.KernelIdeal.Pay

open Idealize.ShloMosaic Idealize.ShloMosaic.ValueIdx Cert.KernelIdeal Cert.KernelIdeal.Gen Cert.RefValue
  Cert.LibERealSum
open Finset BigOperators

/-! ### The off-diagonal test -/

/-- The bit of a comparison for difference, widened to 32 bits and read as a signed integer: zero or one. -/
theorem sitofp_extui_ne (a b : BitVec 32) :
    FloatOps.sitofp (F := Ideal) .f32 ((IntOp.cmpi .ne a b).setWidth 32) = (((if a = b then (0 : ℝ) else 1 : ℝ)) : EReal) := by
  rw [sitofp_val]
  by_cases h : a = b
  · have hc : IntOp.cmpi .ne a b = 0#1 := by simp [IntOp.cmpi, h]
    rw [hc, if_pos h]
    have : ((0#1 : BitVec 1).setWidth 32).toInt = 0 := by decide
    rw [this]; norm_num
  · have hb : (a != b) = true := by rw [bne_iff_ne]; exact h
    have hc : IntOp.cmpi .ne a b = 1#1 := by simp [IntOp.cmpi, hb]
    rw [hc, if_neg h]
    have : ((1#1 : BitVec 1).setWidth 32).toInt = 1 := by decide
    rw [this]; norm_num

/-- The global row and column numbers, as 32-bit words, are equal exactly when the numbers are. -/
theorem rowcol_bits (a b : Nat) (ha : a < 8) (hb : b < 16) (r : Fin 1024) (q : Fin 512) :
    (IntOp.addi (Scalar.muli (BitVec.ofNat 32 a) 1024#32) (BitVec.ofNat 32 r.val)
        = IntOp.addi (Scalar.muli (BitVec.ofNat 32 b) 512#32) (BitVec.ofNat 32 q.val))
      ↔ 1024 * a + r.val = 512 * b + q.val := by
  have := r.isLt; have := q.isLt
  rw [← BitVec.toNat_inj]
  simp only [IntOp.addi, Scalar.muli, IntOp.muli, BitVec.toNat_add, BitVec.toNat_mul, BitVec.toNat_ofNat,
    Nat.reducePow, Nat.reduceMod]
  omega

/-- The row counter of a column of 1024 rows reads the row number. -/
theorem iota_row (h : S1024x1.Iotas .tc 32 [0]) (r : Fin 1024) (z : Fin 1) :
    iota .tc S1024x1 32 [0] h (ix2 r z) = BitVec.ofNat 32 r.val := by
  rw [iota_single_apply]

/-- The column counter of a row of 512 columns reads the column number. -/
theorem iota_col (h : S1x512.Iotas .tc 32 [1]) (z : Fin 1) (q : Fin 512) :
    iota .tc S1x512 32 [1] h (ix2 z q) = BitVec.ofNat 32 q.val := by
  rw [iota_single_apply]

/-! ### A row's sum of off-diagonal exponentials over the block -/

section Pay10

variable (a3 : Vec Ideal S1024x512 .bf16) (a5 : Vec Ideal S512x512 .bf16)
  (fr : Fin 1024 → Fin 512 → ℝ) (fc : Fin 512 → Fin 512 → ℝ)
  (h3 : ∀ r k, a3 (ix2 r k) = ((fr r k : ℝ) : EReal)) (h5 : ∀ q k, a5 (ix2 q k) = ((fc q k : ℝ) : EReal))

include h3 h5

/-- At block `(i 0, i 1)` of the grid, row `r`: the sum over the block's columns of the exponential of the
    shifted entry, the global diagonal left out. -/
theorem pay10_val (i : grid0.Coords) (r : Fin 1024) :
    k0_pay10 (F := Ideal) i a3 a5 (ix1 r)
      = ((∑ q : Fin 512, Real.exp (sh fr fc r q)
            * (if 1024 * (i 0).val + r.val = 512 * (i 1).val + q.val then (0 : ℝ) else 1) : ℝ) : EReal) := by
  have h0 : (i 0).val < 8 := (i 0).isLt
  have h1 : (i 1).val < 16 := (i 1).isLt
  unfold k0_pay10
  dsimp only
  refine (Cert.LibRowStat.sum_lanes_apply _ 0x00000000#32 reduces_S1024x512_S1024 (.inl rfl) rfl r).trans ?_
  rw [coe_sum]
  refine Finset.sum_congr rfl fun q _ => ?_
  rw [mulf_apply, vexp_apply, pay8_sh a3 a5 fr fc h3 h5 r q, Ideal.exp_coe, sitofp_apply, extui_apply, vcmpi_apply,
    Cert.LibRowStat.broadcastTo_a1_ab_apply, broadcastTo_1b_ab_apply, vaddi_apply, vaddi_apply, broadcast_apply,
    broadcast_apply, iota_row, iota_col, sitofp_extui_ne, EReal.coe_mul]
  simp only [rowcol_bits _ _ h0 h1]

end Pay10

/-! ### The accumulators -/

/-- The accumulator of the exponential sums: what it held plus the block's row sum. -/
theorem pay1_val (z : Vec Ideal S1024x1 .f32) (v38 : FVec Ideal S1024 .f32) (r : Fin 1024) :
    k0_pay1 (F := Ideal) z v38 (ix2 r (0 : Fin 1)) = z (ix2 r (0 : Fin 1)) + v38 (ix1 r) := by
  unfold k0_pay1
  simp only [shapeCast_self, addf_apply]
  exact congrArg (z (ix2 r (0 : Fin 1)) + ·) (shapeCast_a_a1_apply v38 shapeCasts_S1024_S1024x1 r)

/-- The accumulator of the masked shifted entries: what it held plus the sum over the lanes of mask times entry. -/
theorem pay2_val' (v12 v21 : FVec Ideal S1024x512 .f32) (s : Vec Ideal S1024x1 .f32) (r : Fin 1024) :
    k0_pay2 (F := Ideal) v12 v21 s (ix2 r (0 : Fin 1))
      = s (ix2 r (0 : Fin 1)) + ∑ q : Fin 512, v21 (ix2 r q) * v12 (ix2 r q) := by
  unfold k0_pay2
  simp only [shapeCast_self, addf_apply]
  refine congrArg (s (ix2 r (0 : Fin 1)) + ·) ?_
  refine (shapeCast_a_a1_apply _ shapeCasts_S1024_S1024x1 r).trans ?_
  exact Cert.LibRowStat.sum_lanes_apply (mulf v21 v12) 0x00000000#32 reduces_S1024x512_S1024 (.inl rfl) rfl r

theorem pay2_val (v12 v21 : FVec Ideal S1024x512 .f32) (s : Vec Ideal S1024x1 .f32) (r : Fin 1024) :
    k0_pay2 (F := Ideal) v12 v21 s (ix2 r (0 : Fin 1))
      = s (ix2 r (0 : Fin 1)) + (0 + ∑ q : Fin 512, v21 (ix2 r q) * v12 (ix2 r q)) := by
  rw [zero_add]; exact pay2_val' v12 v21 s r

/-- The accumulator of the mask: what it held plus the sum of the mask over the lanes. -/
theorem pay3_val' (v21 : FVec Ideal S1024x512 .f32) (n : Vec Ideal S1024x1 .f32) (r : Fin 1024) :
    k0_pay3 (F := Ideal) v21 n (ix2 r (0 : Fin 1)) = n (ix2 r (0 : Fin 1)) + ∑ q : Fin 512, v21 (ix2 r q) := by
  unfold k0_pay3
  simp only [shapeCast_self, addf_apply]
  refine congrArg (n (ix2 r (0 : Fin 1)) + ·) ?_
  refine (shapeCast_a_a1_apply _ shapeCasts_S1024_S1024x1 r).trans ?_
  exact Cert.LibRowStat.sum_lanes_apply v21 0x00000000#32 reduces_S1024x512_S1024 (.inl rfl) rfl r

theorem pay3_val (v21 : FVec Ideal S1024x512 .f32) (n : Vec Ideal S1024x1 .f32) (r : Fin 1024) :
    k0_pay3 (F := Ideal) v21 n (ix2 r (0 : Fin 1)) = n (ix2 r (0 : Fin 1)) + (0 + ∑ q : Fin 512, v21 (ix2 r q)) := by
  rw [zero_add]; exact pay3_val' v21 n r

/-! ### The zero splats -/

theorem pay5_val (j : S1024x1.Idx) : k0_pay5 (F := Ideal) j = 0 := by
  unfold k0_pay5
  simp only [shapeCast_self, broadcast_apply, scalar_ofBits_val, Ideal.ofBits_zero_f32]

theorem pay6_val (j : S1024x1.Idx) : k0_pay6 (F := Ideal) j = 0 := by
  unfold k0_pay6
  simp only [shapeCast_self, broadcast_apply, scalar_ofBits_val, Ideal.ofBits_zero_f32]

theorem pay7_val (j : S1024x1.Idx) : k0_pay7 (F := Ideal) j = 0 := by
  unfold k0_pay7
  simp only [shapeCast_self, broadcast_apply, scalar_ofBits_val, Ideal.ofBits_zero_f32]

/-! ### The value of a finished row -/

/-- When the three accumulators hold reals at row `r`, the count is non-zero and the guarded sum is positive,
    the row's value is the mean less the logarithm of the guarded sum. -/
theorem pay4_val (z s n : Vec Ideal S1024x1 .f32) (r : Fin 1024) (zr sr nr : ℝ)
    (hz : z (ix2 r (0 : Fin 1)) = ((zr : ℝ) : EReal)) (hs : s (ix2 r (0 : Fin 1)) = ((sr : ℝ) : EReal))
    (hn : n (ix2 r (0 : Fin 1)) = ((nr : ℝ) : EReal)) (hn0 : nr ≠ 0) (hpos : 0 < zr + epsR) :
    k0_pay4 (F := Ideal) z s n (ix2 r (0 : Fin 1)) = ((sr / nr - Real.log (zr + epsR) : ℝ) : EReal) := by
  unfold k0_pay4
  simp only [subf_apply, divf_apply, vlog_apply, addf_apply, broadcast_apply, scalar_ofBits_val, ofBits_eps, hz, hs, hn]
  rw [div_coe_coe _ hn0, ← EReal.coe_add, Ideal.log_coe, if_neg (not_le.2 hpos), ← EReal.coe_sub]

end Cert.KernelIdeal.Pay

end
-- ==== Proof.KiStep.lean ====
/-
  One column block's contribution to a row's three running sums.

  At a grid point the body adds to each running sum the block's lane sum: for row `r` of the row block, the sum
  over the 512 columns of the block of (mask × shifted entry), of the mask, and of the exponential of the shifted
  entry off the global diagonal.  With the blocks' entries real, each new sum is the old one plus a real sum.
-/
import proofs.«121029_j88064009437247_1_alg».proof.Proof.KiPayloadSum

noncomputable section

namespace Cert.KernelIdeal.Acc

open Idealize.ShloMosaic Idealize.ShloMosaic.ValueIdx Cert.KernelIdeal Cert.KernelIdeal.Gen Cert.RefValue Cert.KernelIdeal.Pay
open Cert.LibERealSum
open Finset BigOperators

variable (i : grid0.Coords) (B0 : Vec Ideal S1024x512 .bf16) (B1 : Vec Ideal S512x512 .bf16)
  (B2 : Vec Ideal S1024x1 .i32) (B3 : Vec Ideal S1x512 .i32)
  (fr : Fin 1024 → Fin 512 → ℝ) (fc : Fin 512 → Fin 512 → ℝ)
  (h0 : ∀ r k, B0 (ix2 r k) = ((fr r k : ℝ) : EReal)) (h1 : ∀ q k, B1 (ix2 q k) = ((fc q k : ℝ) : EReal))

include h0 h1 in
/-- The sum of mask × shifted entry grows by the block's masked row sum. -/
theorem step_s (s : Vec Ideal S1024x1 .f32) (r : Fin 1024) (sr : ℝ) (hs : s (ix2 r (0 : Fin 1)) = ((sr : ℝ) : EReal)) :
    k0_pay2 (F := Ideal) (k0_pay8 B0 B1) (k0_pay9 B2 B3) s (ix2 r (0 : Fin 1))
      = ((sr + ∑ q : Fin 512, (if B2 (ix2 r (0 : Fin 1)) = B3 (ix2 (0 : Fin 1) q) then (1 : ℝ) else 0) * sh fr fc r q : ℝ) : EReal) := by
  rw [pay2_val', hs, EReal.coe_add, coe_sum]
  refine congrArg (((sr : ℝ) : EReal) + ·) (Finset.sum_congr rfl fun q _ => ?_)
  rw [pay9_val, pay8_sh B0 B1 fr fc h0 h1, EReal.coe_mul]

/-- The count of positives grows by the block's mask row sum. -/
theorem step_n (n : Vec Ideal S1024x1 .f32) (r : Fin 1024) (nr : ℝ) (hn : n (ix2 r (0 : Fin 1)) = ((nr : ℝ) : EReal)) :
    k0_pay3 (F := Ideal) (k0_pay9 B2 B3) n (ix2 r (0 : Fin 1))
      = ((nr + ∑ q : Fin 512, (if B2 (ix2 r (0 : Fin 1)) = B3 (ix2 (0 : Fin 1) q) then (1 : ℝ) else 0) : ℝ) : EReal) := by
  rw [pay3_val', hn, EReal.coe_add, coe_sum]
  refine congrArg (((nr : ℝ) : EReal) + ·) (Finset.sum_congr rfl fun q _ => ?_)
  rw [pay9_val]

include h0 h1 in
/-- The sum of exponentials grows by the block's off-diagonal exponential row sum. -/
theorem step_z (z : Vec Ideal S1024x1 .f32) (r : Fin 1024) (zr : ℝ) (hz : z (ix2 r (0 : Fin 1)) = ((zr : ℝ) : EReal)) :
    k0_pay1 (F := Ideal) z (k0_pay10 i B0 B1) (ix2 r (0 : Fin 1))
      = ((zr + ∑ q : Fin 512, Real.exp (sh fr fc r q)
            * (if 1024 * (i 0).val + r.val = 512 * (i 1).val + q.val then (0 : ℝ) else 1) : ℝ) : EReal) := by
  rw [pay1_val, hz, pay10_val B0 B1 fr fc h0 h1 i r, EReal.coe_add]

end Cert.KernelIdeal.Acc

end
-- ==== Proof.KiPart.lean ====
/-
  A sum over the 8192 columns, taken sixteen column blocks of 512 at a time.

  `colPart f j` is block `j`'s part of the sum of `f` and `partSum f n` the first `n` blocks' part: the running sum
  after `n` column blocks.  All sixteen blocks give the whole sum.
-/
import Mathlib.Algebra.BigOperators.Fin
import Mathlib.Algebra.BigOperators.Intervals
import Mathlib.Data.Real.Basic

noncomputable section

namespace Cert.KernelIdeal.Part

open Finset BigOperators

/-- Column block `j`'s part of the sum of `f` over the 8192 columns. -/
def colPart (f : Fin 8192 → ℝ) (j : ℕ) : ℝ :=
  ∑ q : Fin 512, (if h : 512 * j + q.val < 8192 then f ⟨512 * j + q.val, h⟩ else 0)

/-- The first `n` column blocks' part: the running sum after `n` blocks. -/
def partSum (f : Fin 8192 → ℝ) (n : ℕ) : ℝ := ∑ j ∈ Finset.range n, colPart f j

/-- One more block adds its part. -/
theorem partSum_succ (f : Fin 8192 → ℝ) (n : ℕ) : partSum f (n + 1) = partSum f n + colPart f n :=
  Finset.sum_range_succ _ _

/-- After one block the running sum is that block's part. -/
theorem partSum_one (f : Fin 8192 → ℝ) : partSum f 1 = colPart f 0 := by
  unfold partSum; rw [Finset.sum_range_one]

/-- Within the sixteen blocks every column of the block is a column of the array. -/
theorem colPart_eq (f : Fin 8192 → ℝ) (j : ℕ) (hj : j < 16) :
    colPart f j = ∑ q : Fin 512, f ⟨512 * j + q.val, by have := q.isLt; omega⟩ := by
  unfold colPart
  refine Finset.sum_congr rfl fun q _ => ?_
  rw [dif_pos]

end Cert.KernelIdeal.Part

end
-- ==== Proof.SpecLaw.lean ====
/-
  The shifted form and the max form of the supervised-contrastive loss are the same real number.

  A non-zero row divided by its Euclidean length is a unit vector, so its similarity with itself is 1; by the
  Cauchy–Schwarz inequality its similarity with any other unit vector is at most 1.  Hence the largest entry of
  every row of the scaled similarities is exactly 1 / D, the two shifts coincide entry by entry, and what is left
  is the elementary identity  (∑ m (s − L)) / ∑ m = (∑ m s) / ∑ m − L  for weights of non-zero sum.
-/
import proofs.«121029_j88064009437247_1_alg».proof.Proof.Spec
import Mathlib.Algebra.Order.BigOperators.Ring.Finset
import Mathlib.Analysis.SpecialFunctions.Sqrt
import Mathlib.Analysis.SpecialFunctions.Log.Basic

noncomputable section

namespace Cert.Spec

open Finset BigOperators

/-! ### Facts about finite real sums, over an arbitrary finite index type -/

/-- A vector divided by its Euclidean length has squared length 1: if `n = ∑ a k * a k` is positive then
`∑ (a k / √n) * (a k / √n) = 1`, because each term is `a k * a k / n` and the sum is `n / n`. -/
theorem sum_div_sqrt_mul_self {ι : Type*} [Fintype ι] (a : ι → ℝ) (n : ℝ)
    (hn : n = ∑ k, a k * a k) (h : 0 < n) :
    ∑ k, (a k / Real.sqrt n) * (a k / Real.sqrt n) = 1 := by
  have hs : Real.sqrt n * Real.sqrt n = n := Real.mul_self_sqrt h.le
  have e : ∀ k, (a k / Real.sqrt n) * (a k / Real.sqrt n) = (a k * a k) / n := fun k => by
    rw [div_mul_div_comm, hs]
  simp_rw [e, ← Finset.sum_div, ← hn]
  exact div_self h.ne'

/-- The inner product of two unit vectors is at most 1: by the Cauchy–Schwarz inequality
`(∑ f g)² ≤ (∑ f²)(∑ g²) = 1`, so `|∑ f g| ≤ 1`. -/
theorem sum_mul_le_one_of_unit {ι : Type*} [Fintype ι] (f g : ι → ℝ)
    (hf : ∑ k, f k * f k = 1) (hg : ∑ k, g k * g k = 1) : ∑ k, f k * g k ≤ 1 := by
  have cs := Finset.sum_mul_sq_le_sq_mul_sq Finset.univ f g
  simp only [pow_two] at cs
  rw [hf, hg, one_mul] at cs
  exact (le_abs_self _).trans (abs_le_one_iff_mul_self_le_one.mpr cs)

/-- Subtracting a constant inside a weighted mean subtracts it from the mean: if the weights `m` have non-zero
sum then `(∑ m q * (s q − L)) / ∑ m q = (∑ m q * s q) / ∑ m q − L`. -/
theorem sum_mul_sub_div {ι : Type*} [Fintype ι] (m s : ι → ℝ) (L : ℝ) (hc : (∑ q, m q) ≠ 0) :
    (∑ q, m q * (s q - L)) / (∑ q, m q) = (∑ q, m q * s q) / (∑ q, m q) - L := by
  have e : ∑ q, m q * (s q - L) = (∑ q, m q * s q) - (∑ q, m q) * L := by
    simp_rw [mul_sub, Finset.sum_sub_distrib, Finset.sum_mul]
  rw [e, sub_div, mul_div_cancel_left₀ _ hc]

/-! ### The similarity matrix of the normalised rows -/

section
variable (x : Row → Col → ℝ) (l : Row → BitVec 32) (D ε : ℝ)

/-- A non-zero row has similarity 1 with itself: `sim p p` is the squared length of the normalised row. -/
theorem sim_self (p : Row) (hp : 0 < nrm2 x p) : sim x p p = 1 := by
  unfold sim feat
  exact sum_div_sqrt_mul_self (x p) (nrm2 x p) rfl hp

/-- The similarity of two non-zero rows is at most 1 (Cauchy–Schwarz for the two normalised rows). -/
theorem sim_le_one (p q : Row) (hp : 0 < nrm2 x p) (hq : 0 < nrm2 x q) : sim x p q ≤ 1 := by
  unfold sim
  exact sum_mul_le_one_of_unit (feat x p) (feat x q) (sim_self x p hp) (sim_self x q hq)

/-- The largest entry of row `p` of the scaled similarities is `1 / D`: every entry is `sim p q / D ≤ 1 / D`
since `D > 0`, and the diagonal entry is exactly `1 / D`. -/
theorem mx_eq (hD : 0 < D) (hx : ∀ p, 0 < nrm2 x p) (p : Row) : mx x D p = 1 / D := by
  unfold mx
  apply le_antisymm
  · apply Finset.sup'_le
    intro q _
    unfold lg
    exact div_le_div_of_nonneg_right (sim_le_one x p q (hx p) (hx q)) hD.le
  · have h := Finset.le_sup' (lg x D p) (Finset.mem_univ p)
    have e : lg x D p p = 1 / D := by unfold lg; rw [sim_self x p (hx p)]
    rw [e] at h
    exact h

/-- The two shifts agree entry by entry: `sim p q / D − max = sim p q * (1 / D) − 1 / D`. -/
theorem shR_eq_shK (hD : 0 < D) (hx : ∀ p, 0 < nrm2 x p) (p q : Row) :
    shR x D p q = shK x D p q := by
  unfold shR shK lg
  rw [mx_eq x D hD hx p, div_eq_mul_one_div]

/-- One minus the indicator of the diagonal is the indicator of being off the diagonal. -/
theorem one_sub_ite_eq_nself (p q : Row) : (1 - (if p = q then (1 : ℝ) else 0)) = nself p q := by
  unfold nself
  split_ifs <;> norm_num

/-! ### The positives of a row -/

/-- Every entry of the label mask is non-negative (it is 0 or 1). -/
theorem msk_nonneg (p q : Row) : 0 ≤ msk l p q := by
  unfold msk
  split_ifs <;> norm_num

/-- A row carries its own label: the diagonal of the label mask is 1. -/
theorem msk_self (p : Row) : msk l p p = 1 := by
  unfold msk
  exact if_pos rfl

/-- Every row has a positive number of positives: the sum of the non-negative mask entries of row `p` is at
least the diagonal entry, which is 1. -/
theorem sum_msk_pos (p : Row) : 0 < ∑ q, msk l p q := by
  have h := Finset.single_le_sum (fun q _ => msk_nonneg l p q) (Finset.mem_univ p)
  rw [msk_self] at h
  exact lt_of_lt_of_le one_pos h

/-! ### Rows and results -/

/-- Row by row the max form equals the shifted form: the shifts coincide, the guarded exponential sums coincide,
and the logarithm, being the same for every entry of the row, comes out of the mean over the positives. -/
theorem rowR_eq_rowK (hD : 0 < D) (hx : ∀ p, 0 < nrm2 x p) (p : Row) :
    rowR x l D ε p = rowK x l D ε p := by
  unfold rowR rowK lpR
  have e1 : ∀ q, shR x D p q = shK x D p q := shR_eq_shK x D hD hx p
  have e2 : ∀ q, (1 - (if p = q then (1 : ℝ) else 0)) = nself p q := one_sub_ite_eq_nself p
  simp_rw [e1, e2]
  exact sum_mul_sub_div _ _ _ (sum_msk_pos l p).ne'

end

/-- The shifted form and the max form of the loss are equal whenever the temperature is positive and every row is
non-zero: both are minus the mean of the same row values. -/
theorem resK_eq_resR (x : Row → Col → ℝ) (l : Row → BitVec 32) (D ε : ℝ) (hD : 0 < D) (hε : 0 < ε)
    (hx : ∀ p, 0 < nrm2 x p) : resK x l D ε = resR x l D ε := by
  unfold resK resR
  rw [Finset.sum_congr rfl (fun p _ => rowR_eq_rowK x l D ε hD hx p)]

end Cert.Spec

end
-- ==== Proof.KiBlocks.lean ====
/-
  The windows' blocks and the result array, read at coordinates.

  The grid has 8 × 16 points, the second coordinate moving fastest: point t works on row block t / 16 (1024 rows) and
  column block t % 16 (512 columns).  The block a window shows the body at point t is the corresponding rectangle of
  the window's array, so an entry of a block is the array's entry at "block index × block size + position inside the
  block".  The result column is written back one block of 1024 rows at a time, at the last column block of each row
  block; the eight written blocks tile the column, so the column ends holding, row by row, what those points wrote.
-/
import proofs.«121029_j88064009437247_1_alg».proof.Proof.KiBody
import Idealize.ShloMosaic.Lib.ValueIdx
import Idealize.ShloMosaic.Lib.Pipeline.Value

set_option maxRecDepth 16384

noncomputable section

namespace Cert.KernelIdeal.Blk

open Cert.KernelIdeal Cert.KernelIdeal.Gen Cert.KernelIdeal.Frm
open Idealize.ShloMosaic Idealize.ShloMosaic.TcCoe Idealize.ShloMosaic.ValueIdx
open Idealize.SL Idealize.SL.Sem
open Idealize.ShloMosaic.Pipeline (Dat Cfg Window)

/-! ### The grid's coordinates and the windows' block indices -/

/-- Point `t` of the 8 × 16 grid has first coordinate `t / 16` and second coordinate `t % 16`. -/
theorem coords_val : ∀ t : Fin cfg0.N,
    ((grid0.coords t) 0).val = t.val / 16 ∧ ((grid0.coords t) 1).val = t.val % 16 :=
  (by decide +kernel : ∀ t : Fin grid0.N, _)

/-- The windows' block indices at point `t`: the feature rows, the label column and the result column move with the
row block `t / 16`, the feature columns' rows and the label row with the column block `t % 16`; every other index is 0. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- Row `r` of the row block of point `t`, as a row of the whole matrix: `1024 * (t / 16) + r`. -/
def rowOf (t : Fin cfg0.N) (r : Fin 1024) : Fin 8192 :=
  ⟨1024 * (t.val / 16) + r.val, by have h : t.val < 128 := t.isLt; have := r.isLt; omega⟩

/-- Row `q` of the column block of point `t`, as a row of the whole matrix: `512 * (t % 16) + q`. -/
def colOf (t : Fin cfg0.N) (q : Fin 512) : Fin 8192 :=
  ⟨512 * (t.val % 16) + q.val, by have := q.isLt; omega⟩

theorem rowOf_val (t : Fin cfg0.N) (r : Fin 1024) : (rowOf t r).val = 1024 * (t.val / 16) + r.val := rfl
theorem colOf_val (t : Fin cfg0.N) (q : Fin 512) : (colOf t q).val = 512 * (t.val % 16) + q.val := rfl

variable {F : FTy → Type} [FloatOps F] [Named F]

variable (m : (ℓ : Loc nD τ sig) → Buf (Elt F) ℓ) (c : Dev nD)

/-! ### The blocks the windows show -/

/-- Entry `(r, k)` of the row block of features at point `t` is entry `(1024 * (t / 16) + r, k)` of the features. -/
theorem iblk0_apply (t : Fin cfg0.N) (r : Fin 1024) (k : Fin 512) :
    (iblk m c 0 t : S1024x512.Idx → Elt F .bf16) (ix2 r k)
      = (V m c main_v3 : S8192x512.Idx → Elt F .bf16) (ix2 (rowOf t r) k) := by
  obtain ⟨e0, e1, -⟩ := idx_facts t
  show (V m c main_v3 : S8192x512.Idx → Elt F .bf16) (((cfg0.win 0).blk t).view.emb (ix2 r k)) = _
  refine congrArg (V m c main_v3 : S8192x512.Idx → Elt F .bf16) (funext fun a => Fin.ext ?_)
  match a with
  | ⟨0, _⟩ => show win0_0.index t (0 : Fin 2) * 1024 + 1 * r.val = 1024 * (t.val / 16) + r.val; omega
  | ⟨1, _⟩ => show win0_0.index t (1 : Fin 2) * 512 + 1 * k.val = k.val; omega

/-- Entry `(q, k)` of the column block of features at point `t` is entry `(512 * (t % 16) + q, k)` of the features. -/
theorem iblk1_apply (t : Fin cfg0.N) (q : Fin 512) (k : Fin 512) :
    (iblk m c 1 t : S512x512.Idx → Elt F .bf16) (ix2 q k)
      = (V m c main_v3 : S8192x512.Idx → Elt F .bf16) (ix2 (colOf t q) k) := by
  obtain ⟨-, -, e0, e1, -⟩ := idx_facts t
  show (V m c main_v3 : S8192x512.Idx → Elt F .bf16) (((cfg0.win 1).blk t).view.emb (ix2 q k)) = _
  refine congrArg (V m c main_v3 : S8192x512.Idx → Elt F .bf16) (funext fun a => Fin.ext ?_)
  match a with
  | ⟨0, _⟩ => show win0_1.index t (0 : Fin 2) * 512 + 1 * q.val = 512 * (t.val % 16) + q.val; omega
  | ⟨1, _⟩ => show win0_1.index t (1 : Fin 2) * 512 + 1 * k.val = k.val; omega

/-- Entry `(r, 0)` of the block of the label column at point `t` is entry `(1024 * (t / 16) + r, 0)` of the column. -/
theorem iblk2_apply (t : Fin cfg0.N) (r : Fin 1024) :
    (iblk m c 2 t : S1024x1.Idx → Elt F .i32) (ix2 r (0 : Fin 1))
      = (V m c main_v4 : S8192x1.Idx → Elt F .i32) (ix2 (rowOf t r) (0 : Fin 1)) := by
  obtain ⟨-, -, -, -, e0, e1, -⟩ := idx_facts t
  show (V m c main_v4 : S8192x1.Idx → Elt F .i32) (((cfg0.win 2).blk t).view.emb (ix2 r (0 : Fin 1))) = _
  refine congrArg (V m c main_v4 : S8192x1.Idx → Elt F .i32) (funext fun a => Fin.ext ?_)
  match a with
  | ⟨0, _⟩ => show win0_2.index t (0 : Fin 2) * 1024 + 1 * r.val = 1024 * (t.val / 16) + r.val; omega
  | ⟨1, _⟩ => show win0_2.index t (1 : Fin 2) * 1 + 1 * 0 = 0; omega

/-- Entry `(0, q)` of the block of the label row at point `t` is entry `(0, 512 * (t % 16) + q)` of the row. -/
theorem iblk3_apply (t : Fin cfg0.N) (q : Fin 512) :
    (iblk m c 3 t : S1x512.Idx → Elt F .i32) (ix2 (0 : Fin 1) q)
      = (V m c main_v5 : S1x8192.Idx → Elt F .i32) (ix2 (0 : Fin 1) (colOf t q)) := by
  obtain ⟨-, -, -, -, -, -, e0, e1, -⟩ := idx_facts t
  show (V m c main_v5 : S1x8192.Idx → Elt F .i32) (((cfg0.win 3).blk t).view.emb (ix2 (0 : Fin 1) q)) = _
  refine congrArg (V m c main_v5 : S1x8192.Idx → Elt F .i32) (funext fun a => Fin.ext ?_)
  match a with
  | ⟨0, _⟩ => show win0_3.index t (0 : Fin 2) * 1 + 1 * 0 = 0; omega
  | ⟨1, _⟩ => show win0_3.index t (1 : Fin 2) * 512 + 1 * q.val = 512 * (t.val % 16) + q.val; omega

/-! ### The result column -/

/-- An index of the result column is in the block of point `t` iff each coordinate is in the block's range. -/
theorem mem_blk4 (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v6).slice (win0_4.rect t)).set ↔ _
  rw [View.set_slice_whole, Rect.mem_set_unit]
  exact Iff.rfl

section
variable (g : Fin 8192 → Elt F .f32)

/-- The column holding `g p` at row `p`. -/
def colOfFn : S8192x1.Idx → Elt F .f32 := fun i => g ⟨(i 0).val, idx2_lt0 i⟩

variable (hg : ∀ t : Fin cfg0.N, t.val % 16 = 15 → ∀ r : Fin 1024,
    (outAt m c t : S1024x1.Idx → Elt F .f32) (ix2 r (0 : Fin 1)) = g (rowOf t r))

include hg in
/-- What a writing point writes back is its block of the column `p ↦ g p`. -/
theorem flushed4_eq (t : Fin cfg0.N) (hf : (cfg0.win 4).flush t = true) :
    (dats m c).flushed 4 t = ((cfg0.win 4).blk t).view.read (Elt F) (colOfFn g) := by
  have h15 : t.val % 16 = 15 := (flush0_4 t).mp hf
  obtain ⟨-, -, -, -, -, -, -, -, e0, e1⟩ := idx_facts t
  show (cfg0.win 4).cut (grid0.coords t) ((dats m c).after 4 t) = _
  rw [after_4]
  funext j
  show (outAt m c t : S1024x1.Idx → Elt F .f32) j = colOfFn g (((cfg0.win 4).blk t).view.emb j)
  obtain ⟨r, z, rfl⟩ : ∃ (r : Fin 1024) (z : Fin 1), j = ix2 r z := ⟨j 0, j 1, eq_ix2 j⟩
  obtain rfl : z = 0 := Subsingleton.elim _ _
  rw [hg t h15 r]
  refine congrArg g (Fin.ext ?_)
  show 1024 * (t.val / 16) + r.val = win0_4.index t (0 : Fin 2) * 1024 + 1 * r.val
  omega

/-- Every row of the result column lies in the block of a writing point: row `p` in that of `16 * (p / 1024) + 15`. -/
theorem cover4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  have hlt : 16 * ((i 0).val / 1024) + 15 < cfg0.N := by
    show 16 * ((i 0).val / 1024) + 15 < grid0.N
    rw [N_0]
    omega
  refine ⟨⟨16 * ((i 0).val / 1024) + 15, hlt⟩, (flush0_4 _).mpr (by show (16 * ((i 0).val / 1024) + 15) % 16 = 15; omega), ?_⟩
  rw [mem_blk4]
  obtain ⟨-, -, -, -, -, -, -, -, e0, e1⟩ := idx_facts ⟨16 * ((i 0).val / 1024) + 15, hlt⟩
  have e0' : win0_4.index ⟨16 * ((i 0).val / 1024) + 15, hlt⟩ (0 : Fin 2) = (16 * ((i 0).val / 1024) + 15) / 16 := e0
  intro a
  match a with
  | ⟨0, _⟩ =>
    show win0_4.index ⟨16 * ((i 0).val / 1024) + 15, _⟩ (0 : Fin 2) * 1024 ≤ (i 0).val
      ∧ (i 0).val < win0_4.index ⟨16 * ((i 0).val / 1024) + 15, _⟩ (0 : Fin 2) * 1024 + 1024
    omega
  | ⟨1, _⟩ =>
    show win0_4.index ⟨16 * ((i 0).val / 1024) + 15, _⟩ (1 : Fin 2) * 1 ≤ (i 1).val
      ∧ (i 1).val < win0_4.index ⟨16 * ((i 0).val / 1024) + 15, _⟩ (1 : Fin 2) * 1 + 1
    omega

include hg in
/-- The result column after the grid holds `g p` at row `p`. -/
theorem arrAt4_eq : (dats m c).arrAt 4 cfg0.N = colOfFn g :=
  (dats m c).arrAt_eq_of_cover 4 (colOfFn g) (flushed4_eq m c g hg) cover4

include hg in
/-- The result column after the grid, read at row `p`. -/
theorem arrAt4_apply (p : Fin 8192) :
    ((dats m c).arrAt 4 cfg0.N : S8192x1.Idx → Elt F .f32) (ix2 p (0 : Fin 1)) = g p := by
  rw [arrAt4_eq m c g hg]
  rfl

end

end Cert.KernelIdeal.Blk

end
-- ==== Proof.PreReal.lean ====
/-
  The printed precondition, read over the reals.

  The precondition states two things of the 8192 × 512 input: every entry has absolute value below +∞, and every row's
  sum of squares is positive.  Over the extended reals the first says that no entry is +∞, −∞ (nor the junk value, which
  is −∞ here), so every entry is a real number; the second then says that the real sum of squares of every row is
  positive, because a finite sum of products of reals is the same number whether formed in the reals or in the extended
  reals.
-/
import proofs.«121029_j88064009437247_1_alg».proof.Pre_finite_inputs
import proofs.«121029_j88064009437247_1_alg».proof.Proof.Gen.Pre_finite_inputs
import proofs.«121029_j88064009437247_1_alg».proof.Proof.Spec
import Idealize.ShloMosaic.Lib.ReduceAll
import Idealize.ShloMosaic.Lib.ValueIdx
import Idealize.ShloMosaic.PureOps.Ideal.Laws

noncomputable section

namespace Cert.PreReal

open Idealize.ShloMosaic Idealize.ShloMosaic.ValueIdx Cert.Pre_finite_inputs Cert.Pre_finite_inputs.Gen
open Finset BigOperators

/-- The shape with no axes has exactly one index. -/
instance : Subsingleton S_.Idx := ⟨fun a b => funext fun d => d.elim0⟩

/-! ### Extended reals -/

/-- The single-precision pattern of +∞ denotes the top element of the extended reals. -/
theorem ofBits_inf : Ideal.ofBits .f32 0x7F800000#32 = ⊤ := by simp [Ideal.ofBits, Ideal.ieee]

/-- The single-precision pattern of +0 denotes zero. -/
theorem ofBits_zero : Ideal.ofBits .f32 0x00000000#32 = 0 := by simp [Ideal.ofBits, Ideal.ieee]

/-- An extended real whose absolute value `max x (-x)` is below +∞ is a real number: it is neither −∞ nor +∞. -/
theorem exists_real_of_abs_lt_top (x : EReal) (h : max x (-x) < ⊤) : ∃ r : ℝ, x = (r : EReal) := by
  induction x using EReal.rec with
  | bot => simp at h
  | coe r => exact ⟨r, rfl⟩
  | top => simp at h

/-- A finite sum of squares of reals, formed in the extended reals, is the real sum: the inclusion of the reals
commutes with products and with finite sums. -/
theorem coe_sum_mul_self {ι : Type*} (s : Finset ι) (a : ι → ℝ) :
    ∑ k ∈ s, ((a k : ℝ) : EReal) * ((a k : ℝ) : EReal) = ((∑ k ∈ s, a k * a k : ℝ) : EReal) := by
  classical
  induction s using Finset.induction_on with
  | empty => simp
  | insert b s hb ih => rw [Finset.sum_insert hb, Finset.sum_insert hb, ih, EReal.coe_add, EReal.coe_mul]

/-- The ordered comparison "less than" answers 1 only when its left operand is below its right one. -/
theorem lt_of_cmp_olt (x y : EReal) (h : Ideal.cmp .olt x y = 1#1) : x < y := by
  unfold Ideal.cmp at h
  by_contra hn
  simp [hn] at h

/-- The ordered comparison "greater than" answers 1 only when its right operand is below its left one. -/
theorem lt_of_cmp_ogt (x y : EReal) (h : Ideal.cmp .ogt x y = 1#1) : y < x := by
  unfold Ideal.cmp at h
  by_contra hn
  simp [hn] at h

/-! ### The precondition's two halves -/

section
variable (x0 : FVec Ideal S8192x512 .f32) (x1 : IVec S8192 32)

/-- The precondition holds only if every entry's absolute value is below +∞ and every row's sum of squares, added to
zero, is above zero: a conjunction of two bits is 1 only if both are, and an "and" over all indices is 1 only if
every index's bit is. -/
theorem pre_split (h : fn (F := Ideal) x0 x1 = fun _ => 1#1) :
    (∀ i : S8192x512.Idx, max (x0 i) (-(x0 i)) < ⊤) ∧
    (∀ j : S8192.Idx, (0 : EReal) < Ideal.hostReduceAdd reducesTo_S8192x512_S8192_d1 (fun i => x0 i * x0 i) 0 j) := by
  have h0 := congrFun h ValueIdx.ix0
  dsimp only [fn] at h0
  change IntOp.andi _ _ = 1#1 at h0
  obtain ⟨ha, hb⟩ := IntOp.andi_eq_one.1 h0
  refine ⟨fun i => ?_, fun j => ?_⟩
  · have e := Host.reduce_andi_all _ _ _ _ _ ha i
    have e' : Ideal.cmp .olt (max (x0 i) (-(x0 i))) (Ideal.ofBits .f32 0x7F800000#32) = 1#1 := e
    rw [ofBits_inf] at e'
    exact lt_of_cmp_olt _ _ e'
  · have e := Host.reduce_andi_all _ _ _ _ _ hb j
    have e' : Ideal.cmp .ogt (Ideal.hostReduceAdd reducesTo_S8192x512_S8192_d1 (fun i => x0 i * x0 i)
        (Ideal.ofBits .f32 0x00000000#32) j) (Ideal.ofBits .f32 0x00000000#32) = 1#1 := e
    rw [ofBits_zero] at e'
    exact lt_of_cmp_ogt _ _ e'

/-- The sum over the second axis, read at row `p`: the initial value plus the sum over the 512 columns of the entries
of row `p`. -/
theorem row_sum (y : S8192x512.Idx → EReal) (init : EReal) (p : Fin 8192) :
    Ideal.hostReduceAdd reducesTo_S8192x512_S8192_d1 y init (ix1 p) = init + ∑ k : Fin 512, y (ix2 p k) := by
  rw [Ideal.hostReduceAdd_single reducesTo_S8192x512_S8192_d1 (by decide)]
  refine congrArg (_ + ·) (Finset.sum_congr rfl fun k _ => ?_)
  exact congrArg y (funext fun a => Fin.ext (by match a with | ⟨0, _⟩ => rfl | ⟨1, _⟩ => rfl))

/-- Under the precondition the input is a matrix of real numbers every row of which has a positive sum of squares. -/
theorem real_rows (h : Cert.Pre_finite_inputs.fn (F := Ideal) x0 x1 = fun _ => 1#1) :
    ∃ xr : Cert.Spec.Row → Cert.Spec.Col → ℝ,
      (∀ p k, x0 (ValueIdx.ix2 p k) = ((xr p k : ℝ) : EReal)) ∧ ∀ p, 0 < Cert.Spec.nrm2 xr p := by
  obtain ⟨hfin, hpos⟩ := pre_split x0 x1 h
  have hr : ∀ (p : Fin 8192) (k : Fin 512), x0 (ix2 p k) = (((x0 (ix2 p k)).toReal : ℝ) : EReal) := fun p k => by
    obtain ⟨r, e⟩ := exists_real_of_abs_lt_top _ (hfin (ix2 p k))
    rw [e, EReal.toReal_coe]
  refine ⟨fun p k => (x0 (ix2 p k)).toReal, hr, fun p => ?_⟩
  have e := hpos (ix1 p)
  rw [row_sum, zero_add] at e
  have e2 : ∑ k : Fin 512, x0 (ix2 p k) * x0 (ix2 p k)
      = ((∑ k : Fin 512, (x0 (ix2 p k)).toReal * (x0 (ix2 p k)).toReal : ℝ) : EReal) := by
    rw [← coe_sum_mul_self]
    exact Finset.sum_congr rfl fun k _ => by rw [← hr p k]
  rw [e2, EReal.coe_pos] at e
  exact e

end

end Cert.PreReal

end
-- ==== Proof.KiHost.lean ====
/-
  The host operations around the grid, read at an index over the reals.

  Before the grid the host squares the entries, sums each row, takes the square root and divides each entry by its
  row's root: with every entry a real and every row's sum of squares positive, entry (p, k) of the result is the real
  number "entry divided by the Euclidean length of row p".  The labels are laid out twice, as a column and as a row,
  and each layout read at a coordinate is the label of that coordinate.  After the grid the host sums the 8192
  per-row values, divides by 8192 and negates: with every per-row value a real, the result is minus the real mean.
-/
import proofs.«121029_j88064009437247_1_alg».proof.Proof.KiBase
import proofs.«121029_j88064009437247_1_alg».proof.Proof.Spec
import proofs.«121029_j88064009437247_1_alg».proof.Proof.PreReal
import proofs.«121029_j88064009437247_1_alg».proof.Proof.RefConsts
import proofs.«121029_j88064009437247_1_alg».proof.Proof.LibERealSum
import Idealize.ShloMosaic.Lib.ValueIdx
import Idealize.ShloMosaic.Lib.Pipeline.Value
import Idealize.ShloMosaic.PureOps.Ideal.Laws

set_option maxRecDepth 16384

noncomputable section

namespace Cert.KernelIdeal.Host

open Cert.KernelIdeal Cert.KernelIdeal.Gen Cert.KernelIdeal.Frm
open Idealize.ShloMosaic Idealize.ShloMosaic.TcCoe Idealize.ShloMosaic.ValueIdx Idealize.SL.Sem
open Cert.LibERealSum Cert.RefValue
open Finset BigOperators

/-! ### The operations before the grid, as functions of the input matrix -/

/-- The rows' sums of squares: zero plus the sum over the columns of the squared entries. -/
def rowSq (x0 : FVec Ideal S8192x512 .f32) : FVec Ideal S8192 .f32 :=
  Host.reduceAdd (F := Ideal) (mulf x0 x0) (constant (F := Ideal) S_ .f32 0x00000000#32) reducesTo_S8192x512_S8192_d1 h_S_

/-- The rows' Euclidean lengths, as a column. -/
def lenCol (x0 : FVec Ideal S8192x512 .f32) : FVec Ideal S8192x1 .f32 :=
  Host.sqrt (F := Ideal) (broadcastInDim S8192x1 ![0] bcast_S8192_S8192x1_0 (rowSq x0))

/-- The matrix with every row divided by its length (the narrowing to the shorter format changes no value here). -/
def normF (x0 : FVec Ideal S8192x512 .f32) : FVec Ideal S8192x512 .bf16 :=
  truncf .bf16 (Host.divf (F := Ideal) x0 (broadcastInDim S8192x512 ![0, 1] bcast_S8192x1_S8192x512_0_1 (lenCol x0)))
    bitsLt_bf16_f32

/-- The labels as a column. -/
def labCol (x1 : IVec S8192 32) : IVec S8192x1 32 := shapeCast S8192x1 x1 shapeCasts_S8192_S8192x1

/-- The labels as a row. -/
def labRow (x1 : IVec S8192 32) : IVec S1x8192 32 := shapeCast S1x8192 x1 shapeCasts_S8192_S1x8192

/-- The operations after the grid: the column of per-row values summed, divided by 8192 and negated. -/
def tailF (v : FVec Ideal S8192x1 .f32) : FVec Ideal S_ .f32 :=
  Host.negf (F := Ideal) (Host.divf (F := Ideal)
    (Host.reduceAdd (F := Ideal) (shapeCast S8192 v shapeCasts_S8192x1_S8192) (constant (F := Ideal) S_ .f32 0x00000000#32)
      reducesTo_S8192_S_d0 h_S_)
    (constant (F := Ideal) S_ .f32 0x46000000#32))

/-! ### The layout operations at coordinates -/

/-- The sum over the second axis read at row `p` is the initial value plus the sum over the 512 columns of row `p`. -/
theorem row_sum (y : S8192x512.Idx → EReal) (init : EReal) (p : Fin 8192) :
    Ideal.hostReduceAdd reducesTo_S8192x512_S8192_d1 y init (ix1 p) = init + ∑ k : Fin 512, y (ix2 p k) := by
  rw [Ideal.hostReduceAdd_single reducesTo_S8192x512_S8192_d1 (by decide)]
  refine congrArg (_ + ·) (Finset.sum_congr rfl fun k _ => ?_)
  exact congrArg y (funext fun a => Fin.ext (by match a with | ⟨0, _⟩ => rfl | ⟨1, _⟩ => rfl))

/-- A sum over the indices of a one-axis shape is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

/-- The sum over the only axis of a vector of 8192 entries is the initial value plus the sum of the entries. -/
theorem all_sum (y : S8192.Idx → EReal) (init : EReal) (j : S_.Idx) :
    Ideal.hostReduceAdd reducesTo_S8192_S_d0 y init j = init + ∑ p : Fin 8192, y (ix1 p) := by
  rw [Ideal.hostReduceAdd_total reducesTo_S8192_S_d0 (fun b => b.elim0), sum_idx1]

/-- A vector broadcast to a column reads, at `(p, z)`, the vector at `p`. -/
theorem bcast_col_apply {α : Type} (y : S8192.Idx → α) (p : Fin 8192) (z : Fin 1) :
    broadcastInDim S8192x1 ![0] bcast_S8192_S8192x1_0 y (ix2 p z) = y (ix1 p) :=
  broadcastInDim_apply _ bcast_S8192_S8192x1_0 y (ix2 p z) (ix1 p) (fun a => match a with
    | ⟨0, _⟩ => by show p.val = if (8192 : Nat) = 1 then 0 else p.val; rw [if_neg (by decide)])

/-- A column broadcast along the rows reads, at `(p, k)`, the column at `(p, 0)`. -/
theorem bcast_mat_apply {α : Type} (y : S8192x1.Idx → α) (p : Fin 8192) (k : Fin 512) :
    broadcastInDim S8192x512 ![0, 1] bcast_S8192x1_S8192x512_0_1 y (ix2 p k) = y (ix2 p (0 : Fin 1)) :=
  broadcastInDim_apply _ bcast_S8192x1_S8192x512_0_1 y (ix2 p k) (ix2 p (0 : Fin 1)) (fun a => match a with
    | ⟨0, _⟩ => by show p.val = if (8192 : Nat) = 1 then 0 else p.val; rw [if_neg (by decide)]
    | ⟨1, _⟩ => by show 0 = if (1 : Nat) = 1 then 0 else k.val; rw [if_pos rfl])

/-- The labels laid out as a column read, at `(p, 0)`, label `p`. -/
theorem labCol_apply (x1 : IVec S8192 32) (p : Fin 8192) : labCol x1 (ix2 p (0 : Fin 1)) = x1 (ix1 p) :=
  shapeCast_apply x1 shapeCasts_S8192_S8192x1 _ _ (by
    rw [Shape.rowMajor_val_two, Shape.rowMajor_val_one]
    show p.val = p.val * 1 + 0
    omega)

/-- The labels laid out as a row read, at `(0, q)`, label `q`. -/
theorem labRow_apply (x1 : IVec S8192 32) (q : Fin 8192) : labRow x1 (ix2 (0 : Fin 1) q) = x1 (ix1 q) :=
  shapeCast_apply x1 shapeCasts_S8192_S1x8192 _ _ (by
    rw [Shape.rowMajor_val_two, Shape.rowMajor_val_one]
    show q.val = 0 * 8192 + q.val
    omega)

/-- A column flattened to a vector reads, at `p`, the column at `(p, 0)`. -/
theorem flat_apply {α : Type} (v : S8192x1.Idx → α) (p : Fin 8192) :
    shapeCast S8192 v shapeCasts_S8192x1_S8192 (ix1 p) = v (ix2 p (0 : Fin 1)) :=
  shapeCast_apply v shapeCasts_S8192x1_S8192 _ _ (by
    rw [Shape.rowMajor_val_two, Shape.rowMajor_val_one]
    show p.val * 1 + 0 = p.val
    omega)

/-! ### The normalised rows over the reals -/

section
variable (x0 : FVec Ideal S8192x512 .f32) (xr : Spec.Row → Spec.Col → ℝ)
  (hx : ∀ p k, x0 (ix2 p k) = ((xr p k : ℝ) : EReal))

include hx

/-- The sum of squares of row `p` of a real matrix is the real sum of squares. -/
theorem rowSq_apply (p : Fin 8192) : rowSq x0 (ix1 p) = ((Spec.nrm2 xr p : ℝ) : EReal) := by
  show Ideal.hostReduceAdd reducesTo_S8192x512_S8192_d1 (mulf x0 x0) (Ideal.ofBits .f32 0x00000000#32) (ix1 p) = _
  rw [row_sum, ofBits_zero]
  simp only [mulf_apply, hx, ← EReal.coe_mul]
  exact zero_add_sum_coe fun k => xr p k * xr p k

variable (hpos : ∀ p, 0 < Spec.nrm2 xr p)

include hpos

/-- The length of row `p`: the real square root of its positive sum of squares. -/
theorem lenCol_apply (p : Fin 8192) (z : Fin 1) :
    lenCol x0 (ix2 p z) = ((Real.sqrt (Spec.nrm2 xr p) : ℝ) : EReal) := by
  show Ideal.sqrt (broadcastInDim S8192x1 ![0] bcast_S8192_S8192x1_0 (rowSq x0) (ix2 p z)) = _
  rw [bcast_col_apply, rowSq_apply x0 xr hx p]
  exact sqrt_coe_nonneg (hpos p).le

/-- Entry `(p, k)` of the normalised matrix is the real entry divided by the non-zero length of its row. -/
theorem normF_apply (p : Fin 8192) (k : Fin 512) : normF x0 (ix2 p k) = ((Spec.feat xr p k : ℝ) : EReal) := by
  show Ideal.div (x0 (ix2 p k)) (broadcastInDim S8192x512 ![0, 1] bcast_S8192x1_S8192x512_0_1 (lenCol x0) (ix2 p k)) = _
  rw [bcast_mat_apply, lenCol_apply x0 xr hx hpos p 0, hx]
  exact div_coe_coe _ (Real.sqrt_pos.2 (hpos p)).ne'

end

/-! ### The mean over the rows, negated -/

/-- When the column holds the reals `o p`, the tail gives minus their mean: zero plus the sum of the reals is the
real sum, division by the non-zero real 8192 is real division, and negation commutes with the inclusion. -/
theorem tailF_eq (v : FVec Ideal S8192x1 .f32) (o : Fin 8192 → ℝ)
    (ho : ∀ p, v (ix2 p (0 : Fin 1)) = ((o p : ℝ) : EReal)) :
    tailF v = fun _ => (((-((∑ p, o p) / 8192)) : ℝ) : EReal) := by
  funext j
  show -(Ideal.div (Ideal.hostReduceAdd reducesTo_S8192_S_d0 (shapeCast S8192 v shapeCasts_S8192x1_S8192)
    (Ideal.ofBits .f32 0x00000000#32) j) (Ideal.ofBits .f32 0x46000000#32)) = _
  rw [all_sum, ofBits_zero, ofBits_rows]
  simp only [flat_apply, ho]
  rw [zero_add_sum_coe, div_coe_coe _ (by norm_num : (8192 : ℝ) ≠ 0), EReal.coe_neg]

/-! ### The buffers when the grid is entered, and after the tail -/

section
variable (m : (ℓ : Loc nD τ sig) → Buf (Elt Ideal) ℓ) (c : Dev nD)

/-- No operation before the grid writes the input matrix. -/
theorem V_main_arg0 : V m c main_arg0 = m ((c : Thread nD τ).loc main_arg0) := by
  dsimp only [V, V0]
  simp only [hostOps0, hostOps0_1, List.flatten_cons, List.flatten_nil, List.append_nil, List.cons_append, List.nil_append]
  after_results

/-- No operation before the grid writes the labels. -/
theorem V_main_arg1 : V m c main_arg1 = m ((c : Thread nD τ).loc main_arg1) := by
  dsimp only [V, V0]
  simp only [hostOps0, hostOps0_1, List.flatten_cons, List.flatten_nil, List.append_nil, List.cons_append, List.nil_append]
  after_results

/-- The features the grid reads are the input matrix with every row divided by its length. -/
theorem V_main_v3 : (V m c main_v3 : S8192x512.Idx → EReal) = normF (m ((c : Thread nD τ).loc main_arg0)) := by
  dsimp only [V, V0]
  simp only [hostOps0, hostOps0_1, List.flatten_cons, List.flatten_nil, List.append_nil, List.cons_append, List.nil_append]
  after_results
  rfl

/-- The label column the grid reads is the labels laid out as a column. -/
theorem V_main_v4 : (V m c main_v4 : S8192x1.Idx → BitVec 32) = labCol (m ((c : Thread nD τ).loc main_arg1)) := by
  dsimp only [V, V0]
  simp only [hostOps0, hostOps0_1, List.flatten_cons, List.flatten_nil, List.append_nil, List.cons_append, List.nil_append]
  after_results
  rfl

/-- The label row the grid reads is the labels laid out as a row. -/
theorem V_main_v5 : (V m c main_v5 : S1x8192.Idx → BitVec 32) = labRow (m ((c : Thread nD τ).loc main_arg1)) := by
  dsimp only [V, V0]
  simp only [hostOps0, hostOps0_1, List.flatten_cons, List.flatten_nil, List.append_nil, List.cons_append, List.nil_append]
  after_results
  rfl

variable (xr : Spec.Row → Spec.Col → ℝ)
  (hx : ∀ p k, (m ((c : Thread nD τ).loc main_arg0) : S8192x512.Idx → EReal) (ix2 p k) = ((xr p k : ℝ) : EReal))
  (hpos : ∀ p, 0 < Spec.nrm2 xr p)

include hx hpos in
/-- Entry `(p, k)` of the features the grid reads is the real normalised entry. -/
theorem V_main_v3_apply (p : Fin 8192) (k : Fin 512) :
    (V m c main_v3 : S8192x512.Idx → EReal) (ix2 p k) = ((Spec.feat xr p k : ℝ) : EReal) := by
  rw [V_main_v3]
  exact normF_apply _ xr hx hpos p k

/-- The label column the grid reads holds label `p` at `(p, 0)`. -/
theorem V_main_v4_apply (p : Fin 8192) :
    (V m c main_v4 : S8192x1.Idx → BitVec 32) (ix2 p (0 : Fin 1))
      = (m ((c : Thread nD τ).loc main_arg1) : S8192.Idx → BitVec 32) (ix1 p) := by
  rw [V_main_v4]
  exact labCol_apply _ p

/-- The label row the grid reads holds label `q` at `(0, q)`. -/
theorem V_main_v5_apply (q : Fin 8192) :
    (V m c main_v5 : S1x8192.Idx → BitVec 32) (ix2 (0 : Fin 1) q)
      = (m ((c : Thread nD τ).loc main_arg1) : S8192.Idx → BitVec 32) (ix1 q) := by
  rw [V_main_v5]
  exact labRow_apply _ q

end

/-- After the operations that follow the grid, from any buffer contents whose per-row column holds the reals `o p`,
the result buffer holds minus the mean of the `o p`. -/
theorem tail_eq (W : Valuation τ sig (Elt Ideal)) (o : Fin 8192 → ℝ)
    (ho : ∀ p, (W (Proc.devRef .tc main_v6) : S8192x1.Idx → EReal) (ix2 p (0 : Fin 1)) = ((o p : ℝ) : EReal)) :
    (StableHlo.after hostOps1 W (Proc.devRef .tc main_v10) : S_.Idx → EReal)
      = fun _ => (((-((∑ p, o p) / 8192)) : ℝ) : EReal) := by
  have e : (StableHlo.after hostOps1 W (Proc.devRef .tc main_v10) : S_.Idx → EReal)
      = tailF (W (Proc.devRef .tc main_v6)) := by
    simp only [hostOps1]
    after_results
    rfl
  rw [e]
  exact tailF_eq _ o ho

end Cert.KernelIdeal.Host

end
-- ==== Proof.LibBlockSum.lean ====
/-
  Sums over a range cut into equal blocks.

  A sum over `n * b` consecutive indices is the sum, over the `n` blocks, of the sum over the `b` indices of each
  block: index `q` of block `j` is the index `q + b * j` of the whole range, and every index of the whole range
  is of this form exactly once.  The same at the sizes 16 blocks of 512, written with a range of block numbers;
  and a sum over the first `n + 1` block numbers is the sum over the first `n` plus the last term.
-/
import Mathlib.Algebra.BigOperators.Fin
import Mathlib.Algebra.BigOperators.Group.Finset.Basic
import Mathlib.Data.Fintype.BigOperators
import Mathlib.Logic.Equiv.Fin.Basic

open scoped BigOperators

namespace Cert.LibBlockSum

/-- Index `q` of block `j`, among `n` blocks of `b` indices each, is the index `q + b * j` of the whole range. -/
theorem finProd_val {n b : ℕ} (j : Fin n) (q : Fin b) : (finProdFinEquiv (j, q)).val = q.val + b * j.val := rfl

/-- The sum over the blocks of the sums over each block is the sum over the whole range of `n * b` indices. -/
theorem sum_blocks {M : Type*} [AddCommMonoid M] {n b : ℕ} (f : Fin (n * b) → M) :
    ∑ j : Fin n, ∑ q : Fin b, f (finProdFinEquiv (j, q)) = ∑ i, f i :=
  (Fintype.sum_prod_type' fun (j : Fin n) (q : Fin b) => f (finProdFinEquiv (j, q))).symm.trans
    (Equiv.sum_comp finProdFinEquiv f)

/-- The same for 8192 indices cut into 16 blocks of 512, the block number running over a range of naturals:
    index `q` of block `j` is `512 * j + q`, which is below 8192 for every block number below 16. -/
theorem sum_blocks_8192 {M : Type*} [AddCommMonoid M] (f : Fin 8192 → M) :
    ∑ j ∈ Finset.range 16, ∑ q : Fin 512, (if h : 512 * j + q.val < 8192 then f ⟨512 * j + q.val, h⟩ else 0)
      = ∑ i, f i := by
  refine Eq.trans ?_ (sum_blocks (n := 16) (b := 512) f)
  rw [Finset.sum_range fun j => ∑ q : Fin 512, (if h : 512 * j + q.val < 8192 then f ⟨512 * j + q.val, h⟩ else 0)]
  refine Finset.sum_congr rfl fun j _ => Finset.sum_congr rfl fun q _ => ?_
  have hlt : 512 * j.val + q.val < 8192 := by have := j.isLt; have := q.isLt; omega
  rw [dif_pos hlt]
  exact congrArg f (Fin.ext (by show 512 * j.val + q.val = q.val + 512 * j.val; omega))

/-- A sum over the first `n + 1` naturals is the sum over the first `n` plus the term at `n`. -/
theorem sum_range_step {M : Type*} [AddCommMonoid M] (g : ℕ → M) (n : ℕ) :
    ∑ j ∈ Finset.range (n + 1), g j = (∑ j ∈ Finset.range n, g j) + g n :=
  Finset.sum_range_succ g n

end Cert.LibBlockSum
-- ==== Proof.KiAccum.lean ====
/-
  The three running sums after every grid point, and the result block, as real numbers.

  Row block `t / 16` is visited by sixteen consecutive grid points, one per column block `t % 16`.  After the point
  of column block `j` each row's three running sums are the first `j + 1` column blocks' parts of the row's three
  sums over all 8192 columns: of mask × shifted similarity, of the mask, and of the off-diagonal exponentials.
  After the sixteenth they are the whole sums, and the block the body then stores is, row by row, the shifted
  form's row value.
-/
import proofs.«121029_j88064009437247_1_alg».proof.Proof.KiVal
import proofs.«121029_j88064009437247_1_alg».proof.Proof.KiStep
import proofs.«121029_j88064009437247_1_alg».proof.Proof.KiPart
import proofs.«121029_j88064009437247_1_alg».proof.Proof.SpecLaw
import proofs.«121029_j88064009437247_1_alg».proof.Proof.KiBlocks
import proofs.«121029_j88064009437247_1_alg».proof.Proof.KiHost
import proofs.«121029_j88064009437247_1_alg».proof.Proof.LibBlockSum

set_option maxRecDepth 16384

noncomputable section

namespace Cert.KernelIdeal.Acc

open Idealize.ShloMosaic Idealize.ShloMosaic.ValueIdx Idealize.ShloMosaic.TcCoe Idealize.SL.Sem
open Cert.KernelIdeal Cert.KernelIdeal.Gen Cert.KernelIdeal.Frm Cert.KernelIdeal.Pay Cert.KernelIdeal.Part
open Cert.RefValue Cert.Spec Cert.LibERealSum Cert.KernelIdeal.Blk Cert.KernelIdeal.Host
open Finset BigOperators

variable (m : (ℓ : Loc nD τ sig) → Buf (Elt Ideal) ℓ) (c : Dev nD) (xr : Row → Col → ℝ)

/-- The label of a row. -/
def lab (p : Fin 8192) : BitVec 32 := (m ((c : Thread nD τ).loc main_arg1) : S8192.Idx → BitVec 32) (ix1 p)

/-- What the four input windows show the body at a point, and the point's coordinates: rows `rowOf` and `colOf` of
    the normalised features, and those rows' labels. -/
structure BlockReads : Prop where
  feat0 : ∀ (t : Fin cfg0.N) (r : Fin 1024) (k : Fin 512),
    (iblk m c 0 t : Vec Ideal S1024x512 .bf16) (ix2 r k) = ((feat xr (rowOf t r) k : ℝ) : EReal)
  feat1 : ∀ (t : Fin cfg0.N) (q k : Fin 512),
    (iblk m c 1 t : Vec Ideal S512x512 .bf16) (ix2 q k) = ((feat xr (colOf t q) k : ℝ) : EReal)
  lab2 : ∀ (t : Fin cfg0.N) (r : Fin 1024), (iblk m c 2 t : Vec Ideal S1024x1 .i32) (ix2 r (0 : Fin 1)) = lab m c (rowOf t r)
  lab3 : ∀ (t : Fin cfg0.N) (q : Fin 512), (iblk m c 3 t : Vec Ideal S1x512 .i32) (ix2 (0 : Fin 1) q) = lab m c (colOf t q)
  crd0 : ∀ t : Fin cfg0.N, ((grid0.coords t) 0).val = t.val / 16
  crd1 : ∀ t : Fin cfg0.N, ((grid0.coords t) 1).val = t.val % 16

/-- Row `p`'s three integrands over the columns. -/
def fS (p q : Row) : ℝ := msk (lab m c) p q * shK xr tempR p q
def fN (p q : Row) : ℝ := msk (lab m c) p q
def fZ (p q : Row) : ℝ := Real.exp (shK xr tempR p q) * nself p q

variable (H : BlockReads m c xr)

/-- The rows of the row block and of the column block, as real matrices. -/
abbrev fr (t : Fin cfg0.N) : Fin 1024 → Fin 512 → ℝ := fun r k => feat xr (rowOf t r) k
abbrev fc (t : Fin cfg0.N) : Fin 512 → Fin 512 → ℝ := fun q k => feat xr (colOf t q) k

include H in
/-- The block's masked row sum is column block `t % 16`'s part of the row's sum of mask × shifted similarity. -/
theorem contrib_s (t : Fin cfg0.N) (r : Fin 1024) :
    (∑ q : Fin 512, (if (iblk m c 2 t : Vec Ideal S1024x1 .i32) (ix2 r (0 : Fin 1)) = (iblk m c 3 t : Vec Ideal S1x512 .i32) (ix2 (0 : Fin 1) q) then (1 : ℝ) else 0)
        * sh (fr xr t) (fc xr t) r q) = colPart (fS m c xr (rowOf t r)) (t.val % 16) := by
  rw [colPart_eq _ _ (Nat.mod_lt _ (by norm_num))]
  refine Finset.sum_congr rfl fun q _ => ?_
  rw [H.lab2, H.lab3]
  rfl

include H in
/-- The block's mask row sum is the column block's part of the row's count. -/
theorem contrib_n (t : Fin cfg0.N) (r : Fin 1024) :
    (∑ q : Fin 512, (if (iblk m c 2 t : Vec Ideal S1024x1 .i32) (ix2 r (0 : Fin 1)) = (iblk m c 3 t : Vec Ideal S1x512 .i32) (ix2 (0 : Fin 1) q) then (1 : ℝ) else 0))
      = colPart (fN m c (rowOf t r)) (t.val % 16) := by
  rw [colPart_eq _ _ (Nat.mod_lt _ (by norm_num))]
  refine Finset.sum_congr rfl fun q _ => ?_
  rw [H.lab2, H.lab3]
  rfl

include H in
/-- The block's off-diagonal exponential row sum is the column block's part of the row's exponential sum. -/
theorem contrib_z (t : Fin cfg0.N) (r : Fin 1024) :
    (∑ q : Fin 512, Real.exp (sh (fr xr t) (fc xr t) r q)
        * (if 1024 * ((grid0.coords t) 0).val + r.val = 512 * ((grid0.coords t) 1).val + q.val then (0 : ℝ) else 1))
      = colPart (fZ xr (rowOf t r)) (t.val % 16) := by
  rw [colPart_eq _ _ (Nat.mod_lt _ (by norm_num)), H.crd0, H.crd1]
  refine Finset.sum_congr rfl fun q _ => ?_
  refine congrArg (Real.exp (sh (fr xr t) (fc xr t) r q) * ·) (if_congr ?_ rfl rfl)
  exact ⟨fun h => Fin.ext h, fun h => congrArg Fin.val h⟩

/-! ## The blocks the body is shown -/

/-- With real entries and non-zero rows, the four input windows show the body rows `rowOf` and `colOf` of the
    normalised features and those rows' labels. -/
theorem blockReads (hx : ∀ p k, (m ((c : Thread nD τ).loc main_arg0) : S8192x512.Idx → EReal) (ix2 p k) = ((xr p k : ℝ) : EReal))
    (hpos : ∀ p, 0 < nrm2 xr p) : BlockReads m c xr where
  feat0 t r k := (iblk0_apply m c t r k).trans (V_main_v3_apply m c xr hx hpos (rowOf t r) k)
  feat1 t q k := (iblk1_apply m c t q k).trans (V_main_v3_apply m c xr hx hpos (colOf t q) k)
  lab2 t r := (iblk2_apply m c t r).trans (V_main_v4_apply m c (rowOf t r))
  lab3 t q := (iblk3_apply m c t q).trans (V_main_v5_apply m c (colOf t q))
  crd0 t := (coords_val t).1
  crd1 t := (coords_val t).2

/-! ## One point's step, and the invariant -/

include H in
/-- From a row's three running sums before a point to those after it: each grows by the point's column block's part. -/
theorem step_all (t : Fin cfg0.N) (s n z : Vec Ideal S1024x1 .f32) (r : Fin 1024) (sr nr zr : ℝ)
    (hs : s (ix2 r (0 : Fin 1)) = ((sr : ℝ) : EReal)) (hn : n (ix2 r (0 : Fin 1)) = ((nr : ℝ) : EReal))
    (hz : z (ix2 r (0 : Fin 1)) = ((zr : ℝ) : EReal)) :
    k0_pay2 (F := Ideal) (k0_pay8 (iblk m c 0 t) (iblk m c 1 t)) (k0_pay9 (iblk m c 2 t) (iblk m c 3 t)) s (ix2 r (0 : Fin 1))
        = ((sr + colPart (fS m c xr (rowOf t r)) (t.val % 16) : ℝ) : EReal)
    ∧ k0_pay3 (F := Ideal) (k0_pay9 (iblk m c 2 t) (iblk m c 3 t)) n (ix2 r (0 : Fin 1))
        = ((nr + colPart (fN m c (rowOf t r)) (t.val % 16) : ℝ) : EReal)
    ∧ k0_pay1 (F := Ideal) z (k0_pay10 (grid0.coords t) (iblk m c 0 t) (iblk m c 1 t)) (ix2 r (0 : Fin 1))
        = ((zr + colPart (fZ xr (rowOf t r)) (t.val % 16) : ℝ) : EReal) :=
  ⟨(step_s (iblk m c 0 t) (iblk m c 1 t) (iblk m c 2 t) (iblk m c 3 t) (fr xr t) (fc xr t) (H.feat0 t) (H.feat1 t) s r sr hs).trans
      (by rw [contrib_s m c xr H t r]),
   (step_n (iblk m c 2 t) (iblk m c 3 t) n r nr hn).trans (by rw [contrib_n m c xr H t r]),
   (step_z (grid0.coords t) (iblk m c 0 t) (iblk m c 1 t) (fr xr t) (fc xr t) (H.feat0 t) (H.feat1 t) z r zr hz).trans
      (by rw [contrib_z m c xr H t r])⟩

include H in
/-- THE INVARIANT: after point `n`, row `r` of its row block has as its three running sums the first
    `n % 16 + 1` column blocks' parts of the row's three sums. -/
theorem acc_inv : ∀ (n : ℕ) (hn : n < cfg0.N) (r : Fin 1024),
    ((accAt m c n hn).1 : Vec Ideal S1024x1 .f32) (ix2 r (0 : Fin 1)) = ((partSum (fS m c xr (rowOf ⟨n, hn⟩ r)) (n % 16 + 1) : ℝ) : EReal)
    ∧ ((accAt m c n hn).2.1 : Vec Ideal S1024x1 .f32) (ix2 r (0 : Fin 1)) = ((partSum (fN m c (rowOf ⟨n, hn⟩ r)) (n % 16 + 1) : ℝ) : EReal)
    ∧ ((accAt m c n hn).2.2 : Vec Ideal S1024x1 .f32) (ix2 r (0 : Fin 1)) = ((partSum (fZ xr (rowOf ⟨n, hn⟩ r)) (n % 16 + 1) : ℝ) : EReal) := by
  have z5 : ∀ r : Fin 1024, (k0_pay5 (F := Ideal)) (ix2 r (0 : Fin 1)) = ((0 : ℝ) : EReal) :=
    fun r => (pay5_val (ix2 r (0 : Fin 1))).trans EReal.coe_zero.symm
  have z6 : ∀ r : Fin 1024, (k0_pay6 (F := Ideal)) (ix2 r (0 : Fin 1)) = ((0 : ℝ) : EReal) :=
    fun r => (pay6_val (ix2 r (0 : Fin 1))).trans EReal.coe_zero.symm
  have z7 : ∀ r : Fin 1024, (k0_pay7 (F := Ideal)) (ix2 r (0 : Fin 1)) = ((0 : ℝ) : EReal) :=
    fun r => (pay7_val (ix2 r (0 : Fin 1))).trans EReal.coe_zero.symm
  intro n
  induction n with
  | zero =>
    intro hn r
    rw [accAt_first_pay m c ⟨0, hn⟩ rfl]
    obtain ⟨e1, e2, e3⟩ := step_all m c xr H ⟨0, hn⟩ (k0_pay5 (F := Ideal)) (k0_pay6 (F := Ideal)) (k0_pay7 (F := Ideal)) r 0 0 0 (z5 r) (z6 r) (z7 r)
    refine ⟨e1.trans ?_, e2.trans ?_, e3.trans ?_⟩ <;>
      · rw [zero_add, partSum_one]; rfl
  | succ k ih =>
    intro hn r
    have hk : k < cfg0.N := Nat.lt_of_succ_lt hn
    by_cases h0 : (k + 1) % 16 = 0
    · rw [accAt_first_pay m c ⟨k + 1, hn⟩ h0]
      obtain ⟨e1, e2, e3⟩ := step_all m c xr H ⟨k + 1, hn⟩ (k0_pay5 (F := Ideal)) (k0_pay6 (F := Ideal)) (k0_pay7 (F := Ideal)) r 0 0 0 (z5 r) (z6 r) (z7 r)
      have hv : (⟨k + 1, hn⟩ : Fin cfg0.N).val % 16 = 0 := h0
      refine ⟨e1.trans ?_, e2.trans ?_, e3.trans ?_⟩ <;>
        · rw [hv, zero_add, partSum_one]
    · have hrow : rowOf ⟨k, hk⟩ r = rowOf ⟨k + 1, hn⟩ r := Fin.ext (by simp only [rowOf_val]; omega)
      have hcnt : k % 16 + 1 = (k + 1) % 16 := by omega
      obtain ⟨i1, i2, i3⟩ := ih hk r
      rw [hrow, hcnt] at i1 i2 i3
      have hacc : accAt m c (k + 1) hn
          = (k0_pay2 (k0_pay8 (iblk m c 0 ⟨k + 1, hn⟩) (iblk m c 1 ⟨k + 1, hn⟩)) (k0_pay9 (iblk m c 2 ⟨k + 1, hn⟩) (iblk m c 3 ⟨k + 1, hn⟩)) (accAt m c k hk).1,
             k0_pay3 (k0_pay9 (iblk m c 2 ⟨k + 1, hn⟩) (iblk m c 3 ⟨k + 1, hn⟩)) (accAt m c k hk).2.1,
             k0_pay1 (accAt m c k hk).2.2 (k0_pay10 (grid0.coords ⟨k + 1, hn⟩) (iblk m c 0 ⟨k + 1, hn⟩) (iblk m c 1 ⟨k + 1, hn⟩))) := by
        by_cases h1 : (k + 1) % 16 = 15
        · exact accAt_last_pay m c ⟨k + 1, hn⟩ h0 h1
        · exact accAt_middle_pay m c ⟨k + 1, hn⟩ h0 h1
      rw [hacc]
      obtain ⟨e1, e2, e3⟩ := step_all m c xr H ⟨k + 1, hn⟩ (accAt m c k hk).1 (accAt m c k hk).2.1 (accAt m c k hk).2.2 r _ _ _ i1 i2 i3
      exact ⟨e1.trans (by rw [partSum_succ]), e2.trans (by rw [partSum_succ]), e3.trans (by rw [partSum_succ])⟩

end Cert.KernelIdeal.Acc

end
-- ==== Proof.KiArrays.lean ====
/-
  The four buffers behind the five windows.

  The grid's five windows stand on four buffers: the row-block window and the column-block window both on the
  normalised features, the other three on a buffer each.  Holding the four buffers whole is the same as holding
  the five windows' arrays at their shares: the feature buffer splits into its two halves, one per window, and
  two halves at the same contents join again.
-/
import proofs.«121029_j88064009437247_1_alg».proof.Proof.KiBase

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD}

/-- The distinct buffers behind the windows, one by one. -/
theorem arrBufs_list (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v3) ↦{fullShare} W main_v3) ∗ (((c.tc : Thread nD τ).loc main_v4) ↦{fullShare} W main_v4)
          ∗ (((c.tc : Thread nD τ).loc main_v5) ↦{fullShare} W main_v5) ∗ (((c.tc : Thread nD τ).loc main_v6) ↦{fullShare} W main_v6)) := by
  unfold Pipeline.arrBufs
  exact bigSep_eq_bigSepL_of_eq [main_v3, main_v4, main_v5, main_v6] (by decide) (by decide) _

variable (dat : Dat τ (Elt F) Unit ℕ (UR sig nD τ) ℕ cfg0 c)

/-- The five windows' arrays at their shares, one by one: the feature buffer twice, at a half each. -/
theorem arrays_list (hq : dat.q = qs) (G : (w : Fin cfg0.W) → Buf (Elt F) ((cfg0.win w).arr.view.loc (c.tc : Thread nD τ))) :
    (dat.arrays G : sProp 𝕄)
      = iprop((((c.tc : Thread nD τ).loc main_v3) ↦{fullShare.left} G 0) ∗ (((c.tc : Thread nD τ).loc main_v3) ↦{fullShare.right} G 1)
          ∗ (((c.tc : Thread nD τ).loc main_v4) ↦{fullShare} G 2) ∗ (((c.tc : Thread nD τ).loc main_v5) ↦{fullShare} G 3)
          ∗ (((c.tc : Thread nD τ).loc main_v6) ↦{fullShare} G 4)) := by
  unfold Dat.arrays
  rw [bigSep_W0, (arr_whole0 0).set_eq_univ, (arr_whole0 2).set_eq_univ, (arr_whole0 3).set_eq_univ,
    (arr_whole0 4).set_eq_univ]
  unfold Dat.share
  rw [hq]
  rfl

/-- The four buffers held whole yield the five windows' arrays at their shares, at the same contents: the feature
    buffer splits into its halves. -/
theorem arrays_of_arrBufs (hq : dat.q = qs) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (Pipeline.arrBufs (Ix := Unit) (Name := ℕ) (U := UR sig nD τ) (Lvl := ℕ) spec0 c W : sProp 𝕄) ⊢ dat.arrays G := by
  rw [arrBufs_list, arrays_list dat hq, hG 0, hG 1, hG 2, hG 3, hG 4]
  exact (sep_mono (pointsTo_share (PosShare.mem_left_op_right fullShare)).1 .rfl).trans sep_assoc.1

/-- Conversely the five windows' arrays, all at the contents of the four buffers, give the four buffers back whole:
    the two halves of the feature buffer join. -/
theorem arrBufs_of_arrays (hq : dat.q = qs) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (dat.arrays G : sProp 𝕄) ⊢ Pipeline.arrBufs (Ix := Unit) (Name := ℕ) (U := UR sig nD τ) (Lvl := ℕ) spec0 c W := by
  rw [arrBufs_list, arrays_list dat hq, hG 0, hG 1, hG 2, hG 3, hG 4]
  exact sep_assoc.2.trans (sep_mono (pointsTo_share (PosShare.mem_left_op_right fullShare)).2 .rfl)

end Cert.KernelIdeal.Frm

end
-- ==== Proof.KiLaunch.lean ====
/-
  The idealized kernel's run, around its grid.

  @main is ten host operations (the rows normalised, the labels laid out), the grid, and six more (the result
  column reshaped, summed, divided by the number of rows, negated).  Given proof data for the grid — what each
  window's staging buffer holds after every point, an invariant over the three running sums, and the body's
  obligation at every point — every weakly fair execution terminates, the five windows' arrays end at what
  the proof data compute, and every other buffer ends at what the six later operations make of the buffers as
  the grid left them.

  Two windows stage the one normalised-feature array, so at the grid's entry the four distinct buffers are
  split into the five windows' arrays (the feature buffer into halves) and at its exit joined again, the
  inputs being unchanged.
-/
import proofs.«121029_j88064009437247_1_alg».proof.Proof.KiArrays

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the grid -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the grid continued by the six later operations, the buffers then at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] ⟨hostOps0_sub, hostOps0_1_sub⟩
    ⟨hostOps0_fresh, hostOps0_1_fresh⟩ main_chain

/-! ## The buffers when the grid is left, and after the six later operations -/

variable (dats : (c : Dev nD) → Dat τ (Elt F) Unit ℕ (UR sig nD τ) ℕ cfg0 c)

open Classical in
/-- The buffers as the grid leaves them: the result column at what the grid wrote back, every other buffer as the
    grid found it (no input array is ever written). -/
def Wx (c : Dev nD) : Valuation τ sig (Elt F) :=
  Function.update (V0 m c) (Proc.devRef .tc main_v6) ((dats c).arrAt 4 cfg0.N)

/-- The buffers after the six later operations, read at a TensorCore reference. -/
def tailV (c : Dev nD) (b : Ref sig .tc) : Buf (Elt F) ((c.tc : Thread nD τ).loc b) :=
  StableHlo.after (List.flatten [hostOps1]) (Wx m dats c) (Proc.devRef .tc b)

/-- At the result column the exit contents are what the grid wrote back. -/
theorem Wx_out (c : Dev nD) : Wx m dats c (Proc.devRef .tc main_v6) = (dats c).arrAt 4 cfg0.N := by
  unfold Wx; exact Function.update_self ..

/-- At any other buffer they are the entry contents. -/
theorem Wx_of_ne (c : Dev nD) (b : Ref sig .tc) (hb : b ≠ main_v6) : Wx m dats c (Proc.devRef .tc b) = V m c b := by
  unfold Wx; exact Function.update_of_ne (StableHlo.devRef_ne_of_ne hb) ..

/-- Each window's array ends at the exit contents of the buffer behind it: an input array is never written, the
    result array is the result column. -/
theorem arrAt_exit (c : Dev nD) (hA : ∀ w, (dats c).A w = V m c (Pipeline.arrRef spec0 w)) (w : Fin cfg0.W) :
    (dats c).arrAt w cfg0.N = Wx m dats c (Proc.devRef .tc (Pipeline.arrRef spec0 w)) := by
  fin_cases w
  · exact ((dats c).arrAt_in 0 rfl _).trans ((hA 0).trans (Wx_of_ne m dats c main_v3 (by decide)).symm)
  · exact ((dats c).arrAt_in 1 rfl _).trans ((hA 1).trans (Wx_of_ne m dats c main_v3 (by decide)).symm)
  · exact ((dats c).arrAt_in 2 rfl _).trans ((hA 2).trans (Wx_of_ne m dats c main_v4 (by decide)).symm)
  · exact ((dats c).arrAt_in 3 rfl _).trans ((hA 3).trans (Wx_of_ne m dats c main_v5 (by decide)).symm)
  · exact (Wx_out m dats c).symm

/-! ## The six later operations -/

/-- They touch unscoped TensorCore buffers only, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- and write no window's array: each writes only its own result buffer. -/
theorem tail_keeps : ∀ op ∈ (List.flatten [hostOps1] : List (HloOp τ sig (Elt F))), ∀ w, Proc.devRef .tc (Pipeline.arrRef spec0 w) ∉ op.writes := by
  intro op hop
  simp only [List.flatten_cons, List.flatten_nil, List.append_nil, hostOps1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- So a window's array holds after them what it held before. -/
theorem after_tail_arr (W : Valuation τ sig (Elt F)) (w : Fin cfg0.W) :
    StableHlo.after (List.flatten [hostOps1]) W (Proc.devRef .tc (Pipeline.arrRef spec0 w)) = W (Proc.devRef .tc (Pipeline.arrRef spec0 w)) :=
  StableHlo.after_of_forall_not_mem _ _ fun op hop => tail_keeps op hop w

/-- From the grid's exit — the five arrays at their final contents, every other unscoped buffer as the grid found it —
    the six later operations run, and hand back the arrays unchanged and the other buffers at `tailV`.  The arrays
    and the rest are first joined into all the unscoped buffers held whole at the exit contents (the two halves of
    the feature buffer joining), the operations run within that set, and the set is split again. -/
theorem tail_run (𝒱₀ : Variants) (c : Dev nD) (hq : (dats c).q = qs) (hA : ∀ w, (dats c).A w = V m c (Pipeline.arrRef spec0 w))
    (Q' : PUnit → sProp 𝕄) :
    iprop((iprop((dats c).arrays ((dats c).arrAt · cfg0.N)
              ∗ Pipeline.unscopedRest (Ix := Unit) (Name := ℕ) (U := UR sig nD τ) (Lvl := ℕ) spec0 c (tailV m dats c)) -∗ Q' ⟨⟩)
        ∗ boundary (c.tc : Thread nD τ) ∗ (dats c).arrays ((dats c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  classical
  have hpre : iprop((dats c).arrays ((dats c).arrAt · cfg0.N)
        ∗ Pipeline.unscopedRest (Ix := Unit) (Name := ℕ) (U := UR sig nD τ) (Lvl := ℕ) spec0 c (V m c))
      ⊢ (StableHlo.held (c.tc : Thread nD τ) (Pipeline.ucRefs τ sig) (Wx m dats c) : sProp 𝕄) := by
    rw [← Pipeline.unscopedBufs_held (Ix := Unit) (Name := ℕ) (U := UR sig nD τ) (Lvl := ℕ) c (Wx m dats c),
      Pipeline.unscopedBufs_split₀ cfgs 0 winFacts₀0.arr_unscoped c]
    refine sep_mono (arrBufs_of_arrays (dats c) hq _ _ (arrAt_exit m dats c hA)) (Entails.of_eq ?_)
    unfold Pipeline.unscopedRest
    refine bigSep_congr fun b hb => ?_
    exact congrArg _ (Wx_of_ne m dats c b fun e => (Finset.mem_sdiff.mp hb).2 (Finset.mem_image.mpr ⟨4, Finset.mem_univ _, e.symm⟩)).symm
  have hpost : (StableHlo.held (c.tc : Thread nD τ) (Pipeline.ucRefs τ sig) (StableHlo.after (List.flatten [hostOps1]) (Wx m dats c)) : sProp 𝕄)
      ⊢ iprop((dats c).arrays ((dats c).arrAt · cfg0.N)
        ∗ Pipeline.unscopedRest (Ix := Unit) (Name := ℕ) (U := UR sig nD τ) (Lvl := ℕ) spec0 c (tailV m dats c)) := by
    rw [← Pipeline.unscopedBufs_held (Ix := Unit) (Name := ℕ) (U := UR sig nD τ) (Lvl := ℕ) c (StableHlo.after (List.flatten [hostOps1]) (Wx m dats c)),
      Pipeline.unscopedBufs_split₀ cfgs 0 winFacts₀0.arr_unscoped c]
    refine sep_mono (arrays_of_arrBufs (dats c) hq _ _ fun w => ?_) .rfl
    exact (arrAt_exit m dats c hA w).trans (after_tail_arr _ w).symm
  show _ ⊢ wp frame _ Set.univ (Pipeline.chain (([hostOps1] : List (List (HloOp τ sig (Elt F)))).map StableHlo.seq ++ [])) Q'
  iintro ⟨Hk, Hb, Ha, Hr⟩
  ihave Hh := hpre $$ [Ha Hr]
  · isplitl [Ha] <;> iassumption
  iapply (Pipeline.wp_seqs_then (fun q => (cfgs q).toPCfg (Val := Elt F)) defs₀ 𝒱₀ c (Pipeline.ucRefs τ sig) [] [hostOps1] tail_sub tail_fresh (Wx m dats c)) $$ [Hb Hh]
  · isplitl [Hb] <;> iassumption
  iintro Hb
  rw [Pipeline.chain_nil, wp_pure]
  imodintro
  iapply Hk
  icases Hb with ⟨-, H⟩
  iapply hpost
  iexact H

/-! ## The run -/

/-- THE RUN around the grid.  For proof data whose arrays are the entry contents (`hA`), whose two feature windows
    hold a half each (`hq`), that owe nothing (`howed`), whose invariant is entered from and returned to the
    scratch-at-anything invariant (`hin`, `hout`) and whose body obligation holds at every point (`hbody`): from
    any memory with zero counters every weakly fair execution of @main terminates, each window's array ends at
    what the proof data compute, and every other unscoped buffer at what the six later operations leave. -/
theorem run_region (𝒱₀ : Variants)
    (hbody : ∀ c, Pipeline.BodyObligationLoose (dats c) defs₀ 𝒱₀ () Set.univ)
    (hq : ∀ c, (dats c).q = qs) (howed : ∀ c t, (dats c).owed t = 0)
    (hA : ∀ c w, (dats c).A w = V m c (Pipeline.arrRef spec0 w))
    (hin : ∀ c, (Pipeline.ΦA spec0 c : sProp 𝕄) ⊢ (dats c).Φ 0)
    (hout : ∀ c, (dats c).Φ (Fin.last cfg0.N) ⊢ (Pipeline.ΦA spec0 c : sProp 𝕄)) :
    θ_run (defs (F := F)) (onTc (τ := τ) (main (F := F))) (s₀ m ρ) (fun r => ∀ c : Dev nD,
      (∀ w, r.2.mem ((spec0 w).arr.view.loc (c.tc : Thread nD τ)) = (dats c).arrAt w cfg0.N)
      ∧ ∀ b ∈ Pipeline.restRefs sig spec0, r.2.mem ((c.tc : Thread nD τ).loc b) = tailV m dats c b) := by
  classical
  exact Pipeline.θ_run_region_pf_tail (fun q => (cfgs q).toPCfg (Val := Elt F)) (fun q => (cfgs q).toPCfg_adm) (fun _ c => dats c) () cellOf_inj 0
    winFacts₀0 (Pipeline.OwnSemFacts.none spec0) (Pipeline.PreFacts.none spec0) emb₁ defs₀ 𝒱₀ m ρ main
    (fun _ => Pipeline.chain [StableHlo.seq hostOps1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m 𝒱₀)
    (hsplit := fun c => arrays_of_arrBufs (dats c) (hq c) (V m c) _ fun w => hA c w)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (tailV m dats c))
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats 𝒱₀ c (hq c) (hA c) Q')
    (QY := fun c s => ∀ b ∈ Pipeline.restRefs sig spec0, s.mem ((c.tc : Thread nD τ).loc b) = tailV m dats c b)
    (hY := fun c s' => by
      iintro ⟨-, HU, HSI⟩
      unfold Pipeline.unscopedRest
      imodintro
      iapply (pointsTo_read_all (Pipeline.restRefs sig spec0) (fun b => (c.tc : Thread nD τ).loc b) (tailV m dats c) s')
      isplitl [HU] <;> iassumption)
    (hQ := fun s h c => ⟨(h c).1, (h c).2.2⟩)

end Cert.KernelIdeal.Frm

end
-- ==== Proof.KiFrame.lean ====
/-
  The idealized kernel runs, and leaves its arguments as it found them.

  The run around the grid, at the proof data of the body's three control cases: every weakly fair execution
  terminates; the result column ends at what the last column block of each row block stored; every other buffer
  ends at what the six later operations leave.  No operation of @main and no write-back of the grid touches the
  two argument arrays, so they end at their launch contents: the frame claim.
-/
import proofs.«121029_j88064009437247_1_alg».proof.Proof.KiBody
import proofs.«121029_j88064009437247_1_alg».proof.Proof.KiLaunch

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the host operations write -/

/-- The buffers the ten operations before the grid write: one each. -/
abbrev preW : List (Ref sig .tc) :=
  [main_call0_v0, main_call0_cst, main_call0_v1, main_call0_v2, main_v0, main_v1, main_v2, main_v3, main_v4, main_v5]

theorem pre_writes : (List.flatten [hostOps0, hostOps0_1] : List (HloOp τ sig (Elt F))).Forall
    fun op => op.writes ⊆ (preW.map (Proc.devRef (τ := τ) .tc)).toFinset := by
  simp only [List.flatten_cons, List.flatten_nil, List.append_nil, hostOps0, hostOps0_1, List.cons_append, List.nil_append, List.Forall]
  repeat' constructor
  all_goals (simp only [StableHlo.TRef.nullary, StableHlo.TRef.unary, StableHlo.TRef.binary, StableHlo.nullary_writes, StableHlo.unary_writes, StableHlo.binary_writes, StableHlo.reshape_writes, Finset.singleton_subset_iff, List.mem_toFinset]; exact List.mem_map_of_mem (by decide))

/-- A buffer none of them writes holds at the grid's entry what it held at launch. -/
theorem V_of_not_written (c : Dev nD) (r : Ref sig .tc) (h : r ∉ preW) : V m c r = m ((c.tc : Thread nD τ).loc r) :=
  StableHlo.after_of_writes_sub _ _ pre_writes h

/-- The buffers the six operations after the grid write. -/
abbrev tailW : List (Ref sig .tc) := [main_v7, main_cst, main_v8, main_cst_0, main_v9, main_v10]

theorem tail_writes : (List.flatten [hostOps1] : List (HloOp τ sig (Elt F))).Forall
    fun op => op.writes ⊆ (tailW.map (Proc.devRef (τ := τ) .tc)).toFinset := by
  simp only [List.flatten_cons, List.flatten_nil, List.append_nil, hostOps1, List.Forall]
  repeat' constructor
  all_goals (simp only [StableHlo.nullary_writes, StableHlo.unary_writes, StableHlo.binary_writes, StableHlo.reshape_writes, Finset.singleton_subset_iff, List.mem_toFinset]; exact List.mem_map_of_mem (by decide))

/-- A buffer that neither they nor the grid write ends at its entry contents. -/
theorem tailV_of_not_written (dats : (c : Dev nD) → Dat τ (Elt F) Unit ℕ (UR sig nD τ) ℕ cfg0 c) (c : Dev nD) (r : Ref sig .tc)
    (h : r ∉ tailW) (h6 : r ≠ main_v6) : tailV m dats c r = V m c r :=
  (StableHlo.after_of_writes_sub _ _ tail_writes h).trans (Wx_of_ne m dats c r h6)

/-! ## The run and the frame -/

/-- The run around the grid at the three cases' proof data. -/
theorem run_main : θ_run (defs (F := F)) (onTc (τ := τ) (main (F := F))) (s₀ m ρ) (fun r => ∀ c : Dev nD,
      (∀ w, r.2.mem ((spec0 w).arr.view.loc (c.tc : Thread nD τ)) = (dats m c).arrAt w cfg0.N)
      ∧ ∀ b ∈ Pipeline.restRefs sig spec0, r.2.mem ((c.tc : Thread nD τ).loc b) = tailV m (dats m) c b) :=
  run_region m ρ (dats m) Variants.none (fun c => sound_body m Variants.none c) (fun _ => rfl) (fun _ _ => rfl) (hA m) (hin m) (hout m)

/-- THE FRAME: the program runs to its end, and both argument arrays end as they were at launch. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 (Pipeline.mem_restRefs_of main_arg0 rfl (by decide))).trans
        ((tailV_of_not_written m (dats m) c main_arg0 (by decide) (by decide)).trans (V_of_not_written m c main_arg0 (by decide))),
     ((h c).2 main_arg1 (Pipeline.mem_restRefs_of main_arg1 rfl (by decide))).trans
        ((tailV_of_not_written m (dats m) c main_arg1 (by decide) (by decide)).trans (V_of_not_written m c main_arg1 (by decide)))⟩)
    (run_main m ρ)

end Cert.KernelIdeal.Frm

end
-- ==== Proof.KiResult.lean ====
/-
  The idealized kernel's result.

  After a row block's sixteenth column block the three running sums are the whole sums over the 8192 columns, and
  the block then stored holds, row by row, the mean shifted similarity over the row's positives less the logarithm
  of its guarded off-diagonal exponential sum: the shifted form's row value.  The stored blocks tile the result
  column; the six operations after the grid turn the column into minus the mean of its entries: the shifted form's
  result.
-/
import proofs.«121029_j88064009437247_1_alg».proof.Proof.KiAccum
import proofs.«121029_j88064009437247_1_alg».proof.Proof.KiFrame

set_option maxRecDepth 16384

noncomputable section

namespace Cert.KernelIdeal.Acc

open Idealize.ShloMosaic Idealize.ShloMosaic.ValueIdx Idealize.ShloMosaic.TcCoe Idealize.SL.Sem
open Cert.KernelIdeal Cert.KernelIdeal.Gen Cert.KernelIdeal.Frm Cert.KernelIdeal.Pay Cert.KernelIdeal.Part
open Cert.RefValue Cert.Spec Cert.LibERealSum Cert.KernelIdeal.Blk Cert.KernelIdeal.Host
open Finset BigOperators

/-- All sixteen column blocks' parts make the whole sum. -/
theorem partSum_all (f : Fin 8192 → ℝ) : partSum f 16 = ∑ q, f q :=
  Cert.LibBlockSum.sum_blocks_8192 f

variable (m : (ℓ : Loc nD τ sig) → Buf (Elt Ideal) ℓ) (c : Dev nD) (xr : Row → Col → ℝ)

/-- At a row block's last point the stored block holds, at row `r`, the shifted form's value of the global row. -/
theorem out_row (H : BlockReads m c xr) (t : Fin cfg0.N) (h1 : t.val % 16 = 15) (r : Fin 1024) :
    (outAt m c t : Vec Ideal S1024x1 .f32) (ix2 r (0 : Fin 1)) = ((rowK xr (lab m c) tempR epsR (rowOf t r) : ℝ) : EReal) := by
  have h0 : ¬ t.val % 16 = 0 := by omega
  have hacc := accAt_last_pay m c t h0 h1
  obtain ⟨i1, i2, i3⟩ := acc_inv m c xr H t.val t.isLt r
  have e16 : t.val % 16 + 1 = 16 := by omega
  rw [e16, partSum_all] at i1 i2 i3
  have hn0 : (∑ q, fN m c (rowOf t r) q) ≠ 0 := (sum_msk_pos (lab m c) (rowOf t r)).ne'
  have hzp : 0 < (∑ q, fZ xr (rowOf t r) q) + epsR :=
    add_pos_of_nonneg_of_pos
      (Finset.sum_nonneg fun q _ => mul_nonneg (Real.exp_pos _).le (by unfold nself; split_ifs <;> norm_num)) epsR_pos
  refine (congrFun (outAt_last_pay m c t h1) (ix2 r (0 : Fin 1))).trans ?_
  refine (pay4_val _ _ _ r _ _ _
    ((congrFun (congrArg (fun x => x.2.2) hacc) (ix2 r (0 : Fin 1))).symm.trans i3)
    ((congrFun (congrArg (fun x => x.1) hacc) (ix2 r (0 : Fin 1))).symm.trans i1)
    ((congrFun (congrArg (fun x => x.2.1) hacc) (ix2 r (0 : Fin 1))).symm.trans i2) hn0 hzp).trans ?_
  rfl

/-- THE KERNEL'S RESULT: with real entries and non-zero rows, the result scalar ends at the shifted form's value. -/
theorem kernel_result
    (hx : ∀ p k, (m ((c : Thread nD τ).loc main_arg0) : S8192x512.Idx → EReal) (ix2 p k) = ((xr p k : ℝ) : EReal))
    (hpos : ∀ p, 0 < nrm2 xr p) :
    (tailV m (dats m) c main_v10 : S_.Idx → EReal) = fun _ => ((resK xr (lab m c) tempR epsR : ℝ) : EReal) :=
  tail_eq (Wx m (dats m) c) (fun p => rowK xr (lab m c) tempR epsR p) fun p => by
    rw [Wx_out]
    exact arrAt4_apply m c (fun p => ((rowK xr (lab m c) tempR epsR p : ℝ) : EReal))
      (fun t h1 r => out_row m c xr (blockReads m c xr hx hpos) t h1 r) p

end Cert.KernelIdeal.Acc

end
-- ==== Proof.RefImports.lean ====
/-
  The reference's run and its read-at-an-index lemmas, gathered for the modules that read the reference's value.
-/
import proofs.«121029_j88064009437247_1_alg».proof.Proof.Gen.ReferenceIdeal.Run
import proofs.«121029_j88064009437247_1_alg».proof.Proof.Gen.ReferenceIdeal.Read
-- ==== Proof.RefStagesA.lean ====
/-
  The first stages of the max form of the loss, each read at an index as a real number: the squared length of
  a row, its square root, the row divided by its length, the inner product of two normalised rows, and that
  inner product divided by the temperature.  Every entry of the argument matrix is a real and every row is
  non-zero, so no stage leaves the reals: the sum of products of reals is a real, the square root of a
  non-negative real is the real square root, and division by a non-zero real is real division.
-/
import proofs.«121029_j88064009437247_1_alg».proof.Proof.RefImports
import proofs.«121029_j88064009437247_1_alg».proof.Proof.Spec
import proofs.«121029_j88064009437247_1_alg».proof.Proof.LibERealSum
import proofs.«121029_j88064009437247_1_alg».proof.Proof.RefConsts

noncomputable section

namespace Cert.RefValue

open Idealize.ShloMosaic Idealize.ShloMosaic.ValueIdx Cert.ReferenceIdeal Cert.ReferenceIdeal.Gen
  Cert.ReferenceIdeal.Read Cert.Spec Cert.LibERealSum
open Finset BigOperators

/-! ### The index maps of the layout operations, at coordinates -/

theorem idx_nrm2 (p : Row) (k : Col) : idx_main_call0_v1 (ix1 p) k = ix2 p k :=
  funext fun a => Fin.ext (by match a with | ⟨0, _⟩ => rfl | ⟨1, _⟩ => rfl)

theorem idx_col_row (p : Row) (z : Fin 1) : idx_main_call0_v2 (ix2 p z) = ix1 p :=
  funext fun a => Fin.ext (by match a with | ⟨0, _⟩ => rfl)

theorem idx_len (p : Row) (k : Col) : idx_main_v1 (ix2 p k) = ix2 p (0 : Fin 1) :=
  funext fun a => Fin.ext (by match a with | ⟨0, _⟩ => rfl | ⟨1, _⟩ => rfl)

theorem idx_dot_left (p q : Row) (k : Col) : lidx_main_v10 (ix2 p q) k = ix2 p k :=
  funext fun a => Fin.ext (by match a with | ⟨0, _⟩ => rfl | ⟨1, _⟩ => rfl)

theorem idx_dot_right (p q : Row) (k : Col) : idx_main_v9 (ridx_main_v10 (ix2 p q) k) = ix2 q k :=
  funext fun a => Fin.ext (by match a with | ⟨0, _⟩ => rfl | ⟨1, _⟩ => rfl)

section

variable (x0 : (⟨S8192x512, .f32⟩ : BufTy).Contents (Elt Ideal)) (xr : Row → Col → ℝ)
  (hx : ∀ p k, x0 (ix2 p k) = ((xr p k : ℝ) : EReal))

include hx

/-- The squared length of row `p`: zero plus the sum of the squares of its entries. -/
theorem nrm2_val (p : Row) :
    val_main_call0_v1 (F := Ideal) x0 (ix1 p) = ((nrm2 xr p : ℝ) : EReal) := by
  rw [val_main_call0_v1_apply]
  simp only [val_main_call0_cst_apply, val_main_call0_v0_apply, Ideal.ofBits_def, Ideal.mulf_def, idx_nrm2, hx,
    ofBits_zero, ← EReal.coe_mul]
  exact zero_add_sum_coe fun k => xr p k * xr p k

variable (hpos : ∀ p, 0 < nrm2 xr p)

include hpos

/-- The length of row `p`: the square root of a positive real. -/
theorem len_val (p : Row) (z : Fin 1) :
    val_main_v0 (F := Ideal) x0 (ix2 p z) = ((Real.sqrt (nrm2 xr p) : ℝ) : EReal) := by
  rw [val_main_v0_apply, val_main_call0_v2_apply, idx_col_row, nrm2_val x0 xr hx p, Ideal.hostUnary_sqrt_def]
  exact sqrt_coe_nonneg (hpos p).le

/-- Entry `(p, k)` of the normalised matrix: the entry divided by the (non-zero) length of its row. -/
theorem feat_val (p : Row) (k : Col) :
    val_main_v2 (F := Ideal) x0 (ix2 p k) = ((feat xr p k : ℝ) : EReal) := by
  rw [val_main_v2_apply, val_main_v1_apply, idx_len, len_val x0 xr hx hpos p 0, hx, Ideal.hostDivf_def]
  exact div_coe_coe _ (Real.sqrt_pos.2 (hpos p)).ne'

/-- The similarity of rows `p` and `q`: the inner product of the two normalised rows. -/
theorem sim_val (p q : Row) :
    val_main_v10 (F := Ideal) x0 (ix2 p q) = ((sim xr p q : ℝ) : EReal) := by
  rw [val_main_v10_apply]
  simp only [val_main_v9_apply, idx_dot_left, idx_dot_right, feat_val x0 xr hx hpos, ← EReal.coe_mul]
  exact (coe_sum fun k => feat xr p k * feat xr q k).symm

/-- The similarity divided by the temperature. -/
theorem lg_val (p q : Row) :
    val_main_v12 (F := Ideal) x0 (ix2 p q) = ((lg xr tempR p q : ℝ) : EReal) := by
  rw [val_main_v12_apply, val_main_v11_apply, val_main_cst_apply, sim_val x0 xr hx hpos p q, Ideal.ofBits_def,
    ofBits_temp, Ideal.hostDivf_def]
  exact div_coe_coe _ tempR_ne

end

end Cert.RefValue

end
-- ==== Proof.RefMax.lean ====
/-
  The row maximum of the scaled similarities.  The reference folds the maximum over a row from minus infinity;
  over a non-empty finite family of reals that fold is the largest of them, so the stage is a real: the
  supremum of the row's scaled similarities.
-/
import proofs.«121029_j88064009437247_1_alg».proof.Proof.RefStagesA

noncomputable section

namespace Cert.RefValue

open Idealize.ShloMosaic Idealize.ShloMosaic.ValueIdx Cert.ReferenceIdeal Cert.ReferenceIdeal.Gen
  Cert.ReferenceIdeal.Read Cert.Spec Cert.LibERealSum
open Finset BigOperators

/-- The fold of the maximum, started at the least extended real, over a non-empty finite family of reals is the
    largest member of the family. -/
theorem fold_max_coe {ι : Type*} (s : Finset ι) (hs : s.Nonempty) (f : ι → ℝ) :
    s.fold max (⊥ : EReal) (fun i => ((f i : ℝ) : EReal)) = ((s.sup' hs f : ℝ) : EReal) := by
  induction hs using Finset.Nonempty.cons_induction with
  | singleton a => rw [Finset.fold_singleton, Finset.sup'_singleton, max_eq_left bot_le]
  | cons a s ha hs ih => rw [Finset.fold_cons, ih, Finset.sup'_cons hs, max_coe]

section

variable (x0 : (⟨S8192x512, .f32⟩ : BufTy).Contents (Elt Ideal)) (xr : Row → Col → ℝ)
  (hx : ∀ p k, x0 (ix2 p k) = ((xr p k : ℝ) : EReal)) (hpos : ∀ p, 0 < nrm2 xr p)

include hx hpos

/-- The largest scaled similarity of row `p`. -/
theorem mx_val (p : Row) :
    val_main_v13 (F := Ideal) x0 (ix1 p) = ((mx xr tempR p : ℝ) : EReal) := by
  have h : S8192x8192.Reduces [1] S8192 := by decide
  have key := Host.reduce_eq_fold_single (α := EReal) (FloatOps.maximumf (F := Ideal) (φ := .f32))
    (val_main_v12 (F := Ideal) x0) (val_main_cst_0 (F := Ideal)) reducesTo_S8192x8192_S8192_d1 h h_S_ (ix1 p)
  refine key.trans ?_
  have hf : (val_main_v12 (F := Ideal) x0 ∘ h.lift (ix1 p)) = fun k : Fin 8192 => ((lg xr tempR p k : ℝ) : EReal) :=
    funext fun k => by
      show val_main_v12 (F := Ideal) x0 (h.lift (ix1 p) k) = _
      rw [show h.lift (ix1 p) k = ix2 p k from
        funext fun c => Fin.ext (by match c with | ⟨0, _⟩ => rfl | ⟨1, _⟩ => rfl)]
      exact lg_val x0 xr hx hpos p k
  rw [hf, val_main_cst_0_apply, Ideal.ofBits_def, ofBits_neg_inf]
  exact fold_max_coe Finset.univ ⟨p, Finset.mem_univ p⟩ (lg xr tempR p)

end

end Cert.RefValue

end
-- ==== Proof.RefStagesB.lean ====
/-
  The middle stages of the max form of the loss, each read at an index as a real number: a scaled similarity
  less its row's maximum, the indicator of being off the diagonal, the exponential of the shifted entry, the
  guarded sum of a row's off-diagonal exponentials, its logarithm, and the log-probability of an entry.

  The diagonal indicator compares a row number with a column number as 32-bit words; both are below 8192, so
  the words are equal exactly when the numbers are.  The guarded sum is a sum of non-negative reals plus a
  positive guard, so it is positive and its logarithm is the real logarithm.
-/
import proofs.«121029_j88064009437247_1_alg».proof.Proof.RefMax

noncomputable section

namespace Cert.RefValue

open Idealize.ShloMosaic Idealize.ShloMosaic.ValueIdx Cert.ReferenceIdeal Cert.ReferenceIdeal.Gen
  Cert.ReferenceIdeal.Read Cert.Spec Cert.LibERealSum
open Finset BigOperators

/-! ### The index maps of the layout operations, at coordinates -/

theorem idx_rowmax (p q : Row) : idx_main_v14 (idx_main_v15 (ix2 p q)) = ix1 p :=
  funext fun a => Fin.ext (by match a with | ⟨0, _⟩ => rfl)

theorem idx_esum (p : Row) (k : Row) : idx_main_v27 (ix1 p) k = ix2 p k :=
  funext fun a => Fin.ext (by match a with | ⟨0, _⟩ => rfl | ⟨1, _⟩ => rfl)

theorem idx_esum_col (p : Row) (z : Fin 1) : idx_main_v28 (ix2 p z) = ix1 p :=
  funext fun a => Fin.ext (by match a with | ⟨0, _⟩ => rfl)

theorem idx_log (p q : Row) : idx_main_v32 (ix2 p q) = ix2 p (0 : Fin 1) :=
  funext fun a => Fin.ext (by match a with | ⟨0, _⟩ => rfl | ⟨1, _⟩ => rfl)

/-! ### A comparison for equality, converted to a float -/

/-- The word of an equality comparison, read as a float, is one when the operands are equal and zero otherwise. -/
theorem uitofp_cmpi_eq {w : Nat} (a b : BitVec w) :
    FloatOps.uitofp (F := Ideal) .f32 (IntOp.cmpi .eq a b) = (((if a = b then (1 : ℝ) else 0 : ℝ)) : EReal) := by
  show (((IntOp.cmpi .eq a b).toNat : ℝ) : EReal) = _
  by_cases h : a = b
  · subst h; simp [IntOp.cmpi]
  · have hb : (a == b) = false := by rw [beq_eq_false_iff_ne]; exact h
    simp [IntOp.cmpi, hb, h]

/-- Two row numbers are equal exactly when their 32-bit words are: both are below `2^32`. -/
theorem ofNat_inj (p q : Row) : BitVec.ofNat 32 p.val = BitVec.ofNat 32 q.val ↔ p = q := by
  constructor
  · intro h
    have h' := congrArg BitVec.toNat h
    simp only [BitVec.toNat_ofNat] at h'
    have := p.isLt; have := q.isLt
    exact Fin.ext (by omega)
  · rintro rfl; rfl

/-- One off the diagonal, zero on it. -/
theorem nself_val (p q : Row) :
    val_main_v24 (F := Ideal) (ix2 p q) = (((1 : ℝ) - (if p = q then (1 : ℝ) else 0) : ℝ) : EReal) := by
  rw [val_main_v24_apply, val_main_v23_apply, val_main_cst_1_apply, val_main_v22_apply, val_main_v21_apply,
    val_main_v20_apply, val_main_v17_apply, val_main_v18_apply, val_main_v19_apply, val_main_c_apply,
    Ideal.ofBits_def, ofBits_one, Ideal.subf_def, uitofp_cmpi_eq]
  show ((1 : ℝ) : EReal) - (((if IntOp.addi (BitVec.ofNat 32 p.val) 0#32 = BitVec.ofNat 32 q.val then (1 : ℝ) else 0 : ℝ)) : EReal) = _
  simp only [IntOp.addi, BitVec.add_zero, ofNat_inj, ← EReal.coe_sub]

section

variable (x0 : (⟨S8192x512, .f32⟩ : BufTy).Contents (Elt Ideal)) (xr : Row → Col → ℝ)
  (hx : ∀ p k, x0 (ix2 p k) = ((xr p k : ℝ) : EReal)) (hpos : ∀ p, 0 < nrm2 xr p)

/-- The guarded sum of row `p`'s off-diagonal exponentials. -/
def gsum (p : Row) : ℝ :=
  (∑ q', Real.exp (shR xr tempR p q') * (1 - (if p = q' then (1 : ℝ) else 0))) + epsR

/-- It is positive: every term is an exponential times zero or one, and the guard is positive. -/
theorem gsum_pos (p : Row) : 0 < gsum xr p := by
  unfold gsum
  refine add_pos_of_nonneg_of_pos (Finset.sum_nonneg fun q' _ => mul_nonneg (Real.exp_pos _).le ?_) epsR_pos
  split_ifs <;> norm_num

include hx hpos

/-- A scaled similarity less its row's maximum. -/
theorem shR_val (p q : Row) :
    val_main_v16 (F := Ideal) x0 (ix2 p q) = ((shR xr tempR p q : ℝ) : EReal) := by
  rw [val_main_v16_apply, val_main_v15_apply, val_main_v14_apply, idx_rowmax, lg_val x0 xr hx hpos p q,
    mx_val x0 xr hx hpos p, Ideal.subf_def, ← EReal.coe_sub]
  rfl

/-- The exponential of a shifted entry, kept off the diagonal and dropped on it. -/
theorem eterm_val (p q : Row) :
    val_main_v26 (F := Ideal) x0 (ix2 p q)
      = ((Real.exp (shR xr tempR p q) * (1 - (if p = q then (1 : ℝ) else 0)) : ℝ) : EReal) := by
  rw [val_main_v26_apply, val_main_v25_apply, shR_val x0 xr hx hpos p q, nself_val, Ideal.hostUnary_exp_def,
    Ideal.exp_coe, Ideal.mulf_def, ← EReal.coe_mul]

/-- The guarded sum, as the reference forms it: zero plus the row's sum, plus the guard. -/
theorem gsum_val (p : Row) (z : Fin 1) :
    val_main_v30 (F := Ideal) x0 (ix2 p z) = ((gsum xr p : ℝ) : EReal) := by
  rw [val_main_v30_apply, val_main_v28_apply, idx_esum_col, val_main_v27_apply, val_main_v29_apply,
    val_main_cst_3_apply, val_main_cst_2_apply]
  simp only [Ideal.ofBits_def, ofBits_zero, ofBits_eps, idx_esum, eterm_val x0 xr hx hpos, Ideal.addf_def]
  rw [zero_add_sum_coe, ← EReal.coe_add]
  rfl

/-- Its logarithm is the real logarithm. -/
theorem log_val (p : Row) (z : Fin 1) :
    val_main_v31 (F := Ideal) x0 (ix2 p z) = ((Real.log (gsum xr p) : ℝ) : EReal) := by
  rw [val_main_v31_apply, gsum_val x0 xr hx hpos p z, Ideal.hostUnary_log_def, Ideal.log_coe,
    if_neg (not_le.2 (gsum_pos xr p))]

/-- The log-probability of entry `(p, q)`. -/
theorem lpR_val (p q : Row) :
    val_main_v33 (F := Ideal) x0 (ix2 p q) = ((lpR xr tempR epsR p q : ℝ) : EReal) := by
  rw [val_main_v33_apply, val_main_v32_apply, idx_log, shR_val x0 xr hx hpos p q, log_val x0 xr hx hpos p 0,
    Ideal.subf_def, ← EReal.coe_sub]
  rfl

end

end Cert.RefValue

end
-- ==== Proof.RefValue.lean ====
/-
  The value of the max form of the loss.  The last stages, each read at an index as a real number: the
  indicator that two rows carry the same label, a row's mean log-probability over its positives, the sum of
  those means over the rows, its division by the number of rows, and the negation.  A row is always a
  positive of itself, so the number of positives of a row is at least one and the mean is a real division.
  Together with the earlier stages this says the reference's result is the max form of the specification.
-/
import proofs.«121029_j88064009437247_1_alg».proof.Proof.RefStagesB

noncomputable section

namespace Cert.RefValue

open Idealize.ShloMosaic Idealize.ShloMosaic.ValueIdx Cert.ReferenceIdeal Cert.ReferenceIdeal.Gen
  Cert.ReferenceIdeal.Read Cert.Spec Cert.LibERealSum
open Finset BigOperators

/-! ### The index maps of the layout operations, at coordinates -/

theorem idx_lab_row (p q : Row) : idx_main_v3 (idx_main_v5 (ix2 p q)) = ix1 p :=
  funext fun a => Fin.ext (by match a with | ⟨0, _⟩ => rfl)

theorem idx_lab_col (p q : Row) : idx_main_v4 (idx_main_v6 (ix2 p q)) = ix1 q :=
  funext fun a => Fin.ext (by match a with | ⟨0, _⟩ => rfl)

theorem idx_psum (p k : Row) : idx_main_v35 (ix1 p) k = ix2 p k :=
  funext fun a => Fin.ext (by match a with | ⟨0, _⟩ => rfl | ⟨1, _⟩ => rfl)

theorem idx_cnt (p k : Row) : idx_main_v36 (ix1 p) k = ix2 p k :=
  funext fun a => Fin.ext (by match a with | ⟨0, _⟩ => rfl | ⟨1, _⟩ => rfl)

/-- The indices of a vector of 8192 entries are the row numbers. -/
def idxEquiv1 : S8192.Idx ≃ Row where
  toFun i := i 0
  invFun p := ix1 p
  left_inv i := (eq_ix1 i).symm
  right_inv _ := rfl

/-- A row is a positive of itself, so it has at least one positive. -/
theorem cnt_pos (l : Row → BitVec 32) (p : Row) : 0 < ∑ q, msk l p q := by
  have h1 : msk l p p = 1 := by unfold msk; rw [if_pos rfl]
  have hle : msk l p p ≤ ∑ q, msk l p q :=
    Finset.single_le_sum (f := fun q => msk l p q) (fun q _ => by unfold msk; split_ifs <;> norm_num)
      (Finset.mem_univ p)
  linarith

section

variable (x0 : (⟨S8192x512, .f32⟩ : BufTy).Contents (Elt Ideal)) (x1 : (⟨S8192, .i32⟩ : BufTy).Contents (Elt Ideal))
  (xr : Row → Col → ℝ) (hx : ∀ p k, x0 (ix2 p k) = ((xr p k : ℝ) : EReal)) (hpos : ∀ p, 0 < nrm2 xr p)

/-- One when rows `p` and `q` carry the same label, zero otherwise. -/
theorem msk_val (p q : Row) :
    val_main_v8 (F := Ideal) x1 (ix2 p q) = ((msk (fun r => x1 (ix1 r)) p q : ℝ) : EReal) := by
  rw [val_main_v8_apply, val_main_v7_apply, val_main_v5_apply, val_main_v3_apply, val_main_v6_apply,
    val_main_v4_apply, idx_lab_row, idx_lab_col, uitofp_cmpi_eq]
  rfl

/-- The number of positives of row `p`. -/
theorem cnt_val (p : Row) :
    val_main_v36 (F := Ideal) x1 (ix1 p) = ((∑ q, msk (fun r => x1 (ix1 r)) p q : ℝ) : EReal) := by
  rw [val_main_v36_apply, val_main_cst_5_apply]
  simp only [Ideal.ofBits_def, ofBits_zero, idx_cnt, msk_val x1]
  exact zero_add_sum_coe _

include hx hpos

/-- The sum of the log-probabilities of row `p`'s positives. -/
theorem psum_val (p : Row) :
    val_main_v35 (F := Ideal) x0 x1 (ix1 p)
      = ((∑ q, msk (fun r => x1 (ix1 r)) p q * lpR xr tempR epsR p q : ℝ) : EReal) := by
  rw [val_main_v35_apply, val_main_cst_4_apply]
  simp only [Ideal.ofBits_def, ofBits_zero, idx_psum, val_main_v34_apply, msk_val x1, lpR_val x0 xr hx hpos,
    Ideal.mulf_def, ← EReal.coe_mul]
  exact zero_add_sum_coe _

/-- Row `p`'s mean log-probability over its positives. -/
theorem rowR_val (p : Row) :
    val_main_v37 (F := Ideal) x0 x1 (ix1 p) = ((rowR xr (fun r => x1 (ix1 r)) tempR epsR p : ℝ) : EReal) := by
  rw [val_main_v37_apply, psum_val x0 x1 xr hx hpos p, cnt_val x1 p, Ideal.hostDivf_def]
  exact div_coe_coe _ (cnt_pos _ p).ne'

/-- The sum of the rows' means. -/
theorem total_val (i : S_.Idx) :
    val_main_v38 (F := Ideal) x0 x1 i = ((∑ p, rowR xr (fun r => x1 (ix1 r)) tempR epsR p : ℝ) : EReal) := by
  have hsum : ∑ j : S8192.Idx, val_main_v37 (F := Ideal) x0 x1 j
      = ∑ p : Row, val_main_v37 (F := Ideal) x0 x1 (ix1 p) :=
    (Equiv.sum_comp idxEquiv1.symm _).symm
  rw [val_main_v38_apply, val_main_cst_6_apply, Ideal.ofBits_def, ofBits_zero, hsum]
  simp only [rowR_val x0 x1 xr hx hpos]
  exact zero_add_sum_coe _

/-- The reference's result is the max form of the loss: minus the mean over the rows of the rows' means. -/
theorem ref_value :
    val_main_v40 (F := Ideal) x0 x1 = fun _ => ((resR xr (fun p => x1 (ix1 p)) tempR epsR : ℝ) : EReal) := by
  funext i
  rw [val_main_v40_apply, val_main_v39_apply, total_val x0 x1 xr hx hpos i, val_main_cst_7_apply, Ideal.ofBits_def,
    ofBits_rows, Ideal.hostDivf_def, div_coe_coe _ (by norm_num : (8192 : ℝ) ≠ 0), Ideal.hostNegf_def,
    Ideal.negf_def, ← EReal.coe_neg]
  rfl

end

end Cert.RefValue

end
-- ==== Proof.lean ====
/-
  A supervised-contrastive loss kernel against its reference.

  Both programs divide each of the 8192 feature rows by its Euclidean length, form all pairwise similarities of the
  rows scaled by a temperature, and return minus the mean over the rows of the mean log-probability of a row's
  same-label entries — the row's own entry left out of the softmax denominator, a small guard added inside the
  logarithm.  The reference divides by the temperature and subtracts each row's maximum.  The kernel multiplies by
  the temperature's reciprocal — a folded constant, read here as exactly that reciprocal — and subtracts that same
  constant: a unit vector's similarity with itself is 1 and, by the Cauchy–Schwarz inequality, no entry of its row
  is larger, so the constant IS the row maximum whenever the row is non-zero, which the precondition grants along
  with finiteness.  The kernel never forms the 8192 × 8192 matrix: it walks a grid of 8 row blocks by 16 column
  blocks keeping three running sums per row (mask × shifted similarity, the mask, the off-diagonal exponentials),
  and finishes a row block at its last column block; sixteen column blocks' parts of a sum are the sum.

  The two kernel programs' frames come from one run around the grid (the body's three control cases run once
  each, the launch split around two windows that stage the same array); the reference's frame and value from its
  run read one operation at a time; the two results are one real number by the law between the shifted form and
  the max form of the loss.
-/
import proofs.«121029_j88064009437247_1_alg».proof.Defs
import proofs.«121029_j88064009437247_1_alg».proof.Proof.Gen.Kernel
import proofs.«121029_j88064009437247_1_alg».proof.Proof.Gen.KernelIdeal
import proofs.«121029_j88064009437247_1_alg».proof.Proof.Gen.ReferenceIdeal
import proofs.«121029_j88064009437247_1_alg».proof.Proof.Gen.Pre_finite_inputs
import proofs.«121029_j88064009437247_1_alg».proof.Proof.KbFrame
import proofs.«121029_j88064009437247_1_alg».proof.Proof.KiResult
import proofs.«121029_j88064009437247_1_alg».proof.Proof.RefValue
import proofs.«121029_j88064009437247_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to its end and leaves its arguments unchanged. -/
theorem frame_k : Cert.frame_Kernel := fun m ρ _ => Cert.Kernel.Frm.frame m ρ

/-- So does the idealized kernel. -/
theorem frame_ki : Cert.frame_KernelIdeal := fun m ρ _ => Cert.KernelIdeal.Frm.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's two rewrites, both of the one folded constant: it denotes the reciprocal of the reference's
    temperature exactly. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

/-- Over the extended reals the idealized kernel and the idealized reference end with the same number: the
    kernel with the loss's shifted form, the reference with its max form, of real entries with non-zero rows. -/
theorem algebraic : Cert.algebraic_KernelIdeal_ReferenceIdeal := by
  intro m ρ m' ρ' hpre hagree
  have hreal : ∀ c : Dev Cert.KernelIdeal.nD, ∃ xr : Cert.Spec.Row → Cert.Spec.Col → ℝ,
      (∀ p k, (m ((c.tc : Thread Cert.KernelIdeal.nD Cert.KernelIdeal.τ).loc Cert.KernelIdeal.main_arg0) : Cert.KernelIdeal.S8192x512.Idx → EReal)
          (ValueIdx.ix2 p k) = ((xr p k : ℝ) : EReal))
      ∧ ∀ p, 0 < Cert.Spec.nrm2 xr p := fun c => Cert.PreReal.real_rows _ _ (hpre c)
  choose xr hx hpos using hreal
  refine ⟨fun c => fun _ => ((Cert.Spec.resK (xr c) (Cert.KernelIdeal.Acc.lab m c) Cert.RefValue.tempR Cert.RefValue.epsR : ℝ) : EReal), ?_, ?_⟩
  · refine (θ_run Cert.KernelIdeal.defs _ _).mono (fun r h c => ⟨?_, ?_, ?_⟩) (Cert.KernelIdeal.Frm.run_main (F := Ideal) m ρ)
    · exact ((h c).2 Cert.KernelIdeal.main_v10 (Pipeline.mem_restRefs_of Cert.KernelIdeal.main_v10 rfl (by decide))).trans
        (Cert.KernelIdeal.Acc.kernel_result m c (xr c) (hx c) (hpos c))
    · exact ((h c).2 Cert.KernelIdeal.main_arg0 (Pipeline.mem_restRefs_of Cert.KernelIdeal.main_arg0 rfl (by decide))).trans
        ((Cert.KernelIdeal.Frm.tailV_of_not_written m (Cert.KernelIdeal.Frm.dats m) c Cert.KernelIdeal.main_arg0 (by decide) (by decide)).trans
          (Cert.KernelIdeal.Frm.V_of_not_written m c Cert.KernelIdeal.main_arg0 (by decide)))
    · exact ((h c).2 Cert.KernelIdeal.main_arg1 (Pipeline.mem_restRefs_of Cert.KernelIdeal.main_arg1 rfl (by decide))).trans
        ((Cert.KernelIdeal.Frm.tailV_of_not_written m (Cert.KernelIdeal.Frm.dats m) c Cert.KernelIdeal.main_arg1 (by decide) (by decide)).trans
          (Cert.KernelIdeal.Frm.V_of_not_written m c Cert.KernelIdeal.main_arg1 (by decide)))
  · refine (θ_run Cert.ReferenceIdeal.defs _ _).mono (fun r h c => ⟨?_, (h c).2⟩)
      (Cert.ReferenceIdeal.Value.run (F := Ideal) m' ρ')
    rw [(h c).1, Cert.ReferenceIdeal.Read.val_main_v40_eq, (hagree c).1, (hagree c).2,
      Cert.RefValue.ref_value _ _ (xr c) (hx c) (hpos c)]
    exact funext fun _ => congrArg (fun t : ℝ => ((t : ℝ) : EReal))
      (Cert.Spec.resK_eq_resR (xr c) (Cert.KernelIdeal.Acc.lab m c) Cert.RefValue.tempR Cert.RefValue.epsR
        Cert.RefValue.tempR_pos Cert.RefValue.epsR_pos (hpos c)).symm

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
